-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S128x1024 : Shape := ⟨2, ![128, 1024]⟩
abbrev S128 : Shape := ⟨1, ![128]⟩
abbrev S1024x128 : Shape := ⟨2, ![1024, 128]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part3 {F : FTy → Type} [FloatOps F] (main_arg11 : FVec F S1024x4096 .f32) (main_arg12 : FVec F S1024 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S1024x4096 .f32 := Host.absf main_arg11
  let main_cst_20 : FVec F S_ .f32 := constant S_ .f32 0x7F800000#32
  let main_v55 : FVec F S1024x4096 .f32 := broadcastInDim S1024x4096 ![] bcast_S_S1024x4096 main_cst_20
  let main_v56 : IVec S1024x4096 1 := cmpf .olt main_v54 main_v55
  let main_c_21 : IVec S_ 1 := constantI S_ 1 1#1
  let main_v57 : IVec S_ 1 := (fun x v => Host.reduce IntOp.andi x v reducesTo_S1024x4096_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S1024x128 .f32) (main_arg8 : FVec F S1024 .f32) (main_arg9 : FVec F S4096x1024 .f32) (main_arg10 : FVec F S4096 .f32) (main_arg11 : FVec F S1024x4096 .f32) (main_arg12 : FVec F S1024 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S128 .f32) (main_arg5 : FVec F S128x1024 .f32) (main_arg6 : FVec F S128 .f32) (main_arg7 : FVec F S1024x128 .f32) (main_arg8 : FVec F S1024 .f32) (main_arg9 : FVec F S4096x1024 .f32) (main_arg10 : FVec F S4096 .f32) (main_arg11 : FVec F S1024x4096 .f32) (main_arg12 : FVec F S1024 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1024 .f32 := Host.absf main_arg5
  let main_cst_8 : FVec F S_ .f32 := constant S_ .f32 0x7F800000#32
  let main_v25 : FVec F S128x1024 .f32 := broadcastInDim S128x1024 ![] bcast_S_S128x1024 main_cst_8
  let main_v26 : IVec S128x1024 1 := cmpf .olt main_v24 main_v25
  let main_c_9 : IVec S_ 1 := constantI S_ 1 1#1
  let main_v27 : IVec S_ 1 := (fun x v => Host.reduce IntOp.andi x v reducesTo_S128x1024_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x1024 .f32) (main_arg1 : FVec F S128x1024 .f32) (main_arg2 : FVec F S128 .f32) (main_arg3 : FVec F S128x1024 .f32) (main_arg4 : FVec F S128 .f32) (main_arg5 : FVec F S128x1024 .f32) (main_arg6 : FVec F S128 .f32) (main_arg7 : FVec F S1024x128 .f32) (main_arg8 : FVec F S1024 .f32) (main_arg9 : FVec F S4096x1024 .f32) (main_arg10 : FVec F S4096 .f32) (main_arg11 : FVec F S1024x4096 .f32) (main_arg12 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_arg8 main_arg9 main_arg10 main_arg11 main_arg12 main_v13 main_v16
-- ==== Kernel.lean ====
abbrev S8192x1024 : Shape := ⟨2, ![8192, 1024]⟩
abbrev S128x1024 : Shape := ⟨2, ![128, 1024]⟩
abbrev S128 : Shape := ⟨1, ![128]⟩
abbrev S1024x128 : Shape := ⟨2, ![1024, 128]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S1x128 : Shape := ⟨2, ![1, 128]⟩
abbrev S1x1024 : Shape := ⟨2, ![1, 1024]⟩
abbrev S1x4096 : Shape := ⟨2, ![1, 4096]⟩
abbrev S2x128x128 : Shape := ⟨3, ![2, 128, 128]⟩
abbrev S2048x1024 : Shape := ⟨2, ![2048, 1024]⟩
abbrev S1x128x128 : Shape := ⟨3, ![1, 128, 128]⟩
abbrev S128x128 : Shape := ⟨2, ![128, 128]⟩
abbrev S2048x128 : Shape := ⟨2, ![2048, 128]⟩
abbrev S512x1024 : Shape := ⟨2, ![512, 1024]⟩
abbrev S512x128 : Shape := ⟨2, ![512, 128]⟩
abbrev S1024x2048 : Shape := ⟨2, ![1024, 2048]⟩
abbrev S1x2048 : Shape := ⟨2, ![1, 2048]⟩
abbrev S512x2048 : Shape := ⟨2, ![512, 2048]⟩

abbrev nBuf : Space → Nat
  | .hbm => 39
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S128x1024, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S1024x128, .f32⟩
  | .hbm, ⟨8, _⟩ => ⟨S1024, .f32⟩
  | .hbm, ⟨9, _⟩ => ⟨S4096x1024, .f32⟩
  | .hbm, ⟨10, _⟩ => ⟨S4096, .f32⟩
  | .hbm, ⟨11, _⟩ => ⟨S1024x4096, .f32⟩
  | .hbm, ⟨12, _⟩ => ⟨S1024, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .bf16⟩
  | .hbm, ⟨19, _⟩ => ⟨S128x1024, .f32⟩
  | .hbm, ⟨20, _⟩ => ⟨S128x1024, .bf16⟩
  | .hbm, ⟨21, _⟩ => ⟨S1024x4096, .f32⟩
  | .hbm, ⟨22, _⟩ => ⟨S1024x4096, .bf16⟩
  | .hbm, ⟨23, _⟩ => ⟨S4096x1024, .f32⟩
  | .hbm, ⟨24, _⟩ => ⟨S4096x1024, .bf16⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x1024, .f32⟩
  | .hbm, ⟨29, _⟩ => ⟨S1x4096, .f32⟩
  | .hbm, ⟨30, _⟩ => ⟨S1x1024, .f32⟩
  | .hbm, ⟨31, _⟩ => ⟨S2x128x128, .f32⟩
  | .hbm, ⟨32, _⟩ => ⟨S1x128x128, .f32⟩
  | .hbm, ⟨33, _⟩ => ⟨S128x128, .f32⟩
  | .hbm, ⟨34, _⟩ => ⟨S1x128x128, .f32⟩
  | .hbm, ⟨35, _⟩ => ⟨S128x128, .f32⟩
  | .hbm, ⟨36, _⟩ => ⟨S128x128, .f32⟩
  | .hbm, ⟨37, _⟩ => ⟨S128x128, .bf16⟩
  | .hbm, ⟨38, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x128, .bf16⟩
  | .local _ .vmem, ⟨3, _⟩ => ⟨S1x128, .f32⟩
  | .local _ .vmem, ⟨4, _⟩ => ⟨S1024x128, .bf16⟩
  | .local _ .vmem, ⟨5, _⟩ => ⟨S1x128, .f32⟩
  | .local _ .vmem, ⟨6, _⟩ => ⟨S1x128x128, .f32⟩
  | .local _ .vmem, ⟨7, _⟩ => ⟨S1x128x128, .f32⟩
  | .local _ .vmem, ⟨8, _⟩ => ⟨S128x128, .f32⟩
  | .local _ .vmem, ⟨9, _⟩ => ⟨S512x1024, .f32⟩
  | .local _ .vmem, ⟨10, _⟩ => ⟨S512x1024, .f32⟩
  | .local _ .vmem, ⟨11, _⟩ => ⟨S1024x128, .bf16⟩
  | .local _ .vmem, ⟨12, _⟩ => ⟨S1x128, .f32⟩
  | .local _ .vmem, ⟨13, _⟩ => ⟨S128x128, .bf16⟩
  | .local _ .vmem, ⟨14, _⟩ => ⟨S128x1024, .bf16⟩
  | .local _ .vmem, ⟨15, _⟩ => ⟨S1x1024, .f32⟩
  | .local _ .vmem, ⟨16, _⟩ => ⟨S1024x4096, .bf16⟩
  | .local _ .vmem, ⟨17, _⟩ => ⟨S1x4096, .f32⟩
  | .local _ .vmem, ⟨18, _⟩ => ⟨S4096x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem10_1 : DmaSem sig := 20

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x4096 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4096x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  transposes_S128x1024_S1024x128_1_0 : S128x1024.Transposes [1, 0] S1024x128
  bitsLt_bf16_f32 : FTy.bits .bf16 < FTy.bits .f32
  transposes_S1024x128_S128x1024_1_0 : S1024x128.Transposes [1, 0] S128x1024
  transposes_S4096x1024_S1024x4096_1_0 : S4096x1024.Transposes [1, 0] S1024x4096
  transposes_S1024x4096_S4096x1024_1_0 : S1024x4096.Transposes [1, 0] S4096x1024
  shapeCasts_S128_S1x128 : S128.ShapeCasts S1x128
  shapeCasts_S1024_S1x1024 : S1024.ShapeCasts S1x1024
  shapeCasts_S4096_S1x4096 : S4096.ShapeCasts S1x4096
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2048x1024_S2048x1024_0_0 : ∀ a, (![0, 0] : Fin 2 → Nat) a + S2048x1024.size a ≤ S2048x1024.size a
  h_S2048x1024 : 0 < S2048x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  slices_S2x128x128_S1x128x128_0_0_0 : S2x128x128.Slices ![0, 0, 0] S1x128x128
  slices_S2x128x128_S1x128x128_1_0_0 : S2x128x128.Slices ![1, 0, 0] S1x128x128
  inb_S512x1024_S512x1024_0_0 : ∀ a, (![0, 0] : Fin 2 → Nat) a + S512x1024.size a ≤ S512x1024.size a
  h_S512x1024 : 0 < S512x1024.numel
  broadcasts_S1x128_S512x128 : S1x128.Broadcasts S512x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x4096_S1024x2048_0_0 : ∀ a, (![0, 0] : Fin 2 → Nat) a + S1024x2048.size a ≤ S1024x4096.size a
  h_S1024x2048 : 0 < S1024x2048.numel
  shapeCasts_S1024x2048_S1024x2048 : S1024x2048.ShapeCasts S1024x2048
  inb_S1x4096_S1x2048_0_0 : ∀ a, (![0, 0] : Fin 2 → Nat) a + S1x2048.size a ≤ S1x4096.size a
  h_S1x2048 : 0 < S1x2048.numel
  shapeCasts_S1x2048_S1x2048 : S1x2048.ShapeCasts S1x2048
  broadcasts_S1x2048_S512x2048 : S1x2048.Broadcasts S512x2048
  inb_S4096x1024_S2048x1024_0_0 : ∀ a, (![0, 0] : Fin 2 → Nat) a + S2048x1024.size a ≤ S4096x1024.size a
  shapeCasts_S2048x1024_S2048x1024 : S2048x1024.ShapeCasts S2048x1024
  inb_S1024x4096_S1024x2048_0_2048 : ∀ a, (![0, 2048] : Fin 2 → Nat) a + S1024x2048.size a ≤ S1024x4096.size a
  inb_S1x4096_S1x2048_0_2048 : ∀ a, (![0, 2048] : Fin 2 → Nat) a + S1x2048.size a ≤ S1x4096.size a
  inb_S4096x1024_S2048x1024_2048_0 : ∀ a, (![2048, 0] : Fin 2 → Nat) a + S2048x1024.size a ≤ S4096x1024.size a
  dot_S2048x1024_S1024x128_S2048x128_1_0_0_1_n_n_wf : DotDims.WF S2048x1024 S1024x128 S2048x128 [1] [0] [0] [1] [] []
  dot_S2048x128_S2048x128_S128x128_0_0_1_1_n_n_wf : DotDims.WF S2048x128 S2048x128 S128x128 [0] [0] [1] [1] [] []
  dot_S512x1024_S1024x128_S512x128_1_0_0_1_n_n_wf : DotDims.WF S512x1024 S1024x128 S512x128 [1] [0] [0] [1] [] []
  dot_S512x128_S128x128_S512x128_1_0_0_1_n_n_wf : DotDims.WF S512x128 S128x128 S512x128 [1] [0] [0] [1] [] []
  dot_S512x128_S128x1024_S512x1024_1_0_0_1_n_n_wf : DotDims.WF S512x128 S128x1024 S512x1024 [1] [0] [0] [1] [] []
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x128.size a ≤ S2x128x128.size a
  hwx0_5 : ∀ i : grid0.Coords, EltTy.bits .f32 = 32 ∨ (Rect.block (s := S2x128x128) S1x128x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .bf16 = 32 ∨ (Rect.block (s := S1024x128) S1024x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S128x1024.size a
  hwx1_4 : ∀ i : grid1.Coords, EltTy.bits .bf16 = 32 ∨ (Rect.block (s := S128x1024) S128x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x4096.size a ≤ S1024x4096.size a
  hwx1_6 : ∀ i : grid1.Coords, EltTy.bits .bf16 = 32 ∨ (Rect.block (s := S1024x4096) S1024x4096.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x4096.size a ≤ S1x4096.size a
  hwx1_7 : ∀ i : grid1.Coords, EltTy.bits .f32 = 32 ∨ (Rect.block (s := S1x4096) S1x4096.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4096x1024.size a ≤ S4096x1024.size a
  hwx1_8 : ∀ i : grid1.Coords, EltTy.bits .bf16 = 32 ∨ (Rect.block (s := S4096x1024) S4096x1024.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x1024.size a ≤ S8192x1024.size a
  hwx1_10 : ∀ i : grid1.Coords, EltTy.bits .f32 = 32 ∨ (Rect.block (s := S8192x1024) S512x1024.size (cc1_transform_10 i) (hinb1_10 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1024x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S1x4096.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S4096x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S512x1024.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S128x1024 : Shape := ⟨2, ![128, 1024]⟩
abbrev S128 : Shape := ⟨1, ![128]⟩
abbrev S1024x128 : Shape := ⟨2, ![1024, 128]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x128 : Shape := ⟨2, ![8192, 128]⟩
abbrev S1x128 : Shape := ⟨2, ![1, 128]⟩
abbrev S128x8192 : Shape := ⟨2, ![128, 8192]⟩
abbrev S8192x8192 : Shape := ⟨2, ![8192, 8192]⟩
abbrev S1x1024 : Shape := ⟨2, ![1, 1024]⟩
abbrev S8192x4096 : Shape := ⟨2, ![8192, 4096]⟩
abbrev S1x4096 : Shape := ⟨2, ![1, 4096]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S128x1024, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S1024x128, .f32⟩
  | .hbm, ⟨8, _⟩ => ⟨S1024, .f32⟩
  | .hbm, ⟨9, _⟩ => ⟨S4096x1024, .f32⟩
  | .hbm, ⟨10, _⟩ => ⟨S4096, .f32⟩
  | .hbm, ⟨11, _⟩ => ⟨S1024x4096, .f32⟩
  | .hbm, ⟨12, _⟩ => ⟨S1024, .f32⟩
  | .hbm, ⟨13, _⟩ => ⟨S1024x128, .f32⟩
  | .hbm, ⟨14, _⟩ => ⟨S8192x128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S1024x128, .f32⟩
  | .hbm, ⟨19, _⟩ => ⟨S8192x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S1024x128, .f32⟩
  | .hbm, ⟨24, _⟩ => ⟨S8192x128, .f32⟩
  | .hbm, ⟨25, _⟩ => ⟨S1x128, .f32⟩
  | .hbm, ⟨26, _⟩ => ⟨S8192x128, .f32⟩
  | .hbm, ⟨27, _⟩ => ⟨S8192x128, .f32⟩
  | .hbm, ⟨28, _⟩ => ⟨S128x8192, .f32⟩
  | .hbm, ⟨29, _⟩ => ⟨S8192x8192, .f32⟩
  | .hbm, ⟨30, _⟩ => ⟨S8192x128, .f32⟩
  | .hbm, ⟨31, _⟩ => ⟨S128x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S4096x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  transposes_S128x1024_S1024x128_1_0 : S128x1024.Transposes [1, 0] S1024x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  transposes_S1024x128_S128x1024_1_0 : S1024x128.Transposes [1, 0] S128x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  transposes_S1024x4096_S4096x1024_1_0 : S1024x4096.Transposes [1, 0] S4096x1024
  dot_S8192x1024_S1024x128_S8192x128_1_0_0_1_n_n_wf : DotDims.WF S8192x1024 S1024x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []
  dot_S8192x128_S128x1024_S8192x1024_1_0_0_1_n_n_wf : DotDims.WF S8192x128 S128x1024 S8192x1024 [1] [0] [0] [1] [] []
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x128_S8192x128_1_0_0_1_n_n : DotDims S8192x1024 S1024x128 S8192x128 where
  lhsContracting := [1]
  rhsContracting := [0]
  lhsNonContracting := [0]
  rhsNonContracting := [1]
  lhsBatch := []
  rhsBatch := []
  wf := dot_S8192x1024_S1024x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.FrameKernel.Region0Runs.lean ====
/-
  The first kernel of the program (a 2 × 2 grid: the first axis picks a half of the 8192 tokens, the second walks the
  half's two blocks of 2048 tokens), on core `c`: what its body does at a point, in each of the two cases its two
  conditionals leave.

  The body keeps a 128 × 128 accumulator in a scratch buffer across the points of a half. At the FIRST block of a half
  (second coordinate 0) it first stores zeros into the accumulator; at every point it adds the block's contribution
  to `Kᵀ V` into it; at the LAST block of a half (second coordinate 1) it copies the accumulator into the result
  window's buffer, which the pipeline then writes back to the half's slice of the result. With two blocks per half a
  point is either a first block (case A: reset, accumulate, no copy) or a last block (case B: accumulate, copy).
-/
import proofs.«157025_j56100862820442_2_alg».proof.Proof.Gen.Kernel.Launch
import proofs.«157025_j56100862820442_2_alg».proof.Proof.Gen.Kernel.Skeleton
import proofs.«157025_j56100862820442_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- "This is the first block of its half": the body's first conditional. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last block of its half": the body's second conditional. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first block the result window is idle: the body stores nothing into it, -/
theorem idleAt0_5_A : ∀ t : Fin cfg0.N, cond0_0 (grid0.coords t) → ¬cond0_1 (grid0.coords t) → cfg0.idle 5 (grid0.coords t) = true := by decide +kernel
/-- and the pipeline does not write it back there. -/
theorem noFlush0_5_A : ∀ t : Fin cfg0.N, cond0_0 (grid0.coords t) → ¬cond0_1 (grid0.coords t) → (cfg0.win 5).flush t = false := by decide +kernel
/-- At a last block it is live. -/
theorem liveAt0_5_B : ∀ t : Fin cfg0.N, ¬cond0_0 (grid0.coords t) → cond0_1 (grid0.coords t) → cfg0.idle 5 (grid0.coords t) = false := by decide +kernel

/-! ## The memrefs the body is called with -/

/-- One staging buffer of the result window, through which its contents are stated. -/
abbrev VO0_5 : View sig .tc .vmem S1x128x128 .f32 := (Memref.whole cc0_stg5_0 : Memref sig .tc .vmem S1x128x128 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x128 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S128x128 .f32 := Memref.whole cc0_scratch0
abbrev VS0_0 : View sig .tc .vmem S128x128 .f32 := scM0_0.view

/-- The core's other scoped buffers that are no staging buffer of this kernel (the second kernel's staging buffers), each
    whole at some contents: what rides through this kernel's region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f))

/-- The class's region invariant with the accumulator split off as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

/-! ## The body on any staging memrefs, case by case -/

set_option maxHeartbeats 4000000 in
/-- CASE A (a first block). On whole staging memrefs — the inputs' at contents `xW`, the result window's at contents
    `xi5` handed back untouched, the accumulator at anything — the body runs to the continuation holding the inputs' as
    they were and the accumulator with the pieces `LS0` written (the zero fill, then the sum): the pieces are the witness
    the run finds. -/
noncomputable def kernelRun0_A (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : cond0_0 i) (hc1 : ¬cond0_1 i)
    (x0 : Vec F S2048x1024 .f32) (x1 : Vec F S1024x128 .bf16) (x2 : Vec F S1x128 .f32) (x3 : Vec F S1024x128 .bf16) (x4 : Vec F S1x128 .f32) :
    { LS0 : List (View.Piece (Elt F) S128x128 .f32) //
      ∀ (xi5 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in
/-- CASE B (a last block). The accumulator is handed at the contents `xs0` the point before left, the result window's
    buffer at anything; the body leaves the accumulator with the pieces `LS0` written (the sum) and the result window's
    buffer with the pieces `L5` written (the copy). -/
noncomputable def kernelRun0_B (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) :
    Σ' (L5 : List (View.Piece (Elt F) S1x128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Frm

end
-- ==== Proof.FrameKernel.Region0.lean ====
/-
  The first kernel's pipeline on core `c`, at the contents `V` its region is entered with: what the accumulator and
  the result window's buffer hold after each point, the region's invariant (which carries the accumulator from a point
  to the next), the proof data, and that the body run at a point leaves exactly what the proof data say.
-/
import proofs.«157025_j56100862820442_2_alg».proof.Proof.FrameKernel.Region0Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Case A's pieces for the accumulator cover it, -/
theorem scover0_A_0 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : cond0_0 i) (hc1 : ¬cond0_1 i)
    (x0 : Vec F S2048x1024 .f32) (x1 : Vec F S1024x128 .bf16) (x2 : Vec F S1x128 .f32) (x3 : Vec F S1024x128 .bf16) (x4 : Vec F S1x128 .f32) (y : S128x128.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL (kernelRun0_A c i arg2 harg2 arg3 harg3 arg4 harg4 arg5 harg5 arg6 harg6 arg7 harg7 arg8 harg8 hc0 hc1 x0 x1 x2 x3 x4).1 S128x128.size (by sl_kernel_rfl) y

/-- so what case A leaves in the accumulator is its pieces read back. -/
def sout0_A_0 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : cond0_0 i) (hc1 : ¬cond0_1 i)
    (x0 : Vec F S2048x1024 .f32) (x1 : Vec F S1024x128 .bf16) (x2 : Vec F S1x128 .f32) (x3 : Vec F S1024x128 .bf16) (x4 : Vec F S1x128 .f32) : Vec F S128x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).1)

/-- Case B's pieces for the result window's buffer cover it, -/
theorem cover0_B_5 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) (y : S1x128x128.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S1x128x128.size (by sl_kernel_rfl) y

/-- so what case B leaves there is its pieces read back. -/
def out0_B_5 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) : Vec F S1x128x128 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- Case B's pieces for the accumulator cover it, -/
theorem scover0_B_0 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) (y : S128x128.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S128x128.size (by sl_kernel_rfl) y

/-- and what case B leaves in the accumulator. -/
def sout0_B_0 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) : Vec F S128x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- At a first block nothing is stored into the result window's buffer: a placeholder nothing consults (the window is
    neither written back there nor read at the next point). -/
def junk5 : Vec F S1x128x128 .f32 := VO0_5.read (Elt F) (VO0_5.writes (Elt F) VO0_5.junk [])

/-! ## What the buffers hold after each point -/

/-- THE ACCUMULATION: what the result window's buffer and the accumulator hold after the body at position `n` — the case
    the parity selects, run at the point's memrefs and input blocks, a last block over what the point before left in the
    accumulator. -/
def outsAt0 (c : Dev nD) : (n : ℕ) → n < cfg0.N → Vec F S1x128x128 .f32 × Vec F S128x128 .f32
  | 0, hn => (junk5, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 2 = 0 then
      (junk5, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr (by show (n + 1) % 2 = 1; omega)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr (by show (n + 1) % 2 = 1; omega)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a first block. -/
theorem outsAt0_A (c : Dev nD) (t : Fin cfg0.N) (h0 : t.val % 2 = 0) (h1 : ¬t.val % 2 = 1) :
    outsAt0 V c t.val t.isLt = (junk5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at a last block: over what the point before left. -/
theorem outsAt0_B (c : Dev nD) (t : Fin cfg0.N) (h0 : ¬t.val % 2 = 0) (h1 : t.val % 2 = 1) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant -/

/-- Before position `n`: before the first point the class's invariant (the accumulator at anything); afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of the first kernel's pipeline on core `c`: the arrays as the region finds them; after the body at
    point `t` each input's buffer at its block and the result window's at `outsAt0`'s first component; the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the parity says which case the point is in; the invariant hands the body the accumulator (at
    what the point before left; at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 4 := lt_of_lt_of_eq t.isLt (show cfg0.N = 4 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 2 = 0
  · have h1 : ¬t.val % 2 = 1 := by omega
    rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
    rw [outsAt0_A V c t h0 h1]
    unfold sout0_A_0; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hz : t.val ≠ 0 := by omega
    rw [show (dat0 V c).leavesExact 5 t = owns (c : Thread nD τ) (ms0_5 t) fullShare ((dat0 V c).after 5 t) from by
      unfold Dat.leavesExact; rw [liveAt0_5_B t (fun h => h0 ((hcond0_0 t).mp h)) ((hcond0_1 t).mpr h1)], after0_5]
    rw [outsAt0_B V c t h0 h1]
    unfold out0_B_5 sout0_B_0; (try dsimp only)
    rw [PhiS_castSucc V c t, PhiS_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 4 := N_0; omega), PhiA0_eq]
  iintro ⟨⟨HS0, Hrest⟩, Hg⟩
  isplitl [HS0 Hrest]
  · isplitl [HS0]
    · iexists _; iexact HS0
    iexact Hrest
  iexact Hg

end Cert.Kernel.Frm

end
-- ==== Proof.FrameKernel.Region1.lean ====
/-
  The second kernel of the program (one grid axis of 16 points, each an independent tile of 512 tokens), on core `c`,
  at the contents `V` its region is entered with: what each window's staging buffer holds before and after the body at
  a point, and that the body run at a point leaves exactly that.

  The body reads ten windows and writes one. Window 0 is the tile of `x` (its block moves with the point); windows 1–9
  are whole arrays fetched once (the query weights and bias, the 128 × 128 matrix `Kᵀ V`, the output projection and
  its bias, the two feed-forward weight matrices with their biases). The two feed-forward weight matrices and the
  first bias are each read through two rectangles, the two halves of 2048 hidden units. Window 10, the result tile,
  is stored whole, once, so its buffer after the body is that one store's payload, a pure function of the ten blocks.
-/
import proofs.«157025_j56100862820442_2_alg».proof.Proof.Gen.Kernel.Launch
import proofs.«157025_j56100862820442_2_alg».proof.Proof.Gen.Kernel.Skeleton
import proofs.«157025_j56100862820442_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the fetch, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: where it is not
    fetched its block index has not moved since the fetch, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: where it is not
    fetched its block index has not moved since the fetch, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: where it is not
    fetched its block index has not moved since the fetch, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not: where it is not
    fetched its block index has not moved since the fetch, and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not: where it is not
    fetched its block index has not moved since the fetch, and the body leaves the buffer as it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not: where it is not
    fetched its block index has not moved since the fetch, and the body leaves the buffer as it found it. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not: where it is not
    fetched its block index has not moved since the fetch, and the body leaves the buffer as it found it. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not: where it is not
    fetched its block index has not moved since the fetch, and the body leaves the buffer as it found it. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not: where it is not
    fetched its block index has not moved since the fetch, and the body leaves the buffer as it found it. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through -/

abbrev rX : Rect S512x1024 := Rect.unit (s := S512x1024) ![0, 0] S512x1024.size inb_S512x1024_S512x1024_0_0
abbrev rWq : Rect S1024x128 := Rect.unit (s := S1024x128) ![0, 0] S1024x128.size inb_S1024x128_S1024x128_0_0
abbrev rB128 : Rect S1x128 := Rect.unit (s := S1x128) ![0, 0] S1x128.size inb_S1x128_S1x128_0_0
abbrev rKv : Rect S128x128 := Rect.unit (s := S128x128) ![0, 0] S128x128.size inb_S128x128_S128x128_0_0
abbrev rWp : Rect S128x1024 := Rect.unit (s := S128x1024) ![0, 0] S128x1024.size inb_S128x1024_S128x1024_0_0
abbrev rB1024 : Rect S1x1024 := Rect.unit (s := S1x1024) ![0, 0] S1x1024.size inb_S1x1024_S1x1024_0_0
/-- The first and the second 2048 columns of the first feed-forward weight matrix, -/
abbrev rW1a : Rect S1024x4096 := Rect.unit (s := S1024x4096) ![0, 0] S1024x2048.size inb_S1024x4096_S1024x2048_0_0
abbrev rW1b : Rect S1024x4096 := Rect.unit (s := S1024x4096) ![0, 2048] S1024x2048.size inb_S1024x4096_S1024x2048_0_2048
/-- of its bias, -/
abbrev rB1a : Rect S1x4096 := Rect.unit (s := S1x4096) ![0, 0] S1x2048.size inb_S1x4096_S1x2048_0_0
abbrev rB1b : Rect S1x4096 := Rect.unit (s := S1x4096) ![0, 2048] S1x2048.size inb_S1x4096_S1x2048_0_2048
/-- and the first and the second 2048 rows of the second feed-forward weight matrix. -/
abbrev rW2a : Rect S4096x1024 := Rect.unit (s := S4096x1024) ![0, 0] S2048x1024.size inb_S4096x1024_S2048x1024_0_0
abbrev rW2b : Rect S4096x1024 := Rect.unit (s := S4096x1024) ![2048, 0] S2048x1024.size inb_S4096x1024_S2048x1024_2048_0

/-! ## What the body leaves in the result window's buffer -/

/-- The one store's payload from the ten input blocks: the first residual and its rounding, the zero accumulator, the
    first half's hidden units (the values the first part of the body hands on), then the second half and the sum. -/
def pay1 (x0 : Vec F S512x1024 .f32) (x1 : Vec F S1024x128 .bf16) (x2 : Vec F S1x128 .f32) (x3 : Vec F S128x128 .bf16) (x4 : Vec F S128x1024 .bf16) (x5 : Vec F S1x1024 .f32) (x6 : Vec F S1024x4096 .bf16) (x7 : Vec F S1x4096 .f32) (x8 : Vec F S4096x1024 .bf16) (x9 : Vec F S1x1024 .f32) : Vec F S512x1024 .f32 :=
  k1_pay1 (k1_pay2 (View.ld x0 rX) (View.ld x1 rWq) (View.ld x2 rB128) (View.ld x3 rKv) (View.ld x4 rWp) (View.ld x5 rB1024))
    (k1_pay3 (View.ld x0 rX) (View.ld x1 rWq) (View.ld x2 rB128) (View.ld x3 rKv) (View.ld x4 rWp) (View.ld x5 rB1024))
    (k1_pay4 (F := F))
    (k1_pay5 (View.ld x0 rX) (View.ld x1 rWq) (View.ld x2 rB128) (View.ld x3 rKv) (View.ld x4 rWp) (View.ld x5 rB1024) (View.ld x6 rW1a) (View.ld x7 rB1a))
    (View.ld x8 rW2a) (View.ld x6 rW1b) (View.ld x7 rB1b) (View.ld x8 rW2b) (View.ld x9 rB1024)

/-- Window 10's staging buffer after the body: its one store as a piece. -/
def out1_10 (x0 : Vec F S512x1024 .f32) (x1 : Vec F S1024x128 .bf16) (x2 : Vec F S1x128 .f32) (x3 : Vec F S128x128 .bf16) (x4 : Vec F S128x1024 .bf16) (x5 : Vec F S1x1024 .f32) (x6 : Vec F S1024x4096 .bf16) (x7 : Vec F S1x4096 .f32) (x8 : Vec F S4096x1024 .bf16) (x9 : Vec F S1x1024 .f32) : Vec F S512x1024 .f32 :=
  View.canon [⟨rX, pay1 x0 x1 x2 x3 x4 x5 x6 x7 x8 x9⟩]

/-- The store covers the buffer. -/
theorem cover1_10 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The body's triple -/

set_option maxHeartbeats 4000000 in
/-- The body on whole staging memrefs, the inputs' at contents `xW` and the result's at anything, runs to the
    continuation holding the inputs' as they were and the result's at `out1_10` of the inputs'. -/
theorem sound_kernel1 (c : Dev nD) (E : Set ℕ) (i : grid1.Coords) (arg1 : Memref sig .tc .vmem S512x1024 .f32) (harg1 : arg1.IsWhole) (arg2 : Memref sig .tc .vmem S1024x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S1x4096 .f32) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S512x1024 .f32) (harg11 : arg11.IsWhole)
    (x0 : Vec F S512x1024 .f32) (x1 : Vec F S1024x128 .bf16) (x2 : Vec F S1x128 .f32) (x3 : Vec F S128x128 .bf16) (x4 : Vec F S128x1024 .bf16) (x5 : Vec F S1x1024 .f32) (x6 : Vec F S1024x4096 .bf16) (x7 : Vec F S1x4096 .f32) (x8 : Vec F S4096x1024 .bf16) (x9 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of the second kernel's pipeline on core `c`: the arrays as the region finds them; after the body at
    point `t` each input's buffer at its block and the result's at `out1_10` of the input blocks; the invariant the
    class's (the scoped buffers that are not this kernel's staging buffers, and the generator register, untouched);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 4000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.FrameKernel.Run.lean ====
/-
  The whole program on the TensorCores, from the launch to the return: eighteen host operations (the weight matrices
  transposed and rounded, the biases reshaped to rows), the first kernel's region, six host operations (the two halves of
  `Kᵀ V` sliced out, added and rounded), the second kernel's region.

  The contents of the core's unscoped buffers are named at each of the five boundaries: at launch; after the first host
  stretch; after the first region (its arrays at what the pipeline's write-backs leave, every other buffer as entered);
  after the second host stretch; after the second region. Each region is entered from the boundary before it and left at
  the one after it, and the program's run ends with every unscoped buffer at the last boundary's contents. No host
  operation and no region writes an argument array, so each argument's buffer walks back through the five boundaries to
  its launch contents.
-/
import proofs.«157025_j56100862820442_2_alg».proof.Proof.FrameKernel.Region0
import proofs.«157025_j56100862820442_2_alg».proof.Proof.FrameKernel.Region1
import proofs.«157025_j56100862820442_2_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev bufs0 : Dev nD → Valuation τ sig (Elt F) := fun c b => m (c, b)
/-- After the first host stretch: the first region's entry. -/
abbrev bufs1 : Dev nD → Valuation τ sig (Elt F) := fun c => StableHlo.after hostOps0 (bufs0 m c)
/-- The same read at the TensorCore's references. -/
abbrev ent0 : (c : Dev nD) → (b : Ref sig .tc) → Buf (Elt F) ((c : Thread nD τ).loc b) := fun c b => bufs1 m c b
/-- At the first region's exit: its arrays at what the pipeline leaves, every other buffer as entered. -/
def bufs2 (c : Dev nD) : Valuation τ sig (Elt F) :=
  Pipeline.withArrays spec0 c (bufs1 m c) fun w => (dat0 (ent0 m) c).arrAt w cfg0.N
theorem bufs2_arr (c : Dev nD) (w : Fin cfg0.W) :
    bufs2 m c (Proc.devRef .tc (Pipeline.arrRef spec0 w)) = (dat0 (ent0 m) c).arrAt w cfg0.N := by
  unfold bufs2; exact Pipeline.withArrays_arr spec0 launch0.win.arr_inj c _ _ w
theorem bufs2_of_ne (c : Dev nD) (b : Ref sig .tc) (hb : ∀ w, Pipeline.arrRef spec0 w ≠ b) :
    bufs2 m c (Proc.devRef .tc b) = bufs1 m c (Proc.devRef .tc b) := by
  unfold bufs2; exact Pipeline.withArrays_of_ne spec0 c _ _ b hb
abbrev ext0 : (c : Dev nD) → (b : Ref sig .tc) → Buf (Elt F) ((c : Thread nD τ).loc b) := fun c b => bufs2 m c b
theorem hF0 (c : Dev nD) (w : Fin cfg0.W) : (dat0 (ent0 m) c).arrAt w cfg0.N = ext0 m c (Pipeline.arrRef spec0 w) :=
  (bufs2_arr m c w).symm
theorem hrest0 (c : Dev nD) : ∀ b, b ∉ Finset.univ.image (Pipeline.arrRef spec0) → ext0 m c b = ent0 m c b :=
  fun b hb => bufs2_of_ne m c b fun w e => hb (Finset.mem_image.mpr ⟨w, Finset.mem_univ _, e⟩)

/-- After the second host stretch: the second region's entry. -/
abbrev bufs3 : Dev nD → Valuation τ sig (Elt F) := fun c => StableHlo.after hostOps1 (bufs2 m c)
abbrev ent1 : (c : Dev nD) → (b : Ref sig .tc) → Buf (Elt F) ((c : Thread nD τ).loc b) := fun c b => bufs3 m c b
/-- At the second region's exit. -/
def bufs4 (c : Dev nD) : Valuation τ sig (Elt F) :=
  Pipeline.withArrays spec1 c (bufs3 m c) fun w => (dat1 (ent1 m) c).arrAt w cfg1.N
theorem bufs4_arr (c : Dev nD) (w : Fin cfg1.W) :
    bufs4 m c (Proc.devRef .tc (Pipeline.arrRef spec1 w)) = (dat1 (ent1 m) c).arrAt w cfg1.N := by
  unfold bufs4; exact Pipeline.withArrays_arr spec1 launch1.win.arr_inj c _ _ w
theorem bufs4_of_ne (c : Dev nD) (b : Ref sig .tc) (hb : ∀ w, Pipeline.arrRef spec1 w ≠ b) :
    bufs4 m c (Proc.devRef .tc b) = bufs3 m c (Proc.devRef .tc b) := by
  unfold bufs4; exact Pipeline.withArrays_of_ne spec1 c _ _ b hb
abbrev ext1 : (c : Dev nD) → (b : Ref sig .tc) → Buf (Elt F) ((c : Thread nD τ).loc b) := fun c b => bufs4 m c b
theorem hF1 (c : Dev nD) (w : Fin cfg1.W) : (dat1 (ent1 m) c).arrAt w cfg1.N = ext1 m c (Pipeline.arrRef spec1 w) :=
  (bufs4_arr m c w).symm
theorem hrest1 (c : Dev nD) : ∀ b, b ∉ Finset.univ.image (Pipeline.arrRef spec1) → ext1 m c b = ent1 m c b :=
  fun b hb => bufs4_of_ne m c b fun w e => hb (Finset.mem_image.mpr ⟨w, Finset.mem_univ _, e⟩)

/-- A host stretch changes only the buffers its operations write. -/
theorem bufs1_of (c : Dev nD) (r : Ref sig .tc) (h : r ∉ hostOps0_W) : bufs1 m c r = bufs0 m c r :=
  StableHlo.after_of_writes_sub hostOps0 _ hostOps0_writes h
theorem bufs3_of (c : Dev nD) (r : Ref sig .tc) (h : r ∉ hostOps1_W) : bufs3 m c r = bufs2 m c r :=
  StableHlo.after_of_writes_sub hostOps1 _ hostOps1_writes h

/-! ## The arguments end as launched -/

/-- The token matrix is an input window of both regions: each leaves its array as entered. -/
theorem bufs4_main_arg0 (c : Dev nD) : bufs4 m c (Proc.devRef .tc main_arg0) = m ((c : Thread nD τ).loc main_arg0) :=
  calc bufs4 m c (Proc.devRef .tc main_arg0)
    _ = bufs3 m c (Proc.devRef .tc main_arg0) := (bufs4_arr m c 0).trans (((dat1 (ent1 m) c).arrAt_in 0 rfl _).trans (A_eq1 (ent1 m) c 0))
    _ = bufs2 m c (Proc.devRef .tc main_arg0) := bufs3_of m c main_arg0 (by decide)
    _ = bufs1 m c (Proc.devRef .tc main_arg0) := (bufs2_arr m c 0).trans (((dat0 (ent0 m) c).arrAt_in 0 rfl _).trans (A_eq0 (ent0 m) c 0))
    _ = bufs0 m c (Proc.devRef .tc main_arg0) := bufs1_of m c main_arg0 (by decide)
    _ = m ((c : Thread nD τ).loc main_arg0) := rfl
/-- Argument 1 is no array of either region and no host operation writes it. -/
theorem bufs4_main_arg1 (c : Dev nD) : bufs4 m c (Proc.devRef .tc main_arg1) = m ((c : Thread nD τ).loc main_arg1) :=
  calc bufs4 m c (Proc.devRef .tc main_arg1)
    _ = bufs3 m c (Proc.devRef .tc main_arg1) := bufs4_of_ne m c main_arg1 (by decide)
    _ = bufs2 m c (Proc.devRef .tc main_arg1) := bufs3_of m c main_arg1 (by decide)
    _ = bufs1 m c (Proc.devRef .tc main_arg1) := bufs2_of_ne m c main_arg1 (by decide)
    _ = bufs0 m c (Proc.devRef .tc main_arg1) := bufs1_of m c main_arg1 (by decide)
    _ = m ((c : Thread nD τ).loc main_arg1) := rfl
/-- Argument 2 is no array of either region and no host operation writes it. -/
theorem bufs4_main_arg2 (c : Dev nD) : bufs4 m c (Proc.devRef .tc main_arg2) = m ((c : Thread nD τ).loc main_arg2) :=
  calc bufs4 m c (Proc.devRef .tc main_arg2)
    _ = bufs3 m c (Proc.devRef .tc main_arg2) := bufs4_of_ne m c main_arg2 (by decide)
    _ = bufs2 m c (Proc.devRef .tc main_arg2) := bufs3_of m c main_arg2 (by decide)
    _ = bufs1 m c (Proc.devRef .tc main_arg2) := bufs2_of_ne m c main_arg2 (by decide)
    _ = bufs0 m c (Proc.devRef .tc main_arg2) := bufs1_of m c main_arg2 (by decide)
    _ = m ((c : Thread nD τ).loc main_arg2) := rfl
/-- Argument 3 is no array of either region and no host operation writes it. -/
theorem bufs4_main_arg3 (c : Dev nD) : bufs4 m c (Proc.devRef .tc main_arg3) = m ((c : Thread nD τ).loc main_arg3) :=
  calc bufs4 m c (Proc.devRef .tc main_arg3)
    _ = bufs3 m c (Proc.devRef .tc main_arg3) := bufs4_of_ne m c main_arg3 (by decide)
    _ = bufs2 m c (Proc.devRef .tc main_arg3) := bufs3_of m c main_arg3 (by decide)
    _ = bufs1 m c (Proc.devRef .tc main_arg3) := bufs2_of_ne m c main_arg3 (by decide)
    _ = bufs0 m c (Proc.devRef .tc main_arg3) := bufs1_of m c main_arg3 (by decide)
    _ = m ((c : Thread nD τ).loc main_arg3) := rfl
/-- Argument 4 is no array of either region and no host operation writes it. -/
theorem bufs4_main_arg4 (c : Dev nD) : bufs4 m c (Proc.devRef .tc main_arg4) = m ((c : Thread nD τ).loc main_arg4) :=
  calc bufs4 m c (Proc.devRef .tc main_arg4)
    _ = bufs3 m c (Proc.devRef .tc main_arg4) := bufs4_of_ne m c main_arg4 (by decide)
    _ = bufs2 m c (Proc.devRef .tc main_arg4) := bufs3_of m c main_arg4 (by decide)
    _ = bufs1 m c (Proc.devRef .tc main_arg4) := bufs2_of_ne m c main_arg4 (by decide)
    _ = bufs0 m c (Proc.devRef .tc main_arg4) := bufs1_of m c main_arg4 (by decide)
    _ = m ((c : Thread nD τ).loc main_arg4) := rfl
/-- Argument 5 is no array of either region and no host operation writes it. -/
theorem bufs4_main_arg5 (c : Dev nD) : bufs4 m c (Proc.devRef .tc main_arg5) = m ((c : Thread nD τ).loc main_arg5) :=
  calc bufs4 m c (Proc.devRef .tc main_arg5)
    _ = bufs3 m c (Proc.devRef .tc main_arg5) := bufs4_of_ne m c main_arg5 (by decide)
    _ = bufs2 m c (Proc.devRef .tc main_arg5) := bufs3_of m c main_arg5 (by decide)
    _ = bufs1 m c (Proc.devRef .tc main_arg5) := bufs2_of_ne m c main_arg5 (by decide)
    _ = bufs0 m c (Proc.devRef .tc main_arg5) := bufs1_of m c main_arg5 (by decide)
    _ = m ((c : Thread nD τ).loc main_arg5) := rfl
/-- Argument 6 is no array of either region and no host operation writes it. -/
theorem bufs4_main_arg6 (c : Dev nD) : bufs4 m c (Proc.devRef .tc main_arg6) = m ((c : Thread nD τ).loc main_arg6) :=
  calc bufs4 m c (Proc.devRef .tc main_arg6)
    _ = bufs3 m c (Proc.devRef .tc main_arg6) := bufs4_of_ne m c main_arg6 (by decide)
    _ = bufs2 m c (Proc.devRef .tc main_arg6) := bufs3_of m c main_arg6 (by decide)
    _ = bufs1 m c (Proc.devRef .tc main_arg6) := bufs2_of_ne m c main_arg6 (by decide)
    _ = bufs0 m c (Proc.devRef .tc main_arg6) := bufs1_of m c main_arg6 (by decide)
    _ = m ((c : Thread nD τ).loc main_arg6) := rfl
/-- Argument 7 is no array of either region and no host operation writes it. -/
theorem bufs4_main_arg7 (c : Dev nD) : bufs4 m c (Proc.devRef .tc main_arg7) = m ((c : Thread nD τ).loc main_arg7) :=
  calc bufs4 m c (Proc.devRef .tc main_arg7)
    _ = bufs3 m c (Proc.devRef .tc main_arg7) := bufs4_of_ne m c main_arg7 (by decide)
    _ = bufs2 m c (Proc.devRef .tc main_arg7) := bufs3_of m c main_arg7 (by decide)
    _ = bufs1 m c (Proc.devRef .tc main_arg7) := bufs2_of_ne m c main_arg7 (by decide)
    _ = bufs0 m c (Proc.devRef .tc main_arg7) := bufs1_of m c main_arg7 (by decide)
    _ = m ((c : Thread nD τ).loc main_arg7) := rfl
/-- Argument 8 is no array of either region and no host operation writes it. -/
theorem bufs4_main_arg8 (c : Dev nD) : bufs4 m c (Proc.devRef .tc main_arg8) = m ((c : Thread nD τ).loc main_arg8) :=
  calc bufs4 m c (Proc.devRef .tc main_arg8)
    _ = bufs3 m c (Proc.devRef .tc main_arg8) := bufs4_of_ne m c main_arg8 (by decide)
    _ = bufs2 m c (Proc.devRef .tc main_arg8) := bufs3_of m c main_arg8 (by decide)
    _ = bufs1 m c (Proc.devRef .tc main_arg8) := bufs2_of_ne m c main_arg8 (by decide)
    _ = bufs0 m c (Proc.devRef .tc main_arg8) := bufs1_of m c main_arg8 (by decide)
    _ = m ((c : Thread nD τ).loc main_arg8) := rfl
/-- Argument 9 is no array of either region and no host operation writes it. -/
theorem bufs4_main_arg9 (c : Dev nD) : bufs4 m c (Proc.devRef .tc main_arg9) = m ((c : Thread nD τ).loc main_arg9) :=
  calc bufs4 m c (Proc.devRef .tc main_arg9)
    _ = bufs3 m c (Proc.devRef .tc main_arg9) := bufs4_of_ne m c main_arg9 (by decide)
    _ = bufs2 m c (Proc.devRef .tc main_arg9) := bufs3_of m c main_arg9 (by decide)
    _ = bufs1 m c (Proc.devRef .tc main_arg9) := bufs2_of_ne m c main_arg9 (by decide)
    _ = bufs0 m c (Proc.devRef .tc main_arg9) := bufs1_of m c main_arg9 (by decide)
    _ = m ((c : Thread nD τ).loc main_arg9) := rfl
/-- Argument 10 is no array of either region and no host operation writes it. -/
theorem bufs4_main_arg10 (c : Dev nD) : bufs4 m c (Proc.devRef .tc main_arg10) = m ((c : Thread nD τ).loc main_arg10) :=
  calc bufs4 m c (Proc.devRef .tc main_arg10)
    _ = bufs3 m c (Proc.devRef .tc main_arg10) := bufs4_of_ne m c main_arg10 (by decide)
    _ = bufs2 m c (Proc.devRef .tc main_arg10) := bufs3_of m c main_arg10 (by decide)
    _ = bufs1 m c (Proc.devRef .tc main_arg10) := bufs2_of_ne m c main_arg10 (by decide)
    _ = bufs0 m c (Proc.devRef .tc main_arg10) := bufs1_of m c main_arg10 (by decide)
    _ = m ((c : Thread nD τ).loc main_arg10) := rfl
/-- Argument 11 is no array of either region and no host operation writes it. -/
theorem bufs4_main_arg11 (c : Dev nD) : bufs4 m c (Proc.devRef .tc main_arg11) = m ((c : Thread nD τ).loc main_arg11) :=
  calc bufs4 m c (Proc.devRef .tc main_arg11)
    _ = bufs3 m c (Proc.devRef .tc main_arg11) := bufs4_of_ne m c main_arg11 (by decide)
    _ = bufs2 m c (Proc.devRef .tc main_arg11) := bufs3_of m c main_arg11 (by decide)
    _ = bufs1 m c (Proc.devRef .tc main_arg11) := bufs2_of_ne m c main_arg11 (by decide)
    _ = bufs0 m c (Proc.devRef .tc main_arg11) := bufs1_of m c main_arg11 (by decide)
    _ = m ((c : Thread nD τ).loc main_arg11) := rfl
/-- Argument 12 is no array of either region and no host operation writes it. -/
theorem bufs4_main_arg12 (c : Dev nD) : bufs4 m c (Proc.devRef .tc main_arg12) = m ((c : Thread nD τ).loc main_arg12) :=
  calc bufs4 m c (Proc.devRef .tc main_arg12)
    _ = bufs3 m c (Proc.devRef .tc main_arg12) := bufs4_of_ne m c main_arg12 (by decide)
    _ = bufs2 m c (Proc.devRef .tc main_arg12) := bufs3_of m c main_arg12 (by decide)
    _ = bufs1 m c (Proc.devRef .tc main_arg12) := bufs2_of_ne m c main_arg12 (by decide)
    _ = bufs0 m c (Proc.devRef .tc main_arg12) := bufs1_of m c main_arg12 (by decide)
    _ = m ((c : Thread nD τ).loc main_arg12) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev Rd (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tlast (c : Dev nD) : sProp 𝕄 := iprop(StableHlo.held (c : Thread nD τ) (Pipeline.ucRefs τ sig) (bufs4 m c) ∗ ∃ r, prngReg c r)

/-! ## The regions as segments -/

set_option backward.isDefEq.respectTransparency.types false in
/-- THE FIRST REGION over the thread state: entered from every unscoped buffer at `bufs1`, left at `bufs2`. Its arrays
    are split out of the unscoped buffers and put back at the exit contents; the generator register goes into the
    invariant and comes out; the accumulator's named contents are forgotten at the exit. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Lz lvz 0 fun _ _ => rfl
  pre c := iprop(StableHlo.held (c : Thread nD τ) (Pipeline.ucRefs τ sig) (bufs1 m c) ∗ Rd c)
  post c := iprop(StableHlo.held (c : Thread nD τ) (Pipeline.ucRefs τ sig) (bufs2 m c) ∗ Rd c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `bufs3`, left at `bufs4`. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ Lz lvz 1 fun _ _ => rfl
  pre c := iprop(StableHlo.held (c : Thread nD τ) (Pipeline.ucRefs τ sig) (bufs3 m c) ∗ Rd c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs4 : List (Pipeline.Seg (pcfgs (F := F)) adm (pdats m) () defs₀ 𝒱₀ Lz lvz) :=
  [ .host (hseg hostOps0 hostOps0_sub hostOps0_fresh (bufs0 m)),
    .region (reg0 m),
    .host (hseg hostOps1 hostOps1_sub hostOps1_fresh (bufs2 m)),
    .region (reg1 m) ]
/-- The program IS the run of the segments. -/
theorem main_run (c : Dev nD) : main (F := F) c = Pipeline.Seg.run (segs4 m) := (main_chain c).trans (by chain_rfl)

set_option backward.isDefEq.respectTransparency.types false in
/-- THE RUN: from any memory with zero counters, every weakly fair execution of the program on the TensorCores
    terminates, nothing faulting, and in every final state every unscoped buffer of every core holds the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bufs4 m c b) :=
  Pipeline.θ_run_regions_kit (pcfgs (F := F)) adm (pdats m) () cellOf_inj emb₁ defs₀ 𝒱₀ Lz lvz m ρ main (segs4 m)
    (fun c Q => by rw [main_run m c])
    (by simp only [segs4, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m c) ∗ Rd c)) (Tₙ := Tlast m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (bufs0 m c)
        from Pipeline.unscopedBufs_held c (bufs0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs4 m c b)
    (hfin := fun c s' => by
      iintro ⟨⟨Hh, -⟩, HSI⟩
      unfold StableHlo.held
      imodintro
      iapply (pointsTo_read_all (Pipeline.ucRefs τ sig) (fun b => (((c : Thread nD τ)).1, b)) (bufs4 m c) s')
      isplitl [Hh] <;> iassumption)
    (hQ := fun s h => h)

/-- THE FRAME: the run, read at the thirteen argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (bufs4_main_arg0 m c),
     (h c _ (mem_uc main_arg1 (by decide))).trans (bufs4_main_arg1 m c),
     (h c _ (mem_uc main_arg2 (by decide))).trans (bufs4_main_arg2 m c),
     (h c _ (mem_uc main_arg3 (by decide))).trans (bufs4_main_arg3 m c),
     (h c _ (mem_uc main_arg4 (by decide))).trans (bufs4_main_arg4 m c),
     (h c _ (mem_uc main_arg5 (by decide))).trans (bufs4_main_arg5 m c),
     (h c _ (mem_uc main_arg6 (by decide))).trans (bufs4_main_arg6 m c),
     (h c _ (mem_uc main_arg7 (by decide))).trans (bufs4_main_arg7 m c),
     (h c _ (mem_uc main_arg8 (by decide))).trans (bufs4_main_arg8 m c),
     (h c _ (mem_uc main_arg9 (by decide))).trans (bufs4_main_arg9 m c),
     (h c _ (mem_uc main_arg10 (by decide))).trans (bufs4_main_arg10 m c),
     (h c _ (mem_uc main_arg11 (by decide))).trans (bufs4_main_arg11 m c),
     (h c _ (mem_uc main_arg12 (by decide))).trans (bufs4_main_arg12 m c)⟩) (run_all m ρ)

/-- THE RESULT: the run, read at the result array and the thirteen argument arrays. -/
theorem run_result : θ_run defs (onTc (τ := τ) (main (F := F))) ⟨m, fun _ => 0, ρ⟩ (fun r => ∀ c : Dev nD,
      r.2.mem ((c.tc : Thread nD τ).loc main_v25) = bufs4 m c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v25 (by decide)),
     (h c _ (mem_uc main_arg0 (by decide))).trans (bufs4_main_arg0 m c),
     (h c _ (mem_uc main_arg1 (by decide))).trans (bufs4_main_arg1 m c),
     (h c _ (mem_uc main_arg2 (by decide))).trans (bufs4_main_arg2 m c),
     (h c _ (mem_uc main_arg3 (by decide))).trans (bufs4_main_arg3 m c),
     (h c _ (mem_uc main_arg4 (by decide))).trans (bufs4_main_arg4 m c),
     (h c _ (mem_uc main_arg5 (by decide))).trans (bufs4_main_arg5 m c),
     (h c _ (mem_uc main_arg6 (by decide))).trans (bufs4_main_arg6 m c),
     (h c _ (mem_uc main_arg7 (by decide))).trans (bufs4_main_arg7 m c),
     (h c _ (mem_uc main_arg8 (by decide))).trans (bufs4_main_arg8 m c),
     (h c _ (mem_uc main_arg9 (by decide))).trans (bufs4_main_arg9 m c),
     (h c _ (mem_uc main_arg10 (by decide))).trans (bufs4_main_arg10 m c),
     (h c _ (mem_uc main_arg11 (by decide))).trans (bufs4_main_arg11 m c),
     (h c _ (mem_uc main_arg12 (by decide))).trans (bufs4_main_arg12 m c)⟩) (run_all m ρ)

end Cert.Kernel.Frm

end
-- ==== Proof.FrameKernelIdeal.Region0Runs.lean ====
/-
  The first kernel of the program (a 2 × 2 grid: the first axis picks a half of the 8192 tokens, the second walks the
  half's two blocks of 2048 tokens), on core `c`: what its body does at a point, in each of the two cases its two
  conditionals leave.

  The body keeps a 128 × 128 accumulator in a scratch buffer across the points of a half. At the FIRST block of a half
  (second coordinate 0) it first stores zeros into the accumulator; at every point it adds the block's contribution
  to `Kᵀ V` into it; at the LAST block of a half (second coordinate 1) it copies the accumulator into the result
  window's buffer, which the pipeline then writes back to the half's slice of the result. With two blocks per half a
  point is either a first block (case A: reset, accumulate, no copy) or a last block (case B: accumulate, copy).
-/
import proofs.«157025_j56100862820442_2_alg».proof.Proof.Gen.KernelIdeal.Launch
import proofs.«157025_j56100862820442_2_alg».proof.Proof.Gen.KernelIdeal.Skeleton
import proofs.«157025_j56100862820442_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- "This is the first block of its half": the body's first conditional. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last block of its half": the body's second conditional. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first block the result window is idle: the body stores nothing into it, -/
theorem idleAt0_5_A : ∀ t : Fin cfg0.N, cond0_0 (grid0.coords t) → ¬cond0_1 (grid0.coords t) → cfg0.idle 5 (grid0.coords t) = true := by decide +kernel
/-- and the pipeline does not write it back there. -/
theorem noFlush0_5_A : ∀ t : Fin cfg0.N, cond0_0 (grid0.coords t) → ¬cond0_1 (grid0.coords t) → (cfg0.win 5).flush t = false := by decide +kernel
/-- At a last block it is live. -/
theorem liveAt0_5_B : ∀ t : Fin cfg0.N, ¬cond0_0 (grid0.coords t) → cond0_1 (grid0.coords t) → cfg0.idle 5 (grid0.coords t) = false := by decide +kernel

/-! ## The memrefs the body is called with -/

/-- One staging buffer of the result window, through which its contents are stated. -/
abbrev VO0_5 : View sig .tc .vmem S1x128x128 .f32 := (Memref.whole cc0_stg5_0 : Memref sig .tc .vmem S1x128x128 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x128 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S128x128 .f32 := Memref.whole cc0_scratch0
abbrev VS0_0 : View sig .tc .vmem S128x128 .f32 := scM0_0.view

/-- The core's other scoped buffers that are no staging buffer of this kernel (the second kernel's staging buffers), each
    whole at some contents: what rides through this kernel's region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f))

/-- The class's region invariant with the accumulator split off as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

/-! ## The body on any staging memrefs, case by case -/

set_option maxHeartbeats 4000000 in
/-- CASE A (a first block). On whole staging memrefs — the inputs' at contents `xW`, the result window's at contents
    `xi5` handed back untouched, the accumulator at anything — the body runs to the continuation holding the inputs' as
    they were and the accumulator with the pieces `LS0` written (the zero fill, then the sum): the pieces are the witness
    the run finds. -/
noncomputable def kernelRun0_A (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : cond0_0 i) (hc1 : ¬cond0_1 i)
    (x0 : Vec F S2048x1024 .f32) (x1 : Vec F S1024x128 .bf16) (x2 : Vec F S1x128 .f32) (x3 : Vec F S1024x128 .bf16) (x4 : Vec F S1x128 .f32) :
    { LS0 : List (View.Piece (Elt F) S128x128 .f32) //
      ∀ (xi5 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in
/-- CASE B (a last block). The accumulator is handed at the contents `xs0` the point before left, the result window's
    buffer at anything; the body leaves the accumulator with the pieces `LS0` written (the sum) and the result window's
    buffer with the pieces `L5` written (the copy). -/
noncomputable def kernelRun0_B (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) :
    Σ' (L5 : List (View.Piece (Elt F) S1x128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Frm

end
-- ==== Proof.FrameKernelIdeal.Region0.lean ====
/-
  The first kernel's pipeline on core `c`, at the contents `V` its region is entered with: what the accumulator and
  the result window's buffer hold after each point, the region's invariant (which carries the accumulator from a point
  to the next), the proof data, and that the body run at a point leaves exactly what the proof data say.
-/
import proofs.«157025_j56100862820442_2_alg».proof.Proof.FrameKernelIdeal.Region0Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Case A's pieces for the accumulator cover it, -/
theorem scover0_A_0 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : cond0_0 i) (hc1 : ¬cond0_1 i)
    (x0 : Vec F S2048x1024 .f32) (x1 : Vec F S1024x128 .bf16) (x2 : Vec F S1x128 .f32) (x3 : Vec F S1024x128 .bf16) (x4 : Vec F S1x128 .f32) (y : S128x128.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL (kernelRun0_A c i arg2 harg2 arg3 harg3 arg4 harg4 arg5 harg5 arg6 harg6 arg7 harg7 arg8 harg8 hc0 hc1 x0 x1 x2 x3 x4).1 S128x128.size (by sl_kernel_rfl) y

/-- so what case A leaves in the accumulator is its pieces read back. -/
def sout0_A_0 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : cond0_0 i) (hc1 : ¬cond0_1 i)
    (x0 : Vec F S2048x1024 .f32) (x1 : Vec F S1024x128 .bf16) (x2 : Vec F S1x128 .f32) (x3 : Vec F S1024x128 .bf16) (x4 : Vec F S1x128 .f32) : Vec F S128x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).1)

/-- Case B's pieces for the result window's buffer cover it, -/
theorem cover0_B_5 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) (y : S1x128x128.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S1x128x128.size (by sl_kernel_rfl) y

/-- so what case B leaves there is its pieces read back. -/
def out0_B_5 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) : Vec F S1x128x128 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- Case B's pieces for the accumulator cover it, -/
theorem scover0_B_0 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) (y : S128x128.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S128x128.size (by sl_kernel_rfl) y

/-- and what case B leaves in the accumulator. -/
def sout0_B_0 (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) : Vec F S128x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- At a first block nothing is stored into the result window's buffer: a placeholder nothing consults (the window is
    neither written back there nor read at the next point). -/
def junk5 : Vec F S1x128x128 .f32 := VO0_5.read (Elt F) (VO0_5.writes (Elt F) VO0_5.junk [])

/-! ## What the buffers hold after each point -/

/-- THE ACCUMULATION: what the result window's buffer and the accumulator hold after the body at position `n` — the case
    the parity selects, run at the point's memrefs and input blocks, a last block over what the point before left in the
    accumulator. -/
def outsAt0 (c : Dev nD) : (n : ℕ) → n < cfg0.N → Vec F S1x128x128 .f32 × Vec F S128x128 .f32
  | 0, hn => (junk5, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 2 = 0 then
      (junk5, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr (by show (n + 1) % 2 = 1; omega)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr (by show (n + 1) % 2 = 1; omega)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a first block. -/
theorem outsAt0_A (c : Dev nD) (t : Fin cfg0.N) (h0 : t.val % 2 = 0) (h1 : ¬t.val % 2 = 1) :
    outsAt0 V c t.val t.isLt = (junk5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at a last block: over what the point before left. -/
theorem outsAt0_B (c : Dev nD) (t : Fin cfg0.N) (h0 : ¬t.val % 2 = 0) (h1 : t.val % 2 = 1) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant -/

/-- Before position `n`: before the first point the class's invariant (the accumulator at anything); afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of the first kernel's pipeline on core `c`: the arrays as the region finds them; after the body at
    point `t` each input's buffer at its block and the result window's at `outsAt0`'s first component; the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the parity says which case the point is in; the invariant hands the body the accumulator (at
    what the point before left; at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 4 := lt_of_lt_of_eq t.isLt (show cfg0.N = 4 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 2 = 0
  · have h1 : ¬t.val % 2 = 1 := by omega
    rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
    rw [outsAt0_A V c t h0 h1]
    unfold sout0_A_0; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hz : t.val ≠ 0 := by omega
    rw [show (dat0 V c).leavesExact 5 t = owns (c : Thread nD τ) (ms0_5 t) fullShare ((dat0 V c).after 5 t) from by
      unfold Dat.leavesExact; rw [liveAt0_5_B t (fun h => h0 ((hcond0_0 t).mp h)) ((hcond0_1 t).mpr h1)], after0_5]
    rw [outsAt0_B V c t h0 h1]
    unfold out0_B_5 sout0_B_0; (try dsimp only)
    rw [PhiS_castSucc V c t, PhiS_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 4 := N_0; omega), PhiA0_eq]
  iintro ⟨⟨HS0, Hrest⟩, Hg⟩
  isplitl [HS0 Hrest]
  · isplitl [HS0]
    · iexists _; iexact HS0
    iexact Hrest
  iexact Hg

end Cert.KernelIdeal.Frm

end
-- ==== Proof.FrameKernelIdeal.Region1.lean ====
/-
  The second kernel of the program (one grid axis of 16 points, each an independent tile of 512 tokens), on core `c`,
  at the contents `V` its region is entered with: what each window's staging buffer holds before and after the body at
  a point, and that the body run at a point leaves exactly that.

  The body reads ten windows and writes one. Window 0 is the tile of `x` (its block moves with the point); windows 1–9
  are whole arrays fetched once (the query weights and bias, the 128 × 128 matrix `Kᵀ V`, the output projection and
  its bias, the two feed-forward weight matrices with their biases). The two feed-forward weight matrices and the
  first bias are each read through two rectangles, the two halves of 2048 hidden units. Window 10, the result tile,
  is stored whole, once, so its buffer after the body is that one store's payload, a pure function of the ten blocks.
-/
import proofs.«157025_j56100862820442_2_alg».proof.Proof.Gen.KernelIdeal.Launch
import proofs.«157025_j56100862820442_2_alg».proof.Proof.Gen.KernelIdeal.Skeleton
import proofs.«157025_j56100862820442_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the fetch, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: where it is not
    fetched its block index has not moved since the fetch, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: where it is not
    fetched its block index has not moved since the fetch, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: where it is not
    fetched its block index has not moved since the fetch, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not: where it is not
    fetched its block index has not moved since the fetch, and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not: where it is not
    fetched its block index has not moved since the fetch, and the body leaves the buffer as it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not: where it is not
    fetched its block index has not moved since the fetch, and the body leaves the buffer as it found it. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not: where it is not
    fetched its block index has not moved since the fetch, and the body leaves the buffer as it found it. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not: where it is not
    fetched its block index has not moved since the fetch, and the body leaves the buffer as it found it. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not: where it is not
    fetched its block index has not moved since the fetch, and the body leaves the buffer as it found it. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through -/

abbrev rX : Rect S512x1024 := Rect.unit (s := S512x1024) ![0, 0] S512x1024.size inb_S512x1024_S512x1024_0_0
abbrev rWq : Rect S1024x128 := Rect.unit (s := S1024x128) ![0, 0] S1024x128.size inb_S1024x128_S1024x128_0_0
abbrev rB128 : Rect S1x128 := Rect.unit (s := S1x128) ![0, 0] S1x128.size inb_S1x128_S1x128_0_0
abbrev rKv : Rect S128x128 := Rect.unit (s := S128x128) ![0, 0] S128x128.size inb_S128x128_S128x128_0_0
abbrev rWp : Rect S128x1024 := Rect.unit (s := S128x1024) ![0, 0] S128x1024.size inb_S128x1024_S128x1024_0_0
abbrev rB1024 : Rect S1x1024 := Rect.unit (s := S1x1024) ![0, 0] S1x1024.size inb_S1x1024_S1x1024_0_0
/-- The first and the second 2048 columns of the first feed-forward weight matrix, -/
abbrev rW1a : Rect S1024x4096 := Rect.unit (s := S1024x4096) ![0, 0] S1024x2048.size inb_S1024x4096_S1024x2048_0_0
abbrev rW1b : Rect S1024x4096 := Rect.unit (s := S1024x4096) ![0, 2048] S1024x2048.size inb_S1024x4096_S1024x2048_0_2048
/-- of its bias, -/
abbrev rB1a : Rect S1x4096 := Rect.unit (s := S1x4096) ![0, 0] S1x2048.size inb_S1x4096_S1x2048_0_0
abbrev rB1b : Rect S1x4096 := Rect.unit (s := S1x4096) ![0, 2048] S1x2048.size inb_S1x4096_S1x2048_0_2048
/-- and the first and the second 2048 rows of the second feed-forward weight matrix. -/
abbrev rW2a : Rect S4096x1024 := Rect.unit (s := S4096x1024) ![0, 0] S2048x1024.size inb_S4096x1024_S2048x1024_0_0
abbrev rW2b : Rect S4096x1024 := Rect.unit (s := S4096x1024) ![2048, 0] S2048x1024.size inb_S4096x1024_S2048x1024_2048_0

/-! ## What the body leaves in the result window's buffer -/

/-- The one store's payload from the ten input blocks: the first residual and its rounding, the zero accumulator, the
    first half's hidden units (the values the first part of the body hands on), then the second half and the sum. -/
def pay1 (x0 : Vec F S512x1024 .f32) (x1 : Vec F S1024x128 .bf16) (x2 : Vec F S1x128 .f32) (x3 : Vec F S128x128 .bf16) (x4 : Vec F S128x1024 .bf16) (x5 : Vec F S1x1024 .f32) (x6 : Vec F S1024x4096 .bf16) (x7 : Vec F S1x4096 .f32) (x8 : Vec F S4096x1024 .bf16) (x9 : Vec F S1x1024 .f32) : Vec F S512x1024 .f32 :=
  k1_pay1 (k1_pay2 (View.ld x0 rX) (View.ld x1 rWq) (View.ld x2 rB128) (View.ld x3 rKv) (View.ld x4 rWp) (View.ld x5 rB1024))
    (k1_pay3 (View.ld x0 rX) (View.ld x1 rWq) (View.ld x2 rB128) (View.ld x3 rKv) (View.ld x4 rWp) (View.ld x5 rB1024))
    (k1_pay4 (F := F))
    (k1_pay5 (View.ld x0 rX) (View.ld x1 rWq) (View.ld x2 rB128) (View.ld x3 rKv) (View.ld x4 rWp) (View.ld x5 rB1024) (View.ld x6 rW1a) (View.ld x7 rB1a))
    (View.ld x8 rW2a) (View.ld x6 rW1b) (View.ld x7 rB1b) (View.ld x8 rW2b) (View.ld x9 rB1024)

/-- Window 10's staging buffer after the body: its one store as a piece. -/
def out1_10 (x0 : Vec F S512x1024 .f32) (x1 : Vec F S1024x128 .bf16) (x2 : Vec F S1x128 .f32) (x3 : Vec F S128x128 .bf16) (x4 : Vec F S128x1024 .bf16) (x5 : Vec F S1x1024 .f32) (x6 : Vec F S1024x4096 .bf16) (x7 : Vec F S1x4096 .f32) (x8 : Vec F S4096x1024 .bf16) (x9 : Vec F S1x1024 .f32) : Vec F S512x1024 .f32 :=
  View.canon [⟨rX, pay1 x0 x1 x2 x3 x4 x5 x6 x7 x8 x9⟩]

/-- The store covers the buffer. -/
theorem cover1_10 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The body's triple -/

set_option maxHeartbeats 4000000 in
/-- The body on whole staging memrefs, the inputs' at contents `xW` and the result's at anything, runs to the
    continuation holding the inputs' as they were and the result's at `out1_10` of the inputs'. -/
theorem sound_kernel1 (c : Dev nD) (E : Set ℕ) (i : grid1.Coords) (arg1 : Memref sig .tc .vmem S512x1024 .f32) (harg1 : arg1.IsWhole) (arg2 : Memref sig .tc .vmem S1024x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S128x1024 .bf16) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S1x4096 .f32) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S512x1024 .f32) (harg11 : arg11.IsWhole)
    (x0 : Vec F S512x1024 .f32) (x1 : Vec F S1024x128 .bf16) (x2 : Vec F S1x128 .f32) (x3 : Vec F S128x128 .bf16) (x4 : Vec F S128x1024 .bf16) (x5 : Vec F S1x1024 .f32) (x6 : Vec F S1024x4096 .bf16) (x7 : Vec F S1x4096 .f32) (x8 : Vec F S4096x1024 .bf16) (x9 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of the second kernel's pipeline on core `c`: the arrays as the region finds them; after the body at
    point `t` each input's buffer at its block and the result's at `out1_10` of the input blocks; the invariant the
    class's (the scoped buffers that are not this kernel's staging buffers, and the generator register, untouched);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 4000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.FrameKernelIdeal.Run.lean ====
/-
  The whole program on the TensorCores, from the launch to the return: eighteen host operations (the weight matrices
  transposed and rounded, the biases reshaped to rows), the first kernel's region, six host operations (the two halves of
  `Kᵀ V` sliced out, added and rounded), the second kernel's region.

  The contents of the core's unscoped buffers are named at each of the five boundaries: at launch; after the first host
  stretch; after the first region (its arrays at what the pipeline's write-backs leave, every other buffer as entered);
  after the second host stretch; after the second region. Each region is entered from the boundary before it and left at
  the one after it, and the program's run ends with every unscoped buffer at the last boundary's contents. No host
  operation and no region writes an argument array, so each argument's buffer walks back through the five boundaries to
  its launch contents.
-/
import proofs.«157025_j56100862820442_2_alg».proof.Proof.FrameKernelIdeal.Region0
import proofs.«157025_j56100862820442_2_alg».proof.Proof.FrameKernelIdeal.Region1
import proofs.«157025_j56100862820442_2_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev bufs0 : Dev nD → Valuation τ sig (Elt F) := fun c b => m (c, b)
/-- After the first host stretch: the first region's entry. -/
abbrev bufs1 : Dev nD → Valuation τ sig (Elt F) := fun c => StableHlo.after hostOps0 (bufs0 m c)
/-- The same read at the TensorCore's references. -/
abbrev ent0 : (c : Dev nD) → (b : Ref sig .tc) → Buf (Elt F) ((c : Thread nD τ).loc b) := fun c b => bufs1 m c b
/-- At the first region's exit: its arrays at what the pipeline leaves, every other buffer as entered. -/
def bufs2 (c : Dev nD) : Valuation τ sig (Elt F) :=
  Pipeline.withArrays spec0 c (bufs1 m c) fun w => (dat0 (ent0 m) c).arrAt w cfg0.N
theorem bufs2_arr (c : Dev nD) (w : Fin cfg0.W) :
    bufs2 m c (Proc.devRef .tc (Pipeline.arrRef spec0 w)) = (dat0 (ent0 m) c).arrAt w cfg0.N := by
  unfold bufs2; exact Pipeline.withArrays_arr spec0 launch0.win.arr_inj c _ _ w
theorem bufs2_of_ne (c : Dev nD) (b : Ref sig .tc) (hb : ∀ w, Pipeline.arrRef spec0 w ≠ b) :
    bufs2 m c (Proc.devRef .tc b) = bufs1 m c (Proc.devRef .tc b) := by
  unfold bufs2; exact Pipeline.withArrays_of_ne spec0 c _ _ b hb
abbrev ext0 : (c : Dev nD) → (b : Ref sig .tc) → Buf (Elt F) ((c : Thread nD τ).loc b) := fun c b => bufs2 m c b
theorem hF0 (c : Dev nD) (w : Fin cfg0.W) : (dat0 (ent0 m) c).arrAt w cfg0.N = ext0 m c (Pipeline.arrRef spec0 w) :=
  (bufs2_arr m c w).symm
theorem hrest0 (c : Dev nD) : ∀ b, b ∉ Finset.univ.image (Pipeline.arrRef spec0) → ext0 m c b = ent0 m c b :=
  fun b hb => bufs2_of_ne m c b fun w e => hb (Finset.mem_image.mpr ⟨w, Finset.mem_univ _, e⟩)

/-- After the second host stretch: the second region's entry. -/
abbrev bufs3 : Dev nD → Valuation τ sig (Elt F) := fun c => StableHlo.after hostOps1 (bufs2 m c)
abbrev ent1 : (c : Dev nD) → (b : Ref sig .tc) → Buf (Elt F) ((c : Thread nD τ).loc b) := fun c b => bufs3 m c b
/-- At the second region's exit. -/
def bufs4 (c : Dev nD) : Valuation τ sig (Elt F) :=
  Pipeline.withArrays spec1 c (bufs3 m c) fun w => (dat1 (ent1 m) c).arrAt w cfg1.N
theorem bufs4_arr (c : Dev nD) (w : Fin cfg1.W) :
    bufs4 m c (Proc.devRef .tc (Pipeline.arrRef spec1 w)) = (dat1 (ent1 m) c).arrAt w cfg1.N := by
  unfold bufs4; exact Pipeline.withArrays_arr spec1 launch1.win.arr_inj c _ _ w
theorem bufs4_of_ne (c : Dev nD) (b : Ref sig .tc) (hb : ∀ w, Pipeline.arrRef spec1 w ≠ b) :
    bufs4 m c (Proc.devRef .tc b) = bufs3 m c (Proc.devRef .tc b) := by
  unfold bufs4; exact Pipeline.withArrays_of_ne spec1 c _ _ b hb
abbrev ext1 : (c : Dev nD) → (b : Ref sig .tc) → Buf (Elt F) ((c : Thread nD τ).loc b) := fun c b => bufs4 m c b
theorem hF1 (c : Dev nD) (w : Fin cfg1.W) : (dat1 (ent1 m) c).arrAt w cfg1.N = ext1 m c (Pipeline.arrRef spec1 w) :=
  (bufs4_arr m c w).symm
theorem hrest1 (c : Dev nD) : ∀ b, b ∉ Finset.univ.image (Pipeline.arrRef spec1) → ext1 m c b = ent1 m c b :=
  fun b hb => bufs4_of_ne m c b fun w e => hb (Finset.mem_image.mpr ⟨w, Finset.mem_univ _, e⟩)

/-- A host stretch changes only the buffers its operations write. -/
theorem bufs1_of (c : Dev nD) (r : Ref sig .tc) (h : r ∉ hostOps0_W) : bufs1 m c r = bufs0 m c r :=
  StableHlo.after_of_writes_sub hostOps0 _ hostOps0_writes h
theorem bufs3_of (c : Dev nD) (r : Ref sig .tc) (h : r ∉ hostOps1_W) : bufs3 m c r = bufs2 m c r :=
  StableHlo.after_of_writes_sub hostOps1 _ hostOps1_writes h

/-! ## The arguments end as launched -/

/-- The token matrix is an input window of both regions: each leaves its array as entered. -/
theorem bufs4_main_arg0 (c : Dev nD) : bufs4 m c (Proc.devRef .tc main_arg0) = m ((c : Thread nD τ).loc main_arg0) :=
  calc bufs4 m c (Proc.devRef .tc main_arg0)
    _ = bufs3 m c (Proc.devRef .tc main_arg0) := (bufs4_arr m c 0).trans (((dat1 (ent1 m) c).arrAt_in 0 rfl _).trans (A_eq1 (ent1 m) c 0))
    _ = bufs2 m c (Proc.devRef .tc main_arg0) := bufs3_of m c main_arg0 (by decide)
    _ = bufs1 m c (Proc.devRef .tc main_arg0) := (bufs2_arr m c 0).trans (((dat0 (ent0 m) c).arrAt_in 0 rfl _).trans (A_eq0 (ent0 m) c 0))
    _ = bufs0 m c (Proc.devRef .tc main_arg0) := bufs1_of m c main_arg0 (by decide)
    _ = m ((c : Thread nD τ).loc main_arg0) := rfl
/-- Argument 1 is no array of either region and no host operation writes it. -/
theorem bufs4_main_arg1 (c : Dev nD) : bufs4 m c (Proc.devRef .tc main_arg1) = m ((c : Thread nD τ).loc main_arg1) :=
  calc bufs4 m c (Proc.devRef .tc main_arg1)
    _ = bufs3 m c (Proc.devRef .tc main_arg1) := bufs4_of_ne m c main_arg1 (by decide)
    _ = bufs2 m c (Proc.devRef .tc main_arg1) := bufs3_of m c main_arg1 (by decide)
    _ = bufs1 m c (Proc.devRef .tc main_arg1) := bufs2_of_ne m c main_arg1 (by decide)
    _ = bufs0 m c (Proc.devRef .tc main_arg1) := bufs1_of m c main_arg1 (by decide)
    _ = m ((c : Thread nD τ).loc main_arg1) := rfl
/-- Argument 2 is no array of either region and no host operation writes it. -/
theorem bufs4_main_arg2 (c : Dev nD) : bufs4 m c (Proc.devRef .tc main_arg2) = m ((c : Thread nD τ).loc main_arg2) :=
  calc bufs4 m c (Proc.devRef .tc main_arg2)
    _ = bufs3 m c (Proc.devRef .tc main_arg2) := bufs4_of_ne m c main_arg2 (by decide)
    _ = bufs2 m c (Proc.devRef .tc main_arg2) := bufs3_of m c main_arg2 (by decide)
    _ = bufs1 m c (Proc.devRef .tc main_arg2) := bufs2_of_ne m c main_arg2 (by decide)
    _ = bufs0 m c (Proc.devRef .tc main_arg2) := bufs1_of m c main_arg2 (by decide)
    _ = m ((c : Thread nD τ).loc main_arg2) := rfl
/-- Argument 3 is no array of either region and no host operation writes it. -/
theorem bufs4_main_arg3 (c : Dev nD) : bufs4 m c (Proc.devRef .tc main_arg3) = m ((c : Thread nD τ).loc main_arg3) :=
  calc bufs4 m c (Proc.devRef .tc main_arg3)
    _ = bufs3 m c (Proc.devRef .tc main_arg3) := bufs4_of_ne m c main_arg3 (by decide)
    _ = bufs2 m c (Proc.devRef .tc main_arg3) := bufs3_of m c main_arg3 (by decide)
    _ = bufs1 m c (Proc.devRef .tc main_arg3) := bufs2_of_ne m c main_arg3 (by decide)
    _ = bufs0 m c (Proc.devRef .tc main_arg3) := bufs1_of m c main_arg3 (by decide)
    _ = m ((c : Thread nD τ).loc main_arg3) := rfl
/-- Argument 4 is no array of either region and no host operation writes it. -/
theorem bufs4_main_arg4 (c : Dev nD) : bufs4 m c (Proc.devRef .tc main_arg4) = m ((c : Thread nD τ).loc main_arg4) :=
  calc bufs4 m c (Proc.devRef .tc main_arg4)
    _ = bufs3 m c (Proc.devRef .tc main_arg4) := bufs4_of_ne m c main_arg4 (by decide)
    _ = bufs2 m c (Proc.devRef .tc main_arg4) := bufs3_of m c main_arg4 (by decide)
    _ = bufs1 m c (Proc.devRef .tc main_arg4) := bufs2_of_ne m c main_arg4 (by decide)
    _ = bufs0 m c (Proc.devRef .tc main_arg4) := bufs1_of m c main_arg4 (by decide)
    _ = m ((c : Thread nD τ).loc main_arg4) := rfl
/-- Argument 5 is no array of either region and no host operation writes it. -/
theorem bufs4_main_arg5 (c : Dev nD) : bufs4 m c (Proc.devRef .tc main_arg5) = m ((c : Thread nD τ).loc main_arg5) :=
  calc bufs4 m c (Proc.devRef .tc main_arg5)
    _ = bufs3 m c (Proc.devRef .tc main_arg5) := bufs4_of_ne m c main_arg5 (by decide)
    _ = bufs2 m c (Proc.devRef .tc main_arg5) := bufs3_of m c main_arg5 (by decide)
    _ = bufs1 m c (Proc.devRef .tc main_arg5) := bufs2_of_ne m c main_arg5 (by decide)
    _ = bufs0 m c (Proc.devRef .tc main_arg5) := bufs1_of m c main_arg5 (by decide)
    _ = m ((c : Thread nD τ).loc main_arg5) := rfl
/-- Argument 6 is no array of either region and no host operation writes it. -/
theorem bufs4_main_arg6 (c : Dev nD) : bufs4 m c (Proc.devRef .tc main_arg6) = m ((c : Thread nD τ).loc main_arg6) :=
  calc bufs4 m c (Proc.devRef .tc main_arg6)
    _ = bufs3 m c (Proc.devRef .tc main_arg6) := bufs4_of_ne m c main_arg6 (by decide)
    _ = bufs2 m c (Proc.devRef .tc main_arg6) := bufs3_of m c main_arg6 (by decide)
    _ = bufs1 m c (Proc.devRef .tc main_arg6) := bufs2_of_ne m c main_arg6 (by decide)
    _ = bufs0 m c (Proc.devRef .tc main_arg6) := bufs1_of m c main_arg6 (by decide)
    _ = m ((c : Thread nD τ).loc main_arg6) := rfl
/-- Argument 7 is no array of either region and no host operation writes it. -/
theorem bufs4_main_arg7 (c : Dev nD) : bufs4 m c (Proc.devRef .tc main_arg7) = m ((c : Thread nD τ).loc main_arg7) :=
  calc bufs4 m c (Proc.devRef .tc main_arg7)
    _ = bufs3 m c (Proc.devRef .tc main_arg7) := bufs4_of_ne m c main_arg7 (by decide)
    _ = bufs2 m c (Proc.devRef .tc main_arg7) := bufs3_of m c main_arg7 (by decide)
    _ = bufs1 m c (Proc.devRef .tc main_arg7) := bufs2_of_ne m c main_arg7 (by decide)
    _ = bufs0 m c (Proc.devRef .tc main_arg7) := bufs1_of m c main_arg7 (by decide)
    _ = m ((c : Thread nD τ).loc main_arg7) := rfl
/-- Argument 8 is no array of either region and no host operation writes it. -/
theorem bufs4_main_arg8 (c : Dev nD) : bufs4 m c (Proc.devRef .tc main_arg8) = m ((c : Thread nD τ).loc main_arg8) :=
  calc bufs4 m c (Proc.devRef .tc main_arg8)
    _ = bufs3 m c (Proc.devRef .tc main_arg8) := bufs4_of_ne m c main_arg8 (by decide)
    _ = bufs2 m c (Proc.devRef .tc main_arg8) := bufs3_of m c main_arg8 (by decide)
    _ = bufs1 m c (Proc.devRef .tc main_arg8) := bufs2_of_ne m c main_arg8 (by decide)
    _ = bufs0 m c (Proc.devRef .tc main_arg8) := bufs1_of m c main_arg8 (by decide)
    _ = m ((c : Thread nD τ).loc main_arg8) := rfl
/-- Argument 9 is no array of either region and no host operation writes it. -/
theorem bufs4_main_arg9 (c : Dev nD) : bufs4 m c (Proc.devRef .tc main_arg9) = m ((c : Thread nD τ).loc main_arg9) :=
  calc bufs4 m c (Proc.devRef .tc main_arg9)
    _ = bufs3 m c (Proc.devRef .tc main_arg9) := bufs4_of_ne m c main_arg9 (by decide)
    _ = bufs2 m c (Proc.devRef .tc main_arg9) := bufs3_of m c main_arg9 (by decide)
    _ = bufs1 m c (Proc.devRef .tc main_arg9) := bufs2_of_ne m c main_arg9 (by decide)
    _ = bufs0 m c (Proc.devRef .tc main_arg9) := bufs1_of m c main_arg9 (by decide)
    _ = m ((c : Thread nD τ).loc main_arg9) := rfl
/-- Argument 10 is no array of either region and no host operation writes it. -/
theorem bufs4_main_arg10 (c : Dev nD) : bufs4 m c (Proc.devRef .tc main_arg10) = m ((c : Thread nD τ).loc main_arg10) :=
  calc bufs4 m c (Proc.devRef .tc main_arg10)
    _ = bufs3 m c (Proc.devRef .tc main_arg10) := bufs4_of_ne m c main_arg10 (by decide)
    _ = bufs2 m c (Proc.devRef .tc main_arg10) := bufs3_of m c main_arg10 (by decide)
    _ = bufs1 m c (Proc.devRef .tc main_arg10) := bufs2_of_ne m c main_arg10 (by decide)
    _ = bufs0 m c (Proc.devRef .tc main_arg10) := bufs1_of m c main_arg10 (by decide)
    _ = m ((c : Thread nD τ).loc main_arg10) := rfl
/-- Argument 11 is no array of either region and no host operation writes it. -/
theorem bufs4_main_arg11 (c : Dev nD) : bufs4 m c (Proc.devRef .tc main_arg11) = m ((c : Thread nD τ).loc main_arg11) :=
  calc bufs4 m c (Proc.devRef .tc main_arg11)
    _ = bufs3 m c (Proc.devRef .tc main_arg11) := bufs4_of_ne m c main_arg11 (by decide)
    _ = bufs2 m c (Proc.devRef .tc main_arg11) := bufs3_of m c main_arg11 (by decide)
    _ = bufs1 m c (Proc.devRef .tc main_arg11) := bufs2_of_ne m c main_arg11 (by decide)
    _ = bufs0 m c (Proc.devRef .tc main_arg11) := bufs1_of m c main_arg11 (by decide)
    _ = m ((c : Thread nD τ).loc main_arg11) := rfl
/-- Argument 12 is no array of either region and no host operation writes it. -/
theorem bufs4_main_arg12 (c : Dev nD) : bufs4 m c (Proc.devRef .tc main_arg12) = m ((c : Thread nD τ).loc main_arg12) :=
  calc bufs4 m c (Proc.devRef .tc main_arg12)
    _ = bufs3 m c (Proc.devRef .tc main_arg12) := bufs4_of_ne m c main_arg12 (by decide)
    _ = bufs2 m c (Proc.devRef .tc main_arg12) := bufs3_of m c main_arg12 (by decide)
    _ = bufs1 m c (Proc.devRef .tc main_arg12) := bufs2_of_ne m c main_arg12 (by decide)
    _ = bufs0 m c (Proc.devRef .tc main_arg12) := bufs1_of m c main_arg12 (by decide)
    _ = m ((c : Thread nD τ).loc main_arg12) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev Rd (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tlast (c : Dev nD) : sProp 𝕄 := iprop(StableHlo.held (c : Thread nD τ) (Pipeline.ucRefs τ sig) (bufs4 m c) ∗ ∃ r, prngReg c r)

/-! ## The regions as segments -/

set_option backward.isDefEq.respectTransparency.types false in
/-- THE FIRST REGION over the thread state: entered from every unscoped buffer at `bufs1`, left at `bufs2`. Its arrays
    are split out of the unscoped buffers and put back at the exit contents; the generator register goes into the
    invariant and comes out; the accumulator's named contents are forgotten at the exit. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Lz lvz 0 fun _ _ => rfl
  pre c := iprop(StableHlo.held (c : Thread nD τ) (Pipeline.ucRefs τ sig) (bufs1 m c) ∗ Rd c)
  post c := iprop(StableHlo.held (c : Thread nD τ) (Pipeline.ucRefs τ sig) (bufs2 m c) ∗ Rd c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `bufs3`, left at `bufs4`. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ Lz lvz 1 fun _ _ => rfl
  pre c := iprop(StableHlo.held (c : Thread nD τ) (Pipeline.ucRefs τ sig) (bufs3 m c) ∗ Rd c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs4 : List (Pipeline.Seg (pcfgs (F := F)) adm (pdats m) () defs₀ 𝒱₀ Lz lvz) :=
  [ .host (hseg hostOps0 hostOps0_sub hostOps0_fresh (bufs0 m)),
    .region (reg0 m),
    .host (hseg hostOps1 hostOps1_sub hostOps1_fresh (bufs2 m)),
    .region (reg1 m) ]
/-- The program IS the run of the segments. -/
theorem main_run (c : Dev nD) : main (F := F) c = Pipeline.Seg.run (segs4 m) := (main_chain c).trans (by chain_rfl)

set_option backward.isDefEq.respectTransparency.types false in
/-- THE RUN: from any memory with zero counters, every weakly fair execution of the program on the TensorCores
    terminates, nothing faulting, and in every final state every unscoped buffer of every core holds the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bufs4 m c b) :=
  Pipeline.θ_run_regions_kit (pcfgs (F := F)) adm (pdats m) () cellOf_inj emb₁ defs₀ 𝒱₀ Lz lvz m ρ main (segs4 m)
    (fun c Q => by rw [main_run m c])
    (by simp only [segs4, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m c) ∗ Rd c)) (Tₙ := Tlast m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (bufs0 m c)
        from Pipeline.unscopedBufs_held c (bufs0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs4 m c b)
    (hfin := fun c s' => by
      iintro ⟨⟨Hh, -⟩, HSI⟩
      unfold StableHlo.held
      imodintro
      iapply (pointsTo_read_all (Pipeline.ucRefs τ sig) (fun b => (((c : Thread nD τ)).1, b)) (bufs4 m c) s')
      isplitl [Hh] <;> iassumption)
    (hQ := fun s h => h)

/-- THE FRAME: the run, read at the thirteen argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (bufs4_main_arg0 m c),
     (h c _ (mem_uc main_arg1 (by decide))).trans (bufs4_main_arg1 m c),
     (h c _ (mem_uc main_arg2 (by decide))).trans (bufs4_main_arg2 m c),
     (h c _ (mem_uc main_arg3 (by decide))).trans (bufs4_main_arg3 m c),
     (h c _ (mem_uc main_arg4 (by decide))).trans (bufs4_main_arg4 m c),
     (h c _ (mem_uc main_arg5 (by decide))).trans (bufs4_main_arg5 m c),
     (h c _ (mem_uc main_arg6 (by decide))).trans (bufs4_main_arg6 m c),
     (h c _ (mem_uc main_arg7 (by decide))).trans (bufs4_main_arg7 m c),
     (h c _ (mem_uc main_arg8 (by decide))).trans (bufs4_main_arg8 m c),
     (h c _ (mem_uc main_arg9 (by decide))).trans (bufs4_main_arg9 m c),
     (h c _ (mem_uc main_arg10 (by decide))).trans (bufs4_main_arg10 m c),
     (h c _ (mem_uc main_arg11 (by decide))).trans (bufs4_main_arg11 m c),
     (h c _ (mem_uc main_arg12 (by decide))).trans (bufs4_main_arg12 m c)⟩) (run_all m ρ)

/-- THE RESULT: the run, read at the result array and the thirteen argument arrays. -/
theorem run_result : θ_run defs (onTc (τ := τ) (main (F := F))) ⟨m, fun _ => 0, ρ⟩ (fun r => ∀ c : Dev nD,
      r.2.mem ((c.tc : Thread nD τ).loc main_v25) = bufs4 m c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v25 (by decide)),
     (h c _ (mem_uc main_arg0 (by decide))).trans (bufs4_main_arg0 m c),
     (h c _ (mem_uc main_arg1 (by decide))).trans (bufs4_main_arg1 m c),
     (h c _ (mem_uc main_arg2 (by decide))).trans (bufs4_main_arg2 m c),
     (h c _ (mem_uc main_arg3 (by decide))).trans (bufs4_main_arg3 m c),
     (h c _ (mem_uc main_arg4 (by decide))).trans (bufs4_main_arg4 m c),
     (h c _ (mem_uc main_arg5 (by decide))).trans (bufs4_main_arg5 m c),
     (h c _ (mem_uc main_arg6 (by decide))).trans (bufs4_main_arg6 m c),
     (h c _ (mem_uc main_arg7 (by decide))).trans (bufs4_main_arg7 m c),
     (h c _ (mem_uc main_arg8 (by decide))).trans (bufs4_main_arg8 m c),
     (h c _ (mem_uc main_arg9 (by decide))).trans (bufs4_main_arg9 m c),
     (h c _ (mem_uc main_arg10 (by decide))).trans (bufs4_main_arg10 m c),
     (h c _ (mem_uc main_arg11 (by decide))).trans (bufs4_main_arg11 m c),
     (h c _ (mem_uc main_arg12 (by decide))).trans (bufs4_main_arg12 m c)⟩) (run_all m ρ)

end Cert.KernelIdeal.Frm

end
-- ==== Proof.HostReadsMat.lean ====
/-
  The first host stretch, matrix by matrix: each of the six weight matrices the kernels read is the argument transposed and
  then converted to bf16, as an equation of whole arrays over the launch contents.
-/
import proofs.«157025_j56100862820442_2_alg».proof.Proof.FrameKernelIdeal.Run
import Idealize.ShloMosaic.Lib.StableHlo.Run
import Idealize.ShloMosaic.PureOps.Ideal

set_option maxRecDepth 16384

noncomputable section

namespace Cert.KernelIdeal.Val

open Cert.KernelIdeal Cert.KernelIdeal.Gen Cert.KernelIdeal.Frm
open Idealize.ShloMosaic Idealize.ShloMosaic.TcCoe

variable (m : (ℓ : Loc nD τ sig) → Buf (Elt Ideal) ℓ) (c : Dev nD)

/-! ## The six transposed weight matrices

Each equation is between whole arrays: the first host stretch's eighteen operations folded over the launch contents, read
at the one buffer. -/

theorem host0_v1 : @Eq (FVec Ideal S1024x128 .bf16) (StableHlo.after hostOps0 (bufs0 m c) (Proc.devRef .tc main_v1))
    (truncf .bf16 (transpose S1024x128 [1, 0] (m ((c : Thread nD τ).loc main_arg1) : FVec Ideal S128x1024 .f32) transposes_S128x1024_S1024x128_1_0) bitsLt_bf16_f32) := by
  dsimp only [hostOps0]; after_results
theorem host0_v3 : @Eq (FVec Ideal S1024x128 .bf16) (StableHlo.after hostOps0 (bufs0 m c) (Proc.devRef .tc main_v3))
    (truncf .bf16 (transpose S1024x128 [1, 0] (m ((c : Thread nD τ).loc main_arg3) : FVec Ideal S128x1024 .f32) transposes_S128x1024_S1024x128_1_0) bitsLt_bf16_f32) := by
  dsimp only [hostOps0]; after_results
theorem host0_v5 : @Eq (FVec Ideal S1024x128 .bf16) (StableHlo.after hostOps0 (bufs0 m c) (Proc.devRef .tc main_v5))
    (truncf .bf16 (transpose S1024x128 [1, 0] (m ((c : Thread nD τ).loc main_arg5) : FVec Ideal S128x1024 .f32) transposes_S128x1024_S1024x128_1_0) bitsLt_bf16_f32) := by
  dsimp only [hostOps0]; after_results
theorem host0_v7 : @Eq (FVec Ideal S128x1024 .bf16) (StableHlo.after hostOps0 (bufs0 m c) (Proc.devRef .tc main_v7))
    (truncf .bf16 (transpose S128x1024 [1, 0] (m ((c : Thread nD τ).loc main_arg7) : FVec Ideal S1024x128 .f32) transposes_S1024x128_S128x1024_1_0) bitsLt_bf16_f32) := by
  dsimp only [hostOps0]; after_results
theorem host0_v9 : @Eq (FVec Ideal S1024x4096 .bf16) (StableHlo.after hostOps0 (bufs0 m c) (Proc.devRef .tc main_v9))
    (truncf .bf16 (transpose S1024x4096 [1, 0] (m ((c : Thread nD τ).loc main_arg9) : FVec Ideal S4096x1024 .f32) transposes_S4096x1024_S1024x4096_1_0) bitsLt_bf16_f32) := by
  dsimp only [hostOps0]; after_results
theorem host0_v11 : @Eq (FVec Ideal S4096x1024 .bf16) (StableHlo.after hostOps0 (bufs0 m c) (Proc.devRef .tc main_v11))
    (truncf .bf16 (transpose S4096x1024 [1, 0] (m ((c : Thread nD τ).loc main_arg11) : FVec Ideal S1024x4096 .f32) transposes_S1024x4096_S4096x1024_1_0) bitsLt_bf16_f32) := by
  dsimp only [hostOps0]; after_results

end Cert.KernelIdeal.Val
-- ==== Proof.HostReadsRow.lean ====
/-
  The first host stretch, row by row: each of the six bias rows the kernels read is the argument vector of length n viewed
  at shape [1, n], as an equation of whole arrays over the launch contents.
-/
import proofs.«157025_j56100862820442_2_alg».proof.Proof.FrameKernelIdeal.Run
import Idealize.ShloMosaic.Lib.StableHlo.Run
import Idealize.ShloMosaic.PureOps.Ideal

set_option maxRecDepth 16384

noncomputable section

namespace Cert.KernelIdeal.Val

open Cert.KernelIdeal Cert.KernelIdeal.Gen Cert.KernelIdeal.Frm
open Idealize.ShloMosaic Idealize.ShloMosaic.TcCoe

variable (m : (ℓ : Loc nD τ sig) → Buf (Elt Ideal) ℓ) (c : Dev nD)

/-! ## The six bias vectors viewed as rows

Each equation is between whole arrays: the first host stretch's eighteen operations folded over the launch contents, read
at the one buffer. -/

theorem host0_v12 : @Eq (FVec Ideal S1x128 .f32) (StableHlo.after hostOps0 (bufs0 m c) (Proc.devRef .tc main_v12))
    (shapeCast S1x128 (m ((c : Thread nD τ).loc main_arg2) : FVec Ideal S128 .f32) shapeCasts_S128_S1x128) := by
  dsimp only [hostOps0]; after_results <;> rfl
theorem host0_v13 : @Eq (FVec Ideal S1x128 .f32) (StableHlo.after hostOps0 (bufs0 m c) (Proc.devRef .tc main_v13))
    (shapeCast S1x128 (m ((c : Thread nD τ).loc main_arg4) : FVec Ideal S128 .f32) shapeCasts_S128_S1x128) := by
  dsimp only [hostOps0]; after_results <;> rfl
theorem host0_v14 : @Eq (FVec Ideal S1x128 .f32) (StableHlo.after hostOps0 (bufs0 m c) (Proc.devRef .tc main_v14))
    (shapeCast S1x128 (m ((c : Thread nD τ).loc main_arg6) : FVec Ideal S128 .f32) shapeCasts_S128_S1x128) := by
  dsimp only [hostOps0]; after_results <;> rfl
theorem host0_v15 : @Eq (FVec Ideal S1x1024 .f32) (StableHlo.after hostOps0 (bufs0 m c) (Proc.devRef .tc main_v15))
    (shapeCast S1x1024 (m ((c : Thread nD τ).loc main_arg8) : FVec Ideal S1024 .f32) shapeCasts_S1024_S1x1024) := by
  dsimp only [hostOps0]; after_results <;> rfl
theorem host0_v16 : @Eq (FVec Ideal S1x4096 .f32) (StableHlo.after hostOps0 (bufs0 m c) (Proc.devRef .tc main_v16))
    (shapeCast S1x4096 (m ((c : Thread nD τ).loc main_arg10) : FVec Ideal S4096 .f32) shapeCasts_S4096_S1x4096) := by
  dsimp only [hostOps0]; after_results <;> rfl
theorem host0_v17 : @Eq (FVec Ideal S1x1024 .f32) (StableHlo.after hostOps0 (bufs0 m c) (Proc.devRef .tc main_v17))
    (shapeCast S1x1024 (m ((c : Thread nD τ).loc main_arg12) : FVec Ideal S1024 .f32) shapeCasts_S1024_S1x1024) := by
  dsimp only [hostOps0]; after_results <;> rfl

end Cert.KernelIdeal.Val
-- ==== Proof.HostReads.lean ====
/-
  The arrays each region is entered with, as functions of the program's arguments.

  Before the first kernel the host transposes six weight matrices (each then converted to bf16, which is the identity on
  the extended reals) and views six bias vectors of length n as rows [1, n]; between the kernels it cuts the [2, 128, 128]
  result of the first kernel into its two [128, 128] halves, adds them and converts the sum. Read at an index: a transposed
  matrix at (k, d) is the argument at (d, k); a bias row at (0, d) is the argument at d; the summed state at (d, e) is
  half 0 at (d, e) plus half 1 at (d, e). An array that no host operation and no earlier region writes holds its launch
  contents; an array the first host stretch wrote, and that the first region and the second stretch leave alone, is
  entered by the second region as the first stretch left it.
-/
import proofs.«157025_j56100862820442_2_alg».proof.Proof.HostReadsMat
import proofs.«157025_j56100862820442_2_alg».proof.Proof.HostReadsRow
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx

/-! ## One lemma per kind of host operation, over a variable array -/

section Kinds
variable {α : Type}

/-- A matrix transposed and then converted reads, at (j, i), the operand at (i, j): the conversion is the identity on the
    extended reals. -/
theorem truncf_transpose_ix2 {a b : ℕ} {φ ψ : FTy} (x : FVec Ideal (⟨2, ![a, b]⟩ : Shape) φ)
    (h : (⟨2, ![a, b]⟩ : Shape).Transposes [1, 0] ⟨2, ![b, a]⟩) (hb : ψ.bits < φ.bits) (j : Fin b) (i : Fin a) :
    (truncf ψ (transpose ⟨2, ![b, a]⟩ [1, 0] x h) hb : FVec Ideal (⟨2, ![b, a]⟩ : Shape) ψ) (ix2 j i) = x (ix2 i j) :=
  (truncf_apply _ hb _).trans (transpose_ix2_apply x h j i)

/-- Half `p` of a [2, a, b] array — the slice that starts at block `o = p` of the leading axis, viewed as a matrix — reads,
    at (i, j), the array at (p, i, j). -/
theorem half_ix2 {a b : ℕ} (o : ℕ) (x : (⟨3, ![2, a, b]⟩ : Shape).Idx → α)
    (hs : (⟨3, ![2, a, b]⟩ : Shape).Slices ![o, 0, 0] ⟨3, ![1, a, b]⟩)
    (hc : (⟨3, ![1, a, b]⟩ : Shape).ShapeCasts ⟨2, ![a, b]⟩) (p : Fin 2) (hp : p.val = o) (i : Fin a) (j : Fin b) :
    shapeCast ⟨2, ![a, b]⟩ (extractStridedSlice ⟨3, ![1, a, b]⟩ ![o, 0, 0] x hs) hc (ix2 i j) = x (ix3 p i j) :=
  (shapeCast_1ab_ab_apply _ hc i j).trans
    (extractStridedSlice_apply _ x hs _ _ fun ax => by
      match ax with
      | ⟨0, _⟩ => exact hp.trans (Nat.add_zero o).symm
      | ⟨1, _⟩ => exact (Nat.zero_add _).symm
      | ⟨2, _⟩ => exact (Nat.zero_add _).symm)

end Kinds

variable (m : (ℓ : Loc nD τ sig) → Buf (Elt Ideal) ℓ) (c : Dev nD)

/-! ## The first kernel's arrays at entry -/

/-- The token matrix is no host operation's result. -/
theorem ent0_arg0 : ent0 m c main_arg0 = m ((c : Thread nD τ).loc main_arg0) :=
  bufs1_of m c main_arg0 (by decide)

/-- The key weights, transposed. -/
theorem ent0_v3 (k : Fin 1024) (d : Fin 128) :
    (ent0 m c main_v3 : S1024x128.Idx → EReal) (ix2 k d) = (m ((c : Thread nD τ).loc main_arg3) : S128x1024.Idx → EReal) (ix2 d k) := by
  show (StableHlo.after hostOps0 (bufs0 m c) (Proc.devRef .tc main_v3) : FVec Ideal S1024x128 .bf16) (ix2 k d) = _
  rw [host0_v3]; exact truncf_transpose_ix2 _ _ _ k d

/-- The value weights, transposed. -/
theorem ent0_v5 (k : Fin 1024) (d : Fin 128) :
    (ent0 m c main_v5 : S1024x128.Idx → EReal) (ix2 k d) = (m ((c : Thread nD τ).loc main_arg5) : S128x1024.Idx → EReal) (ix2 d k) := by
  show (StableHlo.after hostOps0 (bufs0 m c) (Proc.devRef .tc main_v5) : FVec Ideal S1024x128 .bf16) (ix2 k d) = _
  rw [host0_v5]; exact truncf_transpose_ix2 _ _ _ k d

/-- The key bias as a row. -/
theorem ent0_v13 (d : Fin 128) :
    (ent0 m c main_v13 : S1x128.Idx → EReal) (ix2 (0 : Fin 1) d) = (m ((c : Thread nD τ).loc main_arg4) : S128.Idx → EReal) (ix1 d) := by
  show (StableHlo.after hostOps0 (bufs0 m c) (Proc.devRef .tc main_v13) : FVec Ideal S1x128 .f32) (ix2 (0 : Fin 1) d) = _
  rw [host0_v13]; exact shapeCast_a_1a_apply _ _ 0 d

/-- The value bias as a row. -/
theorem ent0_v14 (d : Fin 128) :
    (ent0 m c main_v14 : S1x128.Idx → EReal) (ix2 (0 : Fin 1) d) = (m ((c : Thread nD τ).loc main_arg6) : S128.Idx → EReal) (ix1 d) := by
  show (StableHlo.after hostOps0 (bufs0 m c) (Proc.devRef .tc main_v14) : FVec Ideal S1x128 .f32) (ix2 (0 : Fin 1) d) = _
  rw [host0_v14]; exact shapeCast_a_1a_apply _ _ 0 d

/-! ## The second kernel's arrays at entry -/

/-- The token matrix is an input window of the first region, which leaves it as entered, and no host operation's result. -/
theorem ent1_arg0 : ent1 m c main_arg0 = m ((c : Thread nD τ).loc main_arg0) :=
  calc bufs3 m c (Proc.devRef .tc main_arg0)
    _ = bufs2 m c (Proc.devRef .tc main_arg0) := bufs3_of m c main_arg0 (by decide)
    _ = bufs1 m c (Proc.devRef .tc main_arg0) := (bufs2_arr m c 0).trans (((dat0 (ent0 m) c).arrAt_in 0 rfl _).trans (A_eq0 (ent0 m) c 0))
    _ = bufs0 m c (Proc.devRef .tc main_arg0) := bufs1_of m c main_arg0 (by decide)

/-- An array that is no window of the first kernel and that the second host stretch does not write is entered by the second
    region as the first host stretch left it. -/
theorem ent1_of_host0 (r : Ref sig .tc) (h1 : r ∉ hostOps1_W) (h2 : ∀ w, Pipeline.arrRef spec0 w ≠ r) :
    ent1 m c r = StableHlo.after hostOps0 (bufs0 m c) (Proc.devRef .tc r) :=
  (bufs3_of m c r h1).trans (bufs2_of_ne m c r h2)

/-- The query weights, transposed. -/
theorem ent1_v1 (k : Fin 1024) (d : Fin 128) :
    (ent1 m c main_v1 : S1024x128.Idx → EReal) (ix2 k d) = (m ((c : Thread nD τ).loc main_arg1) : S128x1024.Idx → EReal) (ix2 d k) := by
  rw [ent1_of_host0 m c main_v1 (by decide) (by decide)]
  show (StableHlo.after hostOps0 (bufs0 m c) (Proc.devRef .tc main_v1) : FVec Ideal S1024x128 .bf16) (ix2 k d) = _
  rw [host0_v1]; exact truncf_transpose_ix2 _ _ _ k d

/-- The query bias as a row. -/
theorem ent1_v12 (d : Fin 128) :
    (ent1 m c main_v12 : S1x128.Idx → EReal) (ix2 (0 : Fin 1) d) = (m ((c : Thread nD τ).loc main_arg2) : S128.Idx → EReal) (ix1 d) := by
  rw [ent1_of_host0 m c main_v12 (by decide) (by decide)]
  show (StableHlo.after hostOps0 (bufs0 m c) (Proc.devRef .tc main_v12) : FVec Ideal S1x128 .f32) (ix2 (0 : Fin 1) d) = _
  rw [host0_v12]; exact shapeCast_a_1a_apply _ _ 0 d

/-- The output projection's weights, transposed. -/
theorem ent1_v7 (e : Fin 128) (j : Fin 1024) :
    (ent1 m c main_v7 : S128x1024.Idx → EReal) (ix2 e j) = (m ((c : Thread nD τ).loc main_arg7) : S1024x128.Idx → EReal) (ix2 j e) := by
  rw [ent1_of_host0 m c main_v7 (by decide) (by decide)]
  show (StableHlo.after hostOps0 (bufs0 m c) (Proc.devRef .tc main_v7) : FVec Ideal S128x1024 .bf16) (ix2 e j) = _
  rw [host0_v7]; exact truncf_transpose_ix2 _ _ _ e j

/-- The output projection's bias as a row. -/
theorem ent1_v15 (j : Fin 1024) :
    (ent1 m c main_v15 : S1x1024.Idx → EReal) (ix2 (0 : Fin 1) j) = (m ((c : Thread nD τ).loc main_arg8) : S1024.Idx → EReal) (ix1 j) := by
  rw [ent1_of_host0 m c main_v15 (by decide) (by decide)]
  show (StableHlo.after hostOps0 (bufs0 m c) (Proc.devRef .tc main_v15) : FVec Ideal S1x1024 .f32) (ix2 (0 : Fin 1) j) = _
  rw [host0_v15]; exact shapeCast_a_1a_apply _ _ 0 j

/-- The hidden layer's first weights, transposed. -/
theorem ent1_v9 (j : Fin 1024) (f : Fin 4096) :
    (ent1 m c main_v9 : S1024x4096.Idx → EReal) (ix2 j f) = (m ((c : Thread nD τ).loc main_arg9) : S4096x1024.Idx → EReal) (ix2 f j) := by
  rw [ent1_of_host0 m c main_v9 (by decide) (by decide)]
  show (StableHlo.after hostOps0 (bufs0 m c) (Proc.devRef .tc main_v9) : FVec Ideal S1024x4096 .bf16) (ix2 j f) = _
  rw [host0_v9]; exact truncf_transpose_ix2 _ _ _ j f

/-- The hidden layer's first bias as a row. -/
theorem ent1_v16 (f : Fin 4096) :
    (ent1 m c main_v16 : S1x4096.Idx → EReal) (ix2 (0 : Fin 1) f) = (m ((c : Thread nD τ).loc main_arg10) : S4096.Idx → EReal) (ix1 f) := by
  rw [ent1_of_host0 m c main_v16 (by decide) (by decide)]
  show (StableHlo.after hostOps0 (bufs0 m c) (Proc.devRef .tc main_v16) : FVec Ideal S1x4096 .f32) (ix2 (0 : Fin 1) f) = _
  rw [host0_v16]; exact shapeCast_a_1a_apply _ _ 0 f

/-- The hidden layer's second weights, transposed. -/
theorem ent1_v11 (f : Fin 4096) (j : Fin 1024) :
    (ent1 m c main_v11 : S4096x1024.Idx → EReal) (ix2 f j) = (m ((c : Thread nD τ).loc main_arg11) : S1024x4096.Idx → EReal) (ix2 j f) := by
  rw [ent1_of_host0 m c main_v11 (by decide) (by decide)]
  show (StableHlo.after hostOps0 (bufs0 m c) (Proc.devRef .tc main_v11) : FVec Ideal S4096x1024 .bf16) (ix2 f j) = _
  rw [host0_v11]; exact truncf_transpose_ix2 _ _ _ f j

/-- The hidden layer's second bias as a row. -/
theorem ent1_v17 (j : Fin 1024) :
    (ent1 m c main_v17 : S1x1024.Idx → EReal) (ix2 (0 : Fin 1) j) = (m ((c : Thread nD τ).loc main_arg12) : S1024.Idx → EReal) (ix1 j) := by
  rw [ent1_of_host0 m c main_v17 (by decide) (by decide)]
  show (StableHlo.after hostOps0 (bufs0 m c) (Proc.devRef .tc main_v17) : FVec Ideal S1x1024 .f32) (ix2 (0 : Fin 1) j) = _
  rw [host0_v17]; exact shapeCast_a_1a_apply _ _ 0 j

/-! ## The summed state

The second host stretch reads the first kernel's result as the first region left it: its two halves, each viewed as a
matrix, added and converted. -/

theorem host1_v24 : @Eq (FVec Ideal S128x128 .bf16) (StableHlo.after hostOps1 (bufs2 m c) (Proc.devRef .tc main_v24))
    (truncf .bf16 (addf
      (shapeCast S128x128 (extractStridedSlice S1x128x128 ![0, 0, 0] (bufs2 m c (Proc.devRef .tc main_v18) : FVec Ideal S2x128x128 .f32) slices_S2x128x128_S1x128x128_0_0_0) shapeCasts_S1x128x128_S128x128)
      (shapeCast S128x128 (extractStridedSlice S1x128x128 ![1, 0, 0] (bufs2 m c (Proc.devRef .tc main_v18) : FVec Ideal S2x128x128 .f32) slices_S2x128x128_S1x128x128_1_0_0) shapeCasts_S1x128x128_S128x128))
      bitsLt_bf16_f32) := by
  dsimp only [hostOps1]; after_results <;> rfl

/-- The state the second kernel multiplies the queries by: half 0 plus half 1 of the first kernel's result. -/
theorem ent1_v24 (d e : Fin 128) :
    @Eq EReal ((ent1 m c main_v24 : S128x128.Idx → EReal) (ix2 d e))
      (@HAdd.hAdd EReal EReal EReal instHAdd
        ((bufs2 m c (Proc.devRef .tc main_v18) : S2x128x128.Idx → EReal) (ix3 (0 : Fin 2) d e))
        ((bufs2 m c (Proc.devRef .tc main_v18) : S2x128x128.Idx → EReal) (ix3 (1 : Fin 2) d e))) := by
  show (StableHlo.after hostOps1 (bufs2 m c) (Proc.devRef .tc main_v24) : FVec Ideal S128x128 .bf16) (ix2 d e) = _
  rw [host1_v24]
  exact (truncf_apply (ψ := .bf16) _ bitsLt_bf16_f32 _).trans ((addf_apply _ _ _).trans
    (congrArg₂ (· + ·) (half_ix2 0 _ _ _ (0 : Fin 2) rfl d e) (half_ix2 1 _ _ _ (1 : Fin 2) rfl d e)))

end Cert.KernelIdeal.Val
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibZeroAccMatmul.lean ====
/-
  A matrix product into a zero accumulator, read at an index as a plain sum.

  At the ideal values a matrix product unit adds, to the accumulator's entry, the sum over the contraction's index
  set of the products of the operands' entries. When the accumulator is the zero splat and the product is of a
  rows-by-columns shape, [A, K] × [K, B] → [A, B] with no batch axis, the entry at `(p, q)` is
  `∑ k < K, x (p, k) · y (k, q)`: no accumulator term, no rounding, no chunk order.
-/
import proofs.«157025_j56100862820442_2_alg».proof.Proof.LibPlainDot
import Idealize.ShloMosaic.PureOps.Ideal.Laws
import Idealize.ShloMosaic.Lib.ValueIdx

open scoped BigOperators

namespace Cert.ZeroAccMatmul

open Idealize.ShloMosaic Idealize.ShloMosaic.ValueIdx

variable {A K B : Nat} (d : DotDims ⟨2, ![A, K]⟩ ⟨2, ![K, B]⟩ ⟨2, ![A, B]⟩)

/-- The product of `x` and `y` into the zero splat, at `(p, q)`, for any record with the rows-by-columns dimension
    numbers and any contraction precision. -/
theorem apply (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ .f32) (y : FVec Ideal ⟨2, ![K, B]⟩ .f32) (p : Fin A) (q : Fin B) :
    FloatOps.matmul d prec x y (constant (F := Ideal) ⟨2, ![A, B]⟩ .f32 0x00000000#32) (ix2 p q) = ∑ k : Fin K, x (ix2 p k) * y (ix2 k q) :=
  (Ideal.matmul_constant_zero_apply d prec x y (ix2 p q)).trans (Cert.PlainDot.sum_eq d hlb hln hlc hrb hrn hrc hr hs x y p q)

end Cert.ZeroAccMatmul
-- ==== Proof.LibDotColCol.lean ====
/-
  A columns-by-columns contraction read as a plain sum.

  Take operands of shapes [K, A] and [K, B] and a result of shape [A, B], with dimension numbers that say: no batch
  axes; each operand keeps its axis 1; axis 0 of the left is contracted against axis 0 of the right. This is the
  product `xᵀ y`: the contraction's own index set is a one-axis shape of extent K, and the sum over it of
  `x (left index) * y (right index)` at the result index (p, q) is `∑ k < K, x (k, p) * y (k, q)`: on its kept axis
  each operand reads the result's coordinate (the left the row `p`, the right the column `q`), on its contracted
  axis the contraction's one coordinate.

  Stated for ANY record with these dimension numbers and for any K, A, B. The last theorem reads a matrix product
  unit's result into the zero splat at the ideal values, where it is the accumulator's entry (zero) plus that sum,
  whatever the operands' formats and the contraction precision.
-/
import Idealize.ShloMosaic.Lib.ValueIdx
import Idealize.ShloMosaic.PureOps.Ideal.Laws

open scoped BigOperators

namespace Cert.DotColCol

open Idealize.ShloMosaic Idealize.ShloMosaic.ValueIdx

variable {K A B : Nat} (d : DotDims ⟨2, ![K, A]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 1) the left operand's index is the result's row coordinate: with no batch axis, the
    left operand's one kept axis is the result's axis 0. -/
theorem lhs_kept (hlb : d.lhsBatch = []) (hln : d.lhsNonContracting = [1])
    (j : (⟨2, ![A, B]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_kept (hlb : d.lhsBatch = []) (hln : d.lhsNonContracting = [1]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products down column `p` of the left and column `q` of the right. -/
theorem sum_eq (hlb : d.lhsBatch = []) (hln : d.lhsNonContracting = [1]) (hlc : d.lhsContracting = [0])
    (hrb : d.rhsBatch = []) (hrn : d.rhsNonContracting = [1]) (hrc : d.rhsContracting = [0])
    (hr : d.contr.rank = 1) (hs : d.contr.size ⟨0, by omega⟩ = K)
    (x : (⟨2, ![K, A]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 k p) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (d.lhsIdx_val_of_single hlc _ _).trans hk
    | ⟨1, _⟩ => exact lhs_kept d hlb hln _ _)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_kept d hlb hln hrb hrn _ _)
  rw [el, er]

/-- The product `xᵀ y` into the zero splat, at `(p, q)`, at the ideal values: for any record with the
    columns-by-columns dimension numbers, any operand formats and any contraction precision. -/
theorem matmul_zero_apply {φ₁ φ₂ : FTy} (hlb : d.lhsBatch = []) (hln : d.lhsNonContracting = [1]) (hlc : d.lhsContracting = [0])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![K, A]⟩ φ₁) (y : FVec Ideal ⟨2, ![K, B]⟩ φ₂) (p : Fin A) (q : Fin B) :
    FloatOps.matmul d prec x y (constant (F := Ideal) ⟨2, ![A, B]⟩ .f32 0x00000000#32) (ix2 p q) = ∑ k : Fin K, x (ix2 k p) * y (ix2 k q) :=
  (Ideal.matmul_constant_zero_apply d prec x y (ix2 p q)).trans (sum_eq d hlb hln hlc hrb hrn hrc hr hs x y p q)

end Cert.DotColCol
-- ==== Proof.PayKv.lean ====
/-
  The first kernel's arithmetic read at an index, at the ideal values.

  The first kernel visits the tokens in blocks of 2048 rows. At each visit it forms the key and value projections of
  the block, `K = x Wk + bk` and `V = x Wv + bv` (the weights already stored one column per output dimension, the
  bias one row broadcast over the 2048 rows), and adds `Kᵀ V`, a 128 × 128 matrix, to an accumulator that the first
  visit of each half sets to zero and the last visit copies out under a leading unit axis. At the ideal values a
  change of float format is the identity and a matrix product into the zero splat is the plain sum over the
  contracted axis, so each of the three values written is read off entry by entry:
  * the reset writes `0` everywhere;
  * the accumulation writes, at `(d, e)`, the old entry plus `∑ r < 2048, K r d * V r e`;
  * the copy-out writes, at `(0, d, e)`, the accumulator's entry at `(d, e)`.
-/
import proofs.«157025_j56100862820442_2_alg».proof.Proof.Gen.KernelIdeal.Skeleton
import proofs.«157025_j56100862820442_2_alg».proof.Proof.LibZeroAccMatmul
import proofs.«157025_j56100862820442_2_alg».proof.Proof.LibDotColCol
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Idealize.ShloMosaic Idealize.ShloMosaic.ValueIdx

/-- A linear layer read at `(p, q)`: the product of `x` (rows) and `w` (columns) into the zero splat, plus the
    one-row bias `b` broadcast over the rows, is `(∑ k, x (p, k) * w (k, q)) + b (0, q)`. The casts of `w` and `b`
    to their own shapes are the identity. For any record with the rows-by-columns dimension numbers. -/
theorem linear_apply {A K B : Nat} {φ₁ φ₂ : FTy} (D : DotDims ⟨2, ![A, K]⟩ ⟨2, ![K, B]⟩ ⟨2, ![A, B]⟩)
    (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = K) (prec : Option ContractPrecision)
    (x : FVec Ideal ⟨2, ![A, K]⟩ φ₁) (w : FVec Ideal ⟨2, ![K, B]⟩ φ₂)
    (hw : (⟨2, ![K, B]⟩ : Shape).ShapeCasts ⟨2, ![K, B]⟩)
    (b : FVec Ideal ⟨2, ![1, B]⟩ .f32) (hb : (⟨2, ![1, B]⟩ : Shape).ShapeCasts ⟨2, ![1, B]⟩)
    (hbb : (⟨2, ![1, B]⟩ : Shape).Broadcasts ⟨2, ![A, B]⟩) (p : Fin A) (q : Fin B) :
    addf (FloatOps.matmul D prec x (shapeCast ⟨2, ![K, B]⟩ w hw) (constant (F := Ideal) ⟨2, ![A, B]⟩ .f32 0x00000000#32))
        (broadcastTo ⟨2, ![A, B]⟩ (shapeCast ⟨2, ![1, B]⟩ b hb) hbb) (ix2 p q)
      = (∑ k : Fin K, x (ix2 p k) * w (ix2 k q)) + b (ix2 0 q) := by
  rw [shapeCast_self, shapeCast_self, addf_apply]
  exact congrArg₂ (· + ·) (Cert.ZeroAccMatmul.apply D hlb hln hlc hrb hrn hrc hr hs prec x w p q)
    (broadcastTo_1b_ab_apply b hbb p q)

/-- The reset writes zero: the zero word splat over the block, cast to its own shape. -/
theorem k0_pay1_apply (d e : Fin 128) : Gen.k0_pay1 (F := Ideal) (ix2 d e) = 0 := by
  unfold Gen.k0_pay1
  rw [shapeCast_self]
  exact Ideal.ofBits_zero_f32

/-- The accumulation at `(d, e)`: the old entry plus the sum over the block's 2048 rows of the key projection at
    `(r, d)` times the value projection at `(r, e)`. -/
theorem k0_pay2_apply (v3 : Vec Ideal S2048x1024 .f32) (v5 v12 : Vec Ideal S1024x128 .bf16) (v8 v15 : Vec Ideal S1x128 .f32)
    (v22 : Vec Ideal S128x128 .f32) (d e : Fin 128) :
    Gen.k0_pay2 v3 v5 v8 v12 v15 v22 (ix2 d e)
      = v22 (ix2 d e) + ∑ r : Fin 2048, ((∑ k : Fin 1024, v3 (ix2 r k) * v5 (ix2 k d)) + v8 (ix2 0 d))
          * ((∑ k : Fin 1024, v3 (ix2 r k) * v12 (ix2 k e)) + v15 (ix2 0 e)) := by
  unfold Gen.k0_pay2
  rw [shapeCast_self, addf_apply]
  refine congrArg (v22 (ix2 d e) + ·) ?_
  refine (Cert.DotColCol.matmul_zero_apply dot_S2048x128_S2048x128_S128x128_0_0_1_1_n_n rfl rfl rfl rfl rfl rfl rfl rfl
    none _ _ d e).trans ?_
  refine Finset.sum_congr rfl fun r _ => ?_
  exact congrArg₂ (· * ·)
    (linear_apply dot_S2048x1024_S1024x128_S2048x128_1_0_0_1_n_n rfl rfl rfl rfl rfl rfl rfl rfl none
      (truncf .bf16 v3 Gen.bitsLt_bf16_f32) v5 _ v8 _ _ r d)
    (linear_apply dot_S2048x1024_S1024x128_S2048x128_1_0_0_1_n_n rfl rfl rfl rfl rfl rfl rfl rfl none
      (truncf .bf16 v3 Gen.bitsLt_bf16_f32) v12 _ v15 _ _ r e)

/-- The copy-out at `(0, d, e)`: the accumulator's entry at `(d, e)` under a leading unit axis. -/
theorem k0_pay3_apply (v30 : Vec Ideal S128x128 .f32) (d e : Fin 128) : Gen.k0_pay3 v30 (ix3 0 d e) = v30 (ix2 d e) := by
  unfold Gen.k0_pay3
  exact shapeCast_ab_1ab_apply v30 _ 0 d e

end Cert.KernelIdeal.Pay

end
-- ==== Proof.PayMain.lean ====
/-
  The second kernel's arithmetic read at an index, at the ideal values.

  The second kernel visits the tokens in tiles of 512 rows. For a tile `x` it forms the query projection
  `Q = x Wq + bq`, the context `Q KV` against the 128 × 128 matrix `KV` that the first kernel left, the output
  projection of the context added to `x` (the first residual), and then a ReLU feed-forward layer whose 4096 hidden
  units are taken in two halves of 2048: each half's hidden values `max (x₁ W₁ + b₁) 0` are multiplied into the
  second layer's rows of that half, the two products are accumulated from zero, added to the first residual, and the
  last bias is added after that. At the ideal values a change of float format is the identity and a matrix product
  into the zero splat is the plain sum over the contracted axis, so every value the kernel forms is read off entry by
  entry as the nested sums `tileQ`, `tileCtx`, `tileX1`, `tileHid` below, over the vectors the kernel loaded.
-/
import proofs.«157025_j56100862820442_2_alg».proof.Proof.PayKv

noncomputable section

open scoped BigOperators

namespace Cert.KernelIdeal.Pay

open Cert.KernelIdeal Idealize.ShloMosaic Idealize.ShloMosaic.ValueIdx

/-- A matrix product into the zero splat, the right operand cast to its own shape, read at `(p, q)`:
    `∑ k, x (p, k) * w (k, q)`. For any record with the rows-by-columns dimension numbers. -/
theorem product_apply {A K B : Nat} {φ₁ φ₂ : FTy} (D : DotDims ⟨2, ![A, K]⟩ ⟨2, ![K, B]⟩ ⟨2, ![A, B]⟩)
    (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = K) (prec : Option ContractPrecision)
    (x : FVec Ideal ⟨2, ![A, K]⟩ φ₁) (w : FVec Ideal ⟨2, ![K, B]⟩ φ₂)
    (hw : (⟨2, ![K, B]⟩ : Shape).ShapeCasts ⟨2, ![K, B]⟩) (p : Fin A) (q : Fin B) :
    FloatOps.matmul D prec x (shapeCast ⟨2, ![K, B]⟩ w hw) (constant (F := Ideal) ⟨2, ![A, B]⟩ .f32 0x00000000#32) (ix2 p q)
      = ∑ k : Fin K, x (ix2 p k) * w (ix2 k q) := by
  rw [shapeCast_self]
  exact Cert.ZeroAccMatmul.apply D hlb hln hlc hrb hrn hrc hr hs prec x w p q

/-- A one-row bias, cast to its own shape and broadcast over the rows, read at `(p, q)`: the row's entry at `q`. -/
theorem bias_apply {A B : Nat} (b : FVec Ideal ⟨2, ![1, B]⟩ .f32) (hb : (⟨2, ![1, B]⟩ : Shape).ShapeCasts ⟨2, ![1, B]⟩)
    (hbb : (⟨2, ![1, B]⟩ : Shape).Broadcasts ⟨2, ![A, B]⟩) (p : Fin A) (q : Fin B) :
    broadcastTo ⟨2, ![A, B]⟩ (shapeCast ⟨2, ![1, B]⟩ b hb) hbb (ix2 p q) = b (ix2 0 q) := by
  rw [shapeCast_self]
  exact broadcastTo_1b_ab_apply b hbb p q

/-- The query projection of row `r` of the tile in dimension `d`. -/
def tileQ (v0 : Vec Ideal S512x1024 .f32) (v2 : Vec Ideal S1024x128 .bf16) (v5 : Vec Ideal S1x128 .f32)
    (r : Fin 512) (d : Fin 128) : EReal :=
  (∑ k : Fin 1024, v0 (ix2 r k) * v2 (ix2 k d)) + v5 (ix2 0 d)

/-- The context of row `r` in dimension `e`: the query against the 128 × 128 matrix `v10`. -/
def tileCtx (v0 : Vec Ideal S512x1024 .f32) (v2 : Vec Ideal S1024x128 .bf16) (v5 : Vec Ideal S1x128 .f32)
    (v10 : Vec Ideal S128x128 .bf16) (r : Fin 512) (e : Fin 128) : EReal :=
  ∑ d : Fin 128, tileQ v0 v2 v5 r d * v10 (ix2 d e)

/-- The first residual at `(r, j)`: the tile plus the output projection of the context. -/
def tileX1 (v0 : Vec Ideal S512x1024 .f32) (v2 : Vec Ideal S1024x128 .bf16) (v5 : Vec Ideal S1x128 .f32)
    (v10 : Vec Ideal S128x128 .bf16) (v14 : Vec Ideal S128x1024 .bf16) (v17 : Vec Ideal S1x1024 .f32)
    (r : Fin 512) (j : Fin 1024) : EReal :=
  v0 (ix2 r j) + ((∑ e : Fin 128, tileCtx v0 v2 v5 v10 r e * v14 (ix2 e j)) + v17 (ix2 0 j))

/-- Hidden unit `f` of row `r` after the ReLU, for one half's first-layer weights `w` and bias `b`. -/
def tileHid (v0 : Vec Ideal S512x1024 .f32) (v2 : Vec Ideal S1024x128 .bf16) (v5 : Vec Ideal S1x128 .f32)
    (v10 : Vec Ideal S128x128 .bf16) (v14 : Vec Ideal S128x1024 .bf16) (v17 : Vec Ideal S1x1024 .f32)
    (w : Vec Ideal S1024x2048 .bf16) (b : Vec Ideal S1x2048 .f32) (r : Fin 512) (f : Fin 2048) : EReal :=
  max ((∑ j : Fin 1024, tileX1 v0 v2 v5 v10 v14 v17 r j * w (ix2 j f)) + b (ix2 0 f)) 0

/-- The first residual as the kernel forms it. -/
theorem k1_pay2_apply (v0 : Vec Ideal S512x1024 .f32) (v2 : Vec Ideal S1024x128 .bf16) (v5 : Vec Ideal S1x128 .f32)
    (v10 : Vec Ideal S128x128 .bf16) (v14 : Vec Ideal S128x1024 .bf16) (v17 : Vec Ideal S1x1024 .f32)
    (r : Fin 512) (j : Fin 1024) :
    Gen.k1_pay2 v0 v2 v5 v10 v14 v17 (ix2 r j) = tileX1 v0 v2 v5 v10 v14 v17 r j := by
  unfold Gen.k1_pay2 tileX1
  rw [addf_apply]
  refine congrArg (v0 (ix2 r j) + ·) ?_
  refine (linear_apply dot_S512x128_S128x1024_S512x1024_1_0_0_1_n_n rfl rfl rfl rfl rfl rfl rfl rfl none _ v14 _ v17 _ _ r j).trans ?_
  refine congrArg (· + v17 (ix2 0 j)) ?_
  refine Finset.sum_congr rfl fun e _ => ?_
  refine congrArg (· * v14 (ix2 e j)) ?_
  unfold tileCtx
  refine (product_apply dot_S512x128_S128x128_S512x128_1_0_0_1_n_n rfl rfl rfl rfl rfl rfl rfl rfl none _ v10 _ r e).trans ?_
  refine Finset.sum_congr rfl fun d _ => ?_
  refine congrArg (· * v10 (ix2 d e)) ?_
  exact linear_apply dot_S512x1024_S1024x128_S512x128_1_0_0_1_n_n rfl rfl rfl rfl rfl rfl rfl rfl none
    (truncf .bf16 v0 Gen.bitsLt_bf16_f32) v2 _ v5 _ _ r d

/-- The first residual in the matrix unit's operand format is the same number. -/
theorem k1_pay3_apply (v0 : Vec Ideal S512x1024 .f32) (v2 : Vec Ideal S1024x128 .bf16) (v5 : Vec Ideal S1x128 .f32)
    (v10 : Vec Ideal S128x128 .bf16) (v14 : Vec Ideal S128x1024 .bf16) (v17 : Vec Ideal S1x1024 .f32)
    (r : Fin 512) (j : Fin 1024) :
    Gen.k1_pay3 v0 v2 v5 v10 v14 v17 (ix2 r j) = tileX1 v0 v2 v5 v10 v14 v17 r j := by
  unfold Gen.k1_pay3
  exact k1_pay2_apply v0 v2 v5 v10 v14 v17 r j

/-- The feed-forward accumulator starts at zero. -/
theorem k1_pay4_apply (r : Fin 512) (j : Fin 1024) : Gen.k1_pay4 (F := Ideal) (ix2 r j) = 0 := by
  unfold Gen.k1_pay4
  exact Ideal.ofBits_zero_f32

/-- The hidden units of the first half as the kernel forms them. -/
theorem k1_pay5_apply (v0 : Vec Ideal S512x1024 .f32) (v2 : Vec Ideal S1024x128 .bf16) (v5 : Vec Ideal S1x128 .f32)
    (v10 : Vec Ideal S128x128 .bf16) (v14 : Vec Ideal S128x1024 .bf16) (v17 : Vec Ideal S1x1024 .f32)
    (v24 : Vec Ideal S1024x2048 .bf16) (v26 : Vec Ideal S1x2048 .f32) (r : Fin 512) (f : Fin 2048) :
    Gen.k1_pay5 v0 v2 v5 v10 v14 v17 v24 v26 (ix2 r f) = tileHid v0 v2 v5 v10 v14 v17 v24 v26 r f := by
  unfold Gen.k1_pay5 tileHid
  rw [truncf_apply, maximumf_apply, broadcast_apply]
  refine congrArg₂ max ?_ Ideal.ofBits_zero_f32
  refine (linear_apply dot_S512x1024_S1024x2048_S512x2048_1_0_0_1_n_n rfl rfl rfl rfl rfl rfl rfl rfl none
    (Gen.k1_pay3 v0 v2 v5 v10 v14 v17) v24 _ v26 _ _ r f).trans ?_
  refine congrArg (· + v26 (ix2 0 f)) ?_
  refine Finset.sum_congr rfl fun j _ => ?_
  exact congrArg (· * v24 (ix2 j f)) (k1_pay3_apply v0 v2 v5 v10 v14 v17 r j)

/-- The tile's result at `(r, j)`: the first residual, plus the two halves of the feed-forward layer accumulated from
    zero, plus the last bias. -/
theorem k1_out_apply (v0 : Vec Ideal S512x1024 .f32) (v2 : Vec Ideal S1024x128 .bf16) (v5 : Vec Ideal S1x128 .f32)
    (v10 : Vec Ideal S128x128 .bf16) (v14 : Vec Ideal S128x1024 .bf16) (v17 : Vec Ideal S1x1024 .f32)
    (v24 v38 : Vec Ideal S1024x2048 .bf16) (v26 v40 : Vec Ideal S1x2048 .f32) (v34 v48 : Vec Ideal S2048x1024 .bf16)
    (v53 : Vec Ideal S1x1024 .f32) (r : Fin 512) (j : Fin 1024) :
    Gen.k1_pay1 (Gen.k1_pay2 v0 v2 v5 v10 v14 v17) (Gen.k1_pay3 v0 v2 v5 v10 v14 v17) (Gen.k1_pay4 (F := Ideal))
        (Gen.k1_pay5 v0 v2 v5 v10 v14 v17 v24 v26) v34 v38 v40 v48 v53 (ix2 r j)
      = (tileX1 v0 v2 v5 v10 v14 v17 r j
          + (((0 : EReal) + ∑ f : Fin 2048, tileHid v0 v2 v5 v10 v14 v17 v24 v26 r f * v34 (ix2 f j))
            + ∑ f : Fin 2048, tileHid v0 v2 v5 v10 v14 v17 v38 v40 r f * v48 (ix2 f j)))
        + v53 (ix2 0 j) := by
  unfold Gen.k1_pay1
  rw [addf_apply, addf_apply, addf_apply, addf_apply]
  refine congrArg₂ (· + ·) (congrArg₂ (· + ·) (k1_pay2_apply v0 v2 v5 v10 v14 v17 r j)
    (congrArg₂ (· + ·) (congrArg₂ (· + ·) (k1_pay4_apply r j) ?_) ?_)) (bias_apply v53 _ _ r j)
  · refine (product_apply dot_S512x2048_S2048x1024_S512x1024_1_0_0_1_n_n rfl rfl rfl rfl rfl rfl rfl rfl none
      (Gen.k1_pay5 v0 v2 v5 v10 v14 v17 v24 v26) v34 _ r j).trans ?_
    refine Finset.sum_congr rfl fun f _ => ?_
    exact congrArg (· * v34 (ix2 f j)) (k1_pay5_apply v0 v2 v5 v10 v14 v17 v24 v26 r f)
  · refine (product_apply dot_S512x2048_S2048x1024_S512x1024_1_0_0_1_n_n rfl rfl rfl rfl rfl rfl rfl rfl none
      (Gen.k1_pay5 v0 v2 v5 v10 v14 v17 v38 v40) v48 _ r j).trans ?_
    refine Finset.sum_congr rfl fun f _ => ?_
    exact congrArg (· * v48 (ix2 f j)) (k1_pay5_apply v0 v2 v5 v10 v14 v17 v38 v40 r f)

end Cert.KernelIdeal.Pay

end
-- ==== Proof.KernelSpec.lean ====
/-
  What each of the two kernels leaves in its result array, stated over the kernel's own input arrays (weights already
  transposed: one row per input dimension; biases as rows) and no program.

  * `kvG`: the first kernel's result, two 128 × 128 halves. Half `h` at `(d, e)` is, from zero, the contribution
    of the half's first block of 2048 tokens and then of its second, where block `b` contributes
    `∑ r, (x[2048 b + r, ·] · wk[·, d] + bk[d]) * (x[2048 b + r, ·] · wv[·, e] + bv[e])`.
  * `mainG`: the second kernel's result at `(n, j)`, from the token matrix, the query weights and bias, the 128 × 128
    matrix `kv`, the output projection and bias, and the feed-forward weights and biases: query, context
    `∑ d, q[n, d] * kv[d, e]`, first residual, ReLU hidden layer in two halves of 2048 units accumulated from zero,
    second residual, last bias.
-/
import Idealize.ShloMosaic.PureOps.Ideal
import Idealize.ShloMosaic.Lib.ValueIdx

noncomputable section

open scoped BigOperators

namespace Cert.LinAttn

open Idealize.ShloMosaic Idealize.ShloMosaic.ValueIdx

/-- A three-axis array of extended reals. -/
abbrev Ten (a b c : Nat) : Type := (⟨3, ![a, b, c]⟩ : Shape).Idx → EReal
/-- A matrix of extended reals (the same type as `Mat` of the first specification, restated here so that this file stands alone). -/
abbrev M2 (a b : Nat) : Type := (⟨2, ![a, b]⟩ : Shape).Idx → EReal

/-- Row `r` of the `b`-th block of 2048 rows. -/
def kRow (b : Fin 4) (r : Fin 2048) : Fin 8192 := ⟨2048 * b.val + r.val, by omega⟩

/-- A projected token: row `n` of `x` against column `d` of a transposed weight matrix, plus the bias row's entry. -/
def proj {K D : Nat} (x : M2 8192 K) (w : M2 K D) (b : M2 1 D) (n : Fin 8192) (d : Fin D) : EReal :=
  (∑ k : Fin K, x (ix2 n k) * w (ix2 k d)) + b (ix2 0 d)

/-- What block `b` of 2048 tokens contributes to `Kᵀ V` at `(d, e)`. -/
def kvBlk (x : M2 8192 1024) (wk : M2 1024 128) (bk : M2 1 128) (wv : M2 1024 128) (bv : M2 1 128) (b : Fin 4) (d e : Fin 128) : EReal :=
  ∑ r : Fin 2048, proj x wk bk (kRow b r) d * proj x wv bv (kRow b r) e

/-- Half `h` of the first kernel's result at `(d, e)`: from zero, the half's first block, then its second. -/
def kvAt (x : M2 8192 1024) (wk : M2 1024 128) (bk : M2 1 128) (wv : M2 1024 128) (bv : M2 1 128) (h : Fin 2) (d e : Fin 128) : EReal :=
  ((0 : EReal) + kvBlk x wk bk wv bv ⟨2 * h.val, by omega⟩ d e) + kvBlk x wk bk wv bv ⟨2 * h.val + 1, by omega⟩ d e

/-- The first kernel's result array. -/
def kvG (x : M2 8192 1024) (wk : M2 1024 128) (bk : M2 1 128) (wv : M2 1024 128) (bv : M2 1 128) : Ten 2 128 128 :=
  fun i => kvAt x wk bk wv bv (i 0) (i 1) (i 2)

theorem kvG_apply (x : M2 8192 1024) (wk : M2 1024 128) (bk : M2 1 128) (wv : M2 1024 128) (bv : M2 1 128) (h : Fin 2) (d e : Fin 128) :
    kvG x wk bk wv bv (ix3 h d e) = kvAt x wk bk wv bv h d e := rfl

section Main

variable (x : M2 8192 1024) (wq : M2 1024 128) (bq : M2 1 128) (kv : M2 128 128) (wp : M2 128 1024) (bp : M2 1 1024)
  (w1 : M2 1024 4096) (b1 : M2 1 4096) (w2 : M2 4096 1024) (b2 : M2 1 1024)

/-- The context of token `n` in dimension `e`: the query against the 128 × 128 matrix. -/
def mCtx (n : Fin 8192) (e : Fin 128) : EReal := ∑ d : Fin 128, proj x wq bq n d * kv (ix2 d e)
/-- The first residual. -/
def mX1 (n : Fin 8192) (j : Fin 1024) : EReal :=
  x (ix2 n j) + ((∑ e : Fin 128, mCtx x wq bq kv n e * wp (ix2 e j)) + bp (ix2 0 j))
/-- Hidden unit `f` after the ReLU. -/
def mHid (n : Fin 8192) (f : Fin 4096) : EReal :=
  max ((∑ j : Fin 1024, mX1 x wq bq kv wp bp n j * w1 (ix2 j f)) + b1 (ix2 0 f)) 0
/-- Unit `f` of the `h`-th half of 2048 hidden units. -/
def hUnit (h : Fin 2) (f : Fin 2048) : Fin 4096 := ⟨2048 * h.val + f.val, by omega⟩
/-- What the `h`-th half of the hidden layer contributes to output `j`. -/
def mHalf (h : Fin 2) (n : Fin 8192) (j : Fin 1024) : EReal :=
  ∑ f : Fin 2048, mHid x wq bq kv wp bp w1 b1 n (hUnit h f) * w2 (ix2 (hUnit h f) j)
/-- The second kernel's result at `(n, j)`. -/
def mainAt (n : Fin 8192) (j : Fin 1024) : EReal :=
  (mX1 x wq bq kv wp bp n j + (((0 : EReal) + mHalf x wq bq kv wp bp w1 b1 w2 0 n j) + mHalf x wq bq kv wp bp w1 b1 w2 1 n j)) + b2 (ix2 0 j)
/-- The second kernel's result array. -/
def mainG : M2 8192 1024 := fun i => mainAt x wq bq kv wp bp w1 b1 w2 b2 (i 0) (i 1)

theorem mainG_apply (n : Fin 8192) (j : Fin 1024) :
    mainG x wq bq kv wp bp w1 b1 w2 b2 (ix2 n j) = mainAt x wq bq kv wp bp w1 b1 w2 b2 n j := rfl

end Main

end Cert.LinAttn

end
-- ==== Proof.MainTile.lean ====
/-
  The second kernel's tile, entry by entry, as the second kernel's result function at the tile's rows.

  The grid has 16 points; point `t` works on the tile of 512 tokens `512 t … 512 t + 511`. What the body leaves in the
  result window's buffer at a point is the tile's arithmetic read entry by entry: the first residual of row `r`, the two
  halves of the feed-forward layer accumulated from zero, and the last bias. The tile's row `r` is row `512 t + r` of the
  token matrix, the other nine windows are whole arrays, and the two halves of the hidden layer are read through
  rectangles at column (or row) offsets 0 and 2048: so the tile's entry `(r, j)` is `mainG` at `(512 t + r, j)`. The 16
  tiles cover the 8192 rows, so the array ends holding `mainG` everywhere.
-/
import proofs.«157025_j56100862820442_2_alg».proof.Proof.FrameKernelIdeal.Region1
import proofs.«157025_j56100862820442_2_alg».proof.Proof.PayMain
import proofs.«157025_j56100862820442_2_alg».proof.Proof.KernelSpec
import Idealize.ShloMosaic.Lib.Pipeline.Value

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)
open Cert.LinAttn (mainG mainAt mX1 mCtx mHid mHalf hUnit proj)

/-- The zero offsets, as the constant function. -/
theorem zeroOff2 : (![0, 0] : Fin 2 → Nat) = fun _ => 0 := funext fun a => by fin_cases a <;> rfl

/-! ## The tile's result at an entry -/

/-- What the body leaves in the result window's buffer, at `(r, j)`: the first residual, the two halves of the
    feed-forward layer (each half's weights and bias read through its own rectangle) accumulated from zero, the last
    bias. -/
theorem out1_10_apply (x0 : Vec Ideal S512x1024 .f32) (x1 : Vec Ideal S1024x128 .bf16) (x2 : Vec Ideal S1x128 .f32)
    (x3 : Vec Ideal S128x128 .bf16) (x4 : Vec Ideal S128x1024 .bf16) (x5 : Vec Ideal S1x1024 .f32)
    (x6 : Vec Ideal S1024x4096 .bf16) (x7 : Vec Ideal S1x4096 .f32) (x8 : Vec Ideal S4096x1024 .bf16)
    (x9 : Vec Ideal S1x1024 .f32) (r : Fin 512) (j : Fin 1024) :
    out1_10 x0 x1 x2 x3 x4 x5 x6 x7 x8 x9 (ix2 r j)
      = (Pay.tileX1 x0 x1 x2 x3 x4 x5 r j
          + (((0 : EReal) + ∑ f : Fin 2048, Pay.tileHid x0 x1 x2 x3 x4 x5 (View.ld x6 rW1a) (View.ld x7 rB1a) r f * View.ld x8 rW2a (ix2 f j))
            + ∑ f : Fin 2048, Pay.tileHid x0 x1 x2 x3 x4 x5 (View.ld x6 rW1b) (View.ld x7 rB1b) r f * View.ld x8 rW2b (ix2 f j)))
        + x9 (ix2 0 j) := by
  unfold out1_10
  rw [View.canon_unit_zero zeroOff2]
  unfold pay1
  simp only [View.ld_unit_zero (S := S512x1024) zeroOff2, View.ld_unit_zero (S := S1024x128) zeroOff2, View.ld_unit_zero (S := S1x128) zeroOff2,
    View.ld_unit_zero (S := S128x128) zeroOff2, View.ld_unit_zero (S := S128x1024) zeroOff2, View.ld_unit_zero (S := S1x1024) zeroOff2]
  exact Pay.k1_out_apply x0 x1 x2 x3 x4 x5 (View.ld x6 rW1a) (View.ld x6 rW1b) (View.ld x7 rB1a) (View.ld x7 rB1b)
    (View.ld x8 rW2a) (View.ld x8 rW2b) x9 r j

/-! ## The halves of the hidden layer, read through their rectangles -/

/-- Column `f` of the `h`-th half of the first feed-forward weight matrix is column `2048 h + f`. -/
theorem ld_W1a (x6 : Vec Ideal S1024x4096 .bf16) (j : Fin 1024) (f : Fin 2048) :
    View.ld x6 rW1a (ix2 j f) = x6 (ix2 j (hUnit 0 f)) := by
  show x6 _ = x6 _
  congr 1; funext a; apply Fin.ext
  match a with
  | ⟨0, _⟩ => show 0 + 1 * j.val = j.val; omega
  | ⟨1, _⟩ => show 0 + 1 * f.val = 2048 * 0 + f.val; omega
theorem ld_W1b (x6 : Vec Ideal S1024x4096 .bf16) (j : Fin 1024) (f : Fin 2048) :
    View.ld x6 rW1b (ix2 j f) = x6 (ix2 j (hUnit 1 f)) := by
  show x6 _ = x6 _
  congr 1; funext a; apply Fin.ext
  match a with
  | ⟨0, _⟩ => show 0 + 1 * j.val = j.val; omega
  | ⟨1, _⟩ => show 2048 + 1 * f.val = 2048 * 1 + f.val; omega
/-- Entry `f` of the `h`-th half of its bias row is entry `2048 h + f`. -/
theorem ld_B1a (x7 : Vec Ideal S1x4096 .f32) (f : Fin 2048) :
    View.ld x7 rB1a (ix2 0 f) = x7 (ix2 0 (hUnit 0 f)) := by
  show x7 _ = x7 _
  congr 1; funext a; apply Fin.ext
  match a with
  | ⟨0, _⟩ => show 0 + 1 * 0 = 0; omega
  | ⟨1, _⟩ => show 0 + 1 * f.val = 2048 * 0 + f.val; omega
theorem ld_B1b (x7 : Vec Ideal S1x4096 .f32) (f : Fin 2048) :
    View.ld x7 rB1b (ix2 0 f) = x7 (ix2 0 (hUnit 1 f)) := by
  show x7 _ = x7 _
  congr 1; funext a; apply Fin.ext
  match a with
  | ⟨0, _⟩ => show 0 + 1 * 0 = 0; omega
  | ⟨1, _⟩ => show 2048 + 1 * f.val = 2048 * 1 + f.val; omega
/-- Row `f` of the `h`-th half of the second feed-forward weight matrix is row `2048 h + f`. -/
theorem ld_W2a (x8 : Vec Ideal S4096x1024 .bf16) (f : Fin 2048) (j : Fin 1024) :
    View.ld x8 rW2a (ix2 f j) = x8 (ix2 (hUnit 0 f) j) := by
  show x8 _ = x8 _
  congr 1; funext a; apply Fin.ext
  match a with
  | ⟨0, _⟩ => show 0 + 1 * f.val = 2048 * 0 + f.val; omega
  | ⟨1, _⟩ => show 0 + 1 * j.val = j.val; omega
theorem ld_W2b (x8 : Vec Ideal S4096x1024 .bf16) (f : Fin 2048) (j : Fin 1024) :
    View.ld x8 rW2b (ix2 f j) = x8 (ix2 (hUnit 1 f) j) := by
  show x8 _ = x8 _
  congr 1; funext a; apply Fin.ext
  match a with
  | ⟨0, _⟩ => show 2048 + 1 * f.val = 2048 * 1 + f.val; omega
  | ⟨1, _⟩ => show 0 + 1 * j.val = j.val; omega

/-! ## A tile's entry is the array's -/

section Tile

variable (A0 : Vec Ideal S8192x1024 .f32) (A1 : Vec Ideal S1024x128 .bf16) (A2 : Vec Ideal S1x128 .f32)
  (A3 : Vec Ideal S128x128 .bf16) (A4 : Vec Ideal S128x1024 .bf16) (A5 : Vec Ideal S1x1024 .f32)
  (A6 : Vec Ideal S1024x4096 .bf16) (A7 : Vec Ideal S1x4096 .f32) (A8 : Vec Ideal S4096x1024 .bf16)
  (A9 : Vec Ideal S1x1024 .f32)
  (x0 : Vec Ideal S512x1024 .f32) (n : Fin 8192) (r : Fin 512)
  (h0 : ∀ k : Fin 1024, x0 (ix2 r k) = A0 (ix2 n k))

include h0

/-- The tile's first residual at `(r, j)` is the array's at `(n, j)`, when the tile's row `r` is the array's row `n`. -/
theorem tileX1_eq (j : Fin 1024) : Pay.tileX1 x0 A1 A2 A3 A4 A5 r j = mX1 A0 A1 A2 A3 A4 A5 n j := by
  unfold Pay.tileX1 mX1 Pay.tileCtx mCtx Pay.tileQ proj
  rw [h0 j]
  simp only [h0]

/-- A hidden unit of the tile's row `r`, over one half's weights and bias, is the array's at row `n`, when the half's
    column `f` is the whole matrix's column `F`. -/
theorem tileHid_eq (w : Vec Ideal S1024x2048 .bf16) (b : Vec Ideal S1x2048 .f32) (f : Fin 2048) (F : Fin 4096)
    (hw : ∀ j : Fin 1024, w (ix2 j f) = A6 (ix2 j F)) (hb : b (ix2 0 f) = A7 (ix2 0 F)) :
    Pay.tileHid x0 A1 A2 A3 A4 A5 w b r f = mHid A0 A1 A2 A3 A4 A5 A6 A7 n F := by
  unfold Pay.tileHid mHid
  rw [hb]
  simp only [hw, tileX1_eq A0 A1 A2 A3 A4 A5 x0 n r h0]

/-- The tile's result at `(r, j)` is `mainG` of the ten arrays at `(n, j)`. -/
theorem tile_eq_main (j : Fin 1024) :
    out1_10 x0 A1 A2 A3 A4 A5 A6 A7 A8 A9 (ix2 r j) = mainG A0 A1 A2 A3 A4 A5 A6 A7 A8 A9 (ix2 n j) := by
  rw [out1_10_apply]
  show _ = mainAt A0 A1 A2 A3 A4 A5 A6 A7 A8 A9 n j
  unfold mainAt mHalf
  rw [tileX1_eq A0 A1 A2 A3 A4 A5 x0 n r h0 j]
  simp only [
    fun f => tileHid_eq A0 A1 A2 A3 A4 A5 A6 A7 x0 n r h0 (View.ld A6 rW1a) (View.ld A7 rB1a) f (hUnit 0 f) (fun j => ld_W1a A6 j f) (ld_B1a A7 f),
    fun f => tileHid_eq A0 A1 A2 A3 A4 A5 A6 A7 x0 n r h0 (View.ld A6 rW1b) (View.ld A7 rB1b) f (hUnit 1 f) (fun j => ld_W1b A6 j f) (ld_B1b A7 f)]
  refine congrArg (· + A9 (ix2 0 j)) (congrArg (mX1 A0 A1 A2 A3 A4 A5 n j + ·) (congrArg₂ (· + ·)
    (congrArg ((0 : EReal) + ·) (Finset.sum_congr rfl fun f _ => ?_)) (Finset.sum_congr rfl fun f _ => ?_)))
  · exact congrArg (mHid A0 A1 A2 A3 A4 A5 A6 A7 n (hUnit 0 f) * ·) (ld_W2a A8 f j)
  · exact congrArg (mHid A0 A1 A2 A3 A4 A5 A6 A7 n (hUnit 1 f) * ·) (ld_W2b A8 f j)

end Tile

end Cert.KernelIdeal.Val

end
-- ==== Proof.MainBlocks.lean ====
/-
  The blocks the second kernel's body reads at a grid point, as entries of the arrays the region finds.

  The grid has 16 points. The token window's block at point `t` is rows `512 t … 512 t + 511` of the token matrix; each of
  the other nine input windows has one block, its whole array, at every point. The relations between the printed index
  maps are decided once over the grid.
-/
import proofs.«157025_j56100862820442_2_alg».proof.Proof.FrameKernelIdeal.Region1
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)

/-! ## The blocks the body reads, as entries of the arrays -/

variable (V : (c : Dev nD) → (b : Ref sig .tc) → Buf (Elt Ideal) ((c : Thread nD τ).loc b))

/-- The printed index maps, decided over the grid: the token tile and the result tile are the point's own, on the rows;
    every other window is one whole array. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Row `r` of the token tile at point `t` is row `512 t + r` of the token matrix. -/
theorem iblk1_0_apply (c : Dev nD) (t : Fin cfg1.N) (r : Fin 512) (k : Fin 1024) (n : Fin 8192) (hn : n.val = 512 * t.val + r.val) :
    (iblk1 V c 0 t : Vec Ideal S512x1024 .f32) (ix2 r k) = (V c main_arg0 : Vec Ideal S8192x1024 .f32) (ix2 n k) := by
  obtain ⟨e0, e1, -⟩ := idx_facts1 t
  show V c main_arg0 (((cfg1.win 0).blk t).view.emb (ix2 r k)) = V c main_arg0 (ix2 n k)
  congr 1; funext a; apply Fin.ext
  match a with
  | ⟨0, _⟩ => show win1_0.index t (0 : Fin 2) * 512 + 1 * r.val = n.val; omega
  | ⟨1, _⟩ => show win1_0.index t (1 : Fin 2) * 1024 + 1 * k.val = k.val; omega

/-- Each of the other nine windows' blocks is its whole array, at every point. -/
theorem iblk1_1_eq (c : Dev nD) (t : Fin cfg1.N) : (iblk1 V c 1 t : Vec Ideal S1024x128 .bf16) = V c main_v1 := by
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts1 t
  funext y
  show V c main_v1 (((cfg1.win 1).blk t).view.emb y) = V c main_v1 y
  congr 1; funext a; apply Fin.ext
  match a with
  | ⟨0, _⟩ => show win1_1.index t (0 : Fin 2) * 1024 + 1 * (y 0).val = (y 0).val; omega
  | ⟨1, _⟩ => show win1_1.index t (1 : Fin 2) * 128 + 1 * (y 1).val = (y 1).val; omega
theorem iblk1_2_eq (c : Dev nD) (t : Fin cfg1.N) : (iblk1 V c 2 t : Vec Ideal S1x128 .f32) = V c main_v12 := by
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts1 t
  funext y
  show V c main_v12 (((cfg1.win 2).blk t).view.emb y) = V c main_v12 y
  congr 1; funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem iblk1_3_eq (c : Dev nD) (t : Fin cfg1.N) : (iblk1 V c 3 t : Vec Ideal S128x128 .bf16) = V c main_v24 := by
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts1 t
  funext y
  show V c main_v24 (((cfg1.win 3).blk t).view.emb y) = V c main_v24 y
  congr 1; funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem iblk1_4_eq (c : Dev nD) (t : Fin cfg1.N) : (iblk1 V c 4 t : Vec Ideal S128x1024 .bf16) = V c main_v7 := by
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts1 t
  funext y
  show V c main_v7 (((cfg1.win 4).blk t).view.emb y) = V c main_v7 y
  congr 1; funext a; apply Fin.ext
  match a with
  | ⟨0, _⟩ => show win1_4.index t (0 : Fin 2) * 128 + 1 * (y 0).val = (y 0).val; omega
  | ⟨1, _⟩ => show win1_4.index t (1 : Fin 2) * 1024 + 1 * (y 1).val = (y 1).val; omega
theorem iblk1_5_eq (c : Dev nD) (t : Fin cfg1.N) : (iblk1 V c 5 t : Vec Ideal S1x1024 .f32) = V c main_v15 := by
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts1 t
  funext y
  show V c main_v15 (((cfg1.win 5).blk t).view.emb y) = V c main_v15 y
  congr 1; funext a; apply Fin.ext
  match a with
  | ⟨0, _⟩ => show win1_5.index t (0 : Fin 2) * 1 + 1 * (y 0).val = (y 0).val; omega
  | ⟨1, _⟩ => show win1_5.index t (1 : Fin 2) * 1024 + 1 * (y 1).val = (y 1).val; omega
theorem iblk1_6_eq (c : Dev nD) (t : Fin cfg1.N) : (iblk1 V c 6 t : Vec Ideal S1024x4096 .bf16) = V c main_v9 := by
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts1 t
  funext y
  show V c main_v9 (((cfg1.win 6).blk t).view.emb y) = V c main_v9 y
  congr 1; funext a; apply Fin.ext
  match a with
  | ⟨0, _⟩ => show win1_6.index t (0 : Fin 2) * 1024 + 1 * (y 0).val = (y 0).val; omega
  | ⟨1, _⟩ => show win1_6.index t (1 : Fin 2) * 4096 + 1 * (y 1).val = (y 1).val; omega
theorem iblk1_7_eq (c : Dev nD) (t : Fin cfg1.N) : (iblk1 V c 7 t : Vec Ideal S1x4096 .f32) = V c main_v16 := by
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts1 t
  funext y
  show V c main_v16 (((cfg1.win 7).blk t).view.emb y) = V c main_v16 y
  congr 1; funext a; apply Fin.ext
  match a with
  | ⟨0, _⟩ => show win1_7.index t (0 : Fin 2) * 1 + 1 * (y 0).val = (y 0).val; omega
  | ⟨1, _⟩ => show win1_7.index t (1 : Fin 2) * 4096 + 1 * (y 1).val = (y 1).val; omega
theorem iblk1_8_eq (c : Dev nD) (t : Fin cfg1.N) : (iblk1 V c 8 t : Vec Ideal S4096x1024 .bf16) = V c main_v11 := by
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts1 t
  funext y
  show V c main_v11 (((cfg1.win 8).blk t).view.emb y) = V c main_v11 y
  congr 1; funext a; apply Fin.ext
  match a with
  | ⟨0, _⟩ => show win1_8.index t (0 : Fin 2) * 4096 + 1 * (y 0).val = (y 0).val; omega
  | ⟨1, _⟩ => show win1_8.index t (1 : Fin 2) * 1024 + 1 * (y 1).val = (y 1).val; omega
theorem iblk1_9_eq (c : Dev nD) (t : Fin cfg1.N) : (iblk1 V c 9 t : Vec Ideal S1x1024 .f32) = V c main_v17 := by
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts1 t
  funext y
  show V c main_v17 (((cfg1.win 9).blk t).view.emb y) = V c main_v17 y
  congr 1; funext a; apply Fin.ext
  match a with
  | ⟨0, _⟩ => show win1_9.index t (0 : Fin 2) * 1 + 1 * (y 0).val = (y 0).val; omega
  | ⟨1, _⟩ => show win1_9.index t (1 : Fin 2) * 1024 + 1 * (y 1).val = (y 1).val; omega

end Cert.KernelIdeal.Val

end
-- ==== Proof.MainValue.lean ====
/-
  The second kernel's result array as one function of its ten input arrays.

  The grid has 16 points; point `t` works on the tile of 512 tokens `512 t … 512 t + 511`. What the body leaves in the
  result window's buffer at a point is the tile's arithmetic read entry by entry: the first residual of row `r`, the two
  halves of the feed-forward layer accumulated from zero, and the last bias. The tile's row `r` is row `512 t + r` of the
  token matrix, the other nine windows are whole arrays, and the two halves of the hidden layer are read through
  rectangles at column (or row) offsets 0 and 2048: so the tile's entry `(r, j)` is `mainG` at `(512 t + r, j)`. The 16
  tiles cover the 8192 rows, so the array ends holding `mainG` everywhere.
-/
import proofs.«157025_j56100862820442_2_alg».proof.Proof.FrameKernelIdeal.Region1
import proofs.«157025_j56100862820442_2_alg».proof.Proof.PayMain
import proofs.«157025_j56100862820442_2_alg».proof.Proof.MainTile
import proofs.«157025_j56100862820442_2_alg».proof.Proof.MainBlocks
import proofs.«157025_j56100862820442_2_alg».proof.Proof.KernelSpec
import Idealize.ShloMosaic.Lib.Pipeline.Value

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)
open Cert.LinAttn (mainG mainAt mX1 mCtx mHid mHalf hUnit proj)

variable (V : (c : Dev nD) → (b : Ref sig .tc) → Buf (Elt Ideal) ((c : Thread nD τ).loc b))

/-! ## What a point writes back -/

/-- Point `t` writes back block `t` of `mainG` of the ten arrays as the region finds them. -/
theorem flushed10_eq (c : Dev nD) (t : Fin cfg1.N) :
    (dat1 (F := Ideal) V c).flushed 10 t = ((cfg1.win 10).blk t).view.read (Elt Ideal)
      (mainG (V c main_arg0) (V c main_v1) (V c main_v12) (V c main_v24) (V c main_v7) (V c main_v15) (V c main_v9) (V c main_v16) (V c main_v11) (V c main_v17)) := by
  show (cfg1.win 10).cut (grid1.coords t) ((dat1 V c).after 10 t) = _
  rw [after1_10]
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts1 t
  funext y
  obtain ⟨r, j, rfl⟩ : ∃ (r : Fin 512) (j : Fin 1024), y = ix2 r j := ⟨y 0, y 1, eq_ix2 y⟩
  have hn : 512 * t.val + r.val < 8192 := by have := t.isLt; have : t.val < 16 := this; omega
  have e : ((cfg1.win 10).blk t).view.emb (ix2 r j) = (ix2 (⟨512 * t.val + r.val, hn⟩ : Fin 8192) j : S8192x1024.Idx) := by
    funext a; apply Fin.ext
    match a with
    | ⟨0, _⟩ => show win1_10.index t (0 : Fin 2) * 512 + 1 * r.val = 512 * t.val + r.val; omega
    | ⟨1, _⟩ => show win1_10.index t (1 : Fin 2) * 1024 + 1 * j.val = j.val; omega
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 r j)
    = mainG (V c main_arg0) (V c main_v1) (V c main_v12) (V c main_v24) (V c main_v7) (V c main_v15) (V c main_v9) (V c main_v16) (V c main_v11) (V c main_v17) (((cfg1.win 10).blk t).view.emb (ix2 r j))
  rw [iblk1_1_eq V c t, iblk1_2_eq V c t, iblk1_3_eq V c t, iblk1_4_eq V c t, iblk1_5_eq V c t, iblk1_6_eq V c t, iblk1_7_eq V c t, iblk1_8_eq V c t, iblk1_9_eq V c t]
  exact (tile_eq_main (V c main_arg0) (V c main_v1) (V c main_v12) (V c main_v24) (V c main_v7) (V c main_v15) (V c main_v9) (V c main_v16) (V c main_v11) (V c main_v17)
    (iblk1 V c 0 t) ⟨512 * t.val + r.val, hn⟩ r (fun k => iblk1_0_apply V c t r k ⟨512 * t.val + r.val, hn⟩ rfl) j).trans (congrArg _ e.symm)

/-! ## The blocks cover the array -/

/-- An index of the array is in point `t`'s block iff each coordinate is in the block's range on its axis. -/
theorem mem_blk10 (t : Fin cfg1.N) (i : S8192x1024.Idx) :
    i ∈ ((cfg1.win 10).blk t).view.set ↔ ∀ a : Fin 2, win1_10.index t a * S512x1024.size a ≤ (i a).val ∧ (i a).val < win1_10.index t a * S512x1024.size a + S512x1024.size a := by
  show i ∈ ((View.whole main_v25).slice (win1_10.rect t)).set ↔ _
  rw [View.set_slice_whole, Rect.mem_set_unit]
  exact Iff.rfl

/-- Row `n` of the array is in the block of point `n / 512`. -/
theorem cover10 (i : S8192x1024.Idx) :
    ∃ t : Fin cfg1.N, (cfg1.win 10).flush t = true ∧ i ∈ ((cfg1.win 10).blk t).view.set := by
  have hi0 : (i 0).val < 8192 := (i 0).isLt
  have hi1 : (i 1).val < 1024 := (i 1).isLt
  have hN : cfg1.N = 16 := N_1
  have ht : (i 0).val / 512 < cfg1.N := by rw [hN]; omega
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts1 ⟨(i 0).val / 512, ht⟩
  refine ⟨⟨(i 0).val / 512, ht⟩, flush1_10 _, ?_⟩
  rw [mem_blk10]
  intro a
  match a with
  | ⟨0, _⟩ =>
    show win1_10.index ⟨(i 0).val / 512, ht⟩ (0 : Fin 2) * 512 ≤ (i 0).val ∧ (i 0).val < win1_10.index ⟨(i 0).val / 512, ht⟩ (0 : Fin 2) * 512 + 512
    rw [i10_0]; show (i 0).val / 512 * 512 ≤ (i 0).val ∧ (i 0).val < (i 0).val / 512 * 512 + 512; omega
  | ⟨1, _⟩ =>
    show win1_10.index ⟨(i 0).val / 512, ht⟩ (1 : Fin 2) * 1024 ≤ (i 1).val ∧ (i 1).val < win1_10.index ⟨(i 0).val / 512, ht⟩ (1 : Fin 2) * 1024 + 1024
    rw [i10_1]; omega

/-! ## The array after the region -/

/-- The result array ends holding `mainG` of the ten input arrays as the region finds them. -/
theorem final10 (c : Dev nD) : (dat1 (F := Ideal) V c).arrAt 10 cfg1.N
    = mainG (V c main_arg0) (V c main_v1) (V c main_v12) (V c main_v24) (V c main_v7) (V c main_v15) (V c main_v9) (V c main_v16) (V c main_v11) (V c main_v17) :=
  (dat1 (F := Ideal) V c).arrAt_eq_of_cover 10
    (mainG (V c main_arg0) (V c main_v1) (V c main_v12) (V c main_v24) (V c main_v7) (V c main_v15) (V c main_v9) (V c main_v16) (V c main_v11) (V c main_v17))
    (fun t _ => flushed10_eq V c t) cover10

end Cert.KernelIdeal.Val

end
-- ==== Proof.KvPieces.lean ====
/-
  The first kernel's body, case by case, as values: what a first block leaves in the accumulator is the block's
  contribution added to the zero matrix; what a last block leaves there is the contribution added to what the
  accumulator held; and what a last block copies into the result window's buffer is that sum under a leading unit
  axis. Each is the one covering store's payload, whose loads read whole buffers (a load of the accumulator after
  the zero fill reads the zero fill).
-/
import proofs.«157025_j56100862820442_2_alg».proof.Proof.FrameKernelIdeal.Region0
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A FIRST BLOCK leaves in the accumulator the block's contribution added to the zero matrix. -/
theorem sout_A (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : cond0_0 i) (hc1 : ¬cond0_1 i)
    (x0 : Vec F S2048x1024 .f32) (x1 : Vec F S1024x128 .bf16) (x2 : Vec F S1x128 .f32) (x3 : Vec F S1024x128 .bf16) (x4 : Vec F S1x128 .f32) :
    sout0_A_0 c i arg2 harg2 arg3 harg3 arg4 harg4 arg5 harg5 arg6 harg6 arg7 harg7 arg8 harg8 hc0 hc1 x0 x1 x2 x3 x4 = k0_pay2 x0 x1 x2 x3 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S128x128) hz2, View.readCov_unit_zero (S := S128x128) _ hz2]
  simp only [View.readAt_eq_ld, harg2.read_unread, harg3.read_unread, harg4.read_unread, harg5.read_unread, harg6.read_unread,
    View.ld_unit_zero (S := S2048x1024) hz2, View.ld_unit_zero (S := S1024x128) hz2, View.ld_unit_zero (S := S1x128) hz2, shapeCast_self]

/-- A LAST BLOCK leaves in the accumulator the block's contribution added to what it held. -/
theorem sout_B (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) :
    sout0_B_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread,
    View.ld_unit_zero (S := S2048x1024) hz2, View.ld_unit_zero (S := S1024x128) hz2, View.ld_unit_zero (S := S1x128) hz2,
    View.ld_unit_zero (S := S128x128) hz2, shapeCast_self]

/-- A LAST BLOCK copies into the result window's buffer that sum, under a leading unit axis. -/
theorem out_B (c : Dev nD) (i : grid0.Coords) (arg2 : Memref sig .tc .vmem S2048x1024 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x128x128 .f32) (harg7 : arg7.IsWhole) (arg8 : Memref sig .tc .vmem S128x128 .f32) (harg8 : arg8.IsWhole) (hc0 : ¬cond0_0 i) (hc1 : cond0_1 i)
    (x0 : Vec F S2048x1024 .f32) (x1 : Vec F S1024x128 .bf16) (x2 : Vec F S1x128 .f32) (x3 : Vec F S1024x128 .bf16) (x4 : Vec F S1x128 .f32) (xs0 : Vec F S128x128 .f32) :
    out0_B_5 c i arg2 harg2 arg3 harg3 arg4 harg4 arg5 harg5 arg6 harg6 arg7 harg7 arg8 harg8 hc0 hc1 x0 x1 x2 x3 x4 xs0 = k0_pay3 (k0_pay2 x0 x1 x2 x3 x4 xs0) := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz3, View.readCov_unit_zero (S := S128x128) _ hz2]
  simp only [View.readAt_eq_ld, harg2.read_unread, harg3.read_unread, harg4.read_unread, harg5.read_unread, harg6.read_unread, harg8.read_unread,
    View.ld_unit_zero (S := S2048x1024) hz2, View.ld_unit_zero (S := S1024x128) hz2, View.ld_unit_zero (S := S1x128) hz2,
    View.ld_unit_zero (S := S128x128) hz2, shapeCast_self]

end Cert.KernelIdeal.Val

end
-- ==== Proof.KvValue.lean ====
/-
  The first kernel's result array as one function of its five input arrays, at the ideal values.

  The grid's point `t = 2h + i` visits block `t` of 2048 tokens. After a first block (`t` even) the accumulator holds
  the block's contribution added to the zero matrix; after a last block (`t` odd) the result window's buffer holds,
  under a leading unit axis, the block's contribution added to what the point before left. Read entry by entry, with
  each input block read where it lies in its array, that is half `h = t / 2` of `kvG`; the two last blocks write
  back the two halves, which cover the result array.
-/
import proofs.«157025_j56100862820442_2_alg».proof.Proof.KvPieces
import proofs.«157025_j56100862820442_2_alg».proof.Proof.PayKv
import proofs.«157025_j56100862820442_2_alg».proof.Proof.KernelSpec
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx
open Idealize.SL.Sem
open Idealize.ShloMosaic.Pipeline (Dat)
open Cert.LinAttn

-- the contents of the core's unscoped buffers when the region is entered
variable (V : (c : Dev nD) → (b : Ref sig .tc) → Buf (Elt Ideal) ((c : Thread nD τ).loc b))

/-! ## What the buffers hold after each point, in closed form -/

/-- The point before `t`. -/
abbrev prev (t : Fin cfg0.N) : Fin cfg0.N := ⟨t.val - 1, Nat.lt_of_le_of_lt (Nat.sub_le _ _) t.isLt⟩

/-- After a first block the accumulator holds the block's contribution added to the zero matrix. -/
theorem acc_first (c : Dev nD) (t : Fin cfg0.N) (h0 : t.val % 2 = 0) :
    (outsAt0 V c t.val t.isLt).2 = k0_pay2 (iblk0 V c 0 t) (iblk0 V c 1 t) (iblk0 V c 2 t) (iblk0 V c 3 t) (iblk0 V c 4 t) (k0_pay1 (F := Ideal)) := by
  have h1 : ¬t.val % 2 = 1 := by omega
  rw [outsAt0_A V c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)

/-- After a last block the result window's buffer holds, under a leading unit axis, the block's contribution added to
    what the point before — a first block — left in the accumulator: the two blocks' contributions added, in order, to
    the zero matrix. -/
theorem win_last (c : Dev nD) (t : Fin cfg0.N) (h1 : t.val % 2 = 1) :
    (outsAt0 V c t.val t.isLt).1
      = k0_pay3 (k0_pay2 (iblk0 V c 0 t) (iblk0 V c 1 t) (iblk0 V c 2 t) (iblk0 V c 3 t) (iblk0 V c 4 t)
          (k0_pay2 (iblk0 V c 0 (prev t)) (iblk0 V c 1 (prev t)) (iblk0 V c 2 (prev t)) (iblk0 V c 3 (prev t)) (iblk0 V c 4 (prev t)) (k0_pay1 (F := Ideal)))) := by
  have h0 : ¬t.val % 2 = 0 := by omega
  rw [outsAt0_B V c t h0 h1]
  dsimp only
  rw [out_B, acc_first V c (prev t) (by show (t.val - 1) % 2 = 0; omega)]

/-! ## The two blocks' sum at an entry -/

/-- Over any blocks that read the arrays where blocks `2h` and `2h + 1` lie: the copy-out of the second block's
    contribution added to the first's added to zero is half `h` of the result, entry by entry. -/
theorem kv_point (X : M2 8192 1024) (wk : M2 1024 128) (bk : M2 1 128) (wv : M2 1024 128) (bv : M2 1 128)
    (h : Fin 2) (b0 b1 : Fin 4) (hb0 : b0.val = 2 * h.val) (hb1 : b1.val = 2 * h.val + 1)
    (x0 y0 : Vec Ideal S2048x1024 .f32) (x1 y1 x3 y3 : Vec Ideal S1024x128 .bf16) (x2 y2 x4 y4 : Vec Ideal S1x128 .f32)
    (hy0 : ∀ (r : Fin 2048) (k : Fin 1024), y0 (ix2 r k) = X (ix2 (kRow b0 r) k))
    (hx0 : ∀ (r : Fin 2048) (k : Fin 1024), x0 (ix2 r k) = X (ix2 (kRow b1 r) k))
    (hx1 : ∀ (k : Fin 1024) (d : Fin 128), x1 (ix2 k d) = wk (ix2 k d))
    (hy1 : ∀ (k : Fin 1024) (d : Fin 128), y1 (ix2 k d) = wk (ix2 k d))
    (hx2 : ∀ d : Fin 128, x2 (ix2 0 d) = bk (ix2 0 d)) (hy2 : ∀ d : Fin 128, y2 (ix2 0 d) = bk (ix2 0 d))
    (hx3 : ∀ (k : Fin 1024) (e : Fin 128), x3 (ix2 k e) = wv (ix2 k e))
    (hy3 : ∀ (k : Fin 1024) (e : Fin 128), y3 (ix2 k e) = wv (ix2 k e))
    (hx4 : ∀ e : Fin 128, x4 (ix2 0 e) = bv (ix2 0 e)) (hy4 : ∀ e : Fin 128, y4 (ix2 0 e) = bv (ix2 0 e))
    (d e : Fin 128) :
    k0_pay3 (k0_pay2 x0 x1 x2 x3 x4 (k0_pay2 y0 y1 y2 y3 y4 (k0_pay1 (F := Ideal)))) (ix3 0 d e)
      = kvAt X wk bk wv bv h d e := by
  obtain ⟨v0, hv0⟩ := b0
  obtain ⟨v1, hv1⟩ := b1
  dsimp only at hb0 hb1
  subst hb0 hb1
  rw [Pay.k0_pay3_apply, Pay.k0_pay2_apply, Pay.k0_pay2_apply, Pay.k0_pay1_apply]
  unfold kvAt kvBlk proj
  simp only [hx0, hy0, hx1, hy1, hx2, hy2, hx3, hy3, hx4, hy4]

/-! ## Each input block, read where it lies in its array -/

/-- The printed index maps, decided over the grid: the token window walks the blocks, the weights' and biases' windows
    stay on their whole arrays, the result window is on half `t / 2`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 2 ∧ win0_5.index t (1 : Fin 3) = 0 ∧ win0_5.index t (2 : Fin 3) = 0 :=
  (by decide +kernel : ∀ t : Fin grid0.N, _)

/-- The token window's block at point `t` is rows `2048 t … 2048 t + 2047` of the token matrix. -/
theorem iblk_x (c : Dev nD) (t : Fin cfg0.N) (r : Fin 2048) (k : Fin 1024) :
    (iblk0 V c 0 t : Vec Ideal S2048x1024 .f32) (ix2 r k)
      = (V c main_arg0 : M2 8192 1024) (ix2 (kRow (Fin.cast N_0 t) r) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2048 + 1 * r.val = 2048 * t.val + r.val; rw [e0]; omega
  | ⟨1, _⟩ => show win0_0.index t (1 : Fin 2) * 1024 + 1 * k.val = k.val; rw [e1]; omega

/-- The key weights' block is the whole array at every point. -/
theorem iblk_wk (c : Dev nD) (t : Fin cfg0.N) (k : Fin 1024) (d : Fin 128) :
    (iblk0 V c 1 t : Vec Ideal S1024x128 .bf16) (ix2 k d) = (V c main_v3 : M2 1024 128) (ix2 k d) := by
  obtain ⟨-, -, e0, e1, -⟩ := idx_facts t
  unfold iblk0
  rw [View.read_apply]
  show V c main_v3 _ = V c main_v3 _
  congr 1
  funext a
  apply Fin.ext
  match a with
  | ⟨0, _⟩ => show win0_1.index t (0 : Fin 2) * 1024 + 1 * k.val = k.val; rw [e0]; omega
  | ⟨1, _⟩ => show win0_1.index t (1 : Fin 2) * 128 + 1 * d.val = d.val; rw [e1]; omega

/-- The key bias's block is the whole row. -/
theorem iblk_bk (c : Dev nD) (t : Fin cfg0.N) (a0 : Fin 1) (d : Fin 128) :
    (iblk0 V c 2 t : Vec Ideal S1x128 .f32) (ix2 a0 d) = (V c main_v13 : M2 1 128) (ix2 a0 d) := by
  obtain ⟨-, -, -, -, e0, e1, -⟩ := idx_facts t
  unfold iblk0
  rw [View.read_apply]
  show V c main_v13 _ = V c main_v13 _
  congr 1
  funext a
  apply Fin.ext
  match a with
  | ⟨0, _⟩ => show win0_2.index t (0 : Fin 2) * 1 + 1 * a0.val = a0.val; rw [e0]; omega
  | ⟨1, _⟩ => show win0_2.index t (1 : Fin 2) * 128 + 1 * d.val = d.val; rw [e1]; omega

/-- The value weights' block is the whole array. -/
theorem iblk_wv (c : Dev nD) (t : Fin cfg0.N) (k : Fin 1024) (d : Fin 128) :
    (iblk0 V c 3 t : Vec Ideal S1024x128 .bf16) (ix2 k d) = (V c main_v5 : M2 1024 128) (ix2 k d) := by
  obtain ⟨-, -, -, -, -, -, e0, e1, -⟩ := idx_facts t
  unfold iblk0
  rw [View.read_apply]
  show V c main_v5 _ = V c main_v5 _
  congr 1
  funext a
  apply Fin.ext
  match a with
  | ⟨0, _⟩ => show win0_3.index t (0 : Fin 2) * 1024 + 1 * k.val = k.val; rw [e0]; omega
  | ⟨1, _⟩ => show win0_3.index t (1 : Fin 2) * 128 + 1 * d.val = d.val; rw [e1]; omega

/-- The value bias's block is the whole row. -/
theorem iblk_bv (c : Dev nD) (t : Fin cfg0.N) (a0 : Fin 1) (d : Fin 128) :
    (iblk0 V c 4 t : Vec Ideal S1x128 .f32) (ix2 a0 d) = (V c main_v14 : M2 1 128) (ix2 a0 d) := by
  obtain ⟨-, -, -, -, -, -, -, -, e0, e1, -⟩ := idx_facts t
  unfold iblk0
  rw [View.read_apply]
  show V c main_v14 _ = V c main_v14 _
  congr 1
  funext a
  apply Fin.ext
  match a with
  | ⟨0, _⟩ => show win0_4.index t (0 : Fin 2) * 1 + 1 * a0.val = a0.val; rw [e0]; omega
  | ⟨1, _⟩ => show win0_4.index t (1 : Fin 2) * 128 + 1 * d.val = d.val; rw [e1]; omega

/-! ## What the two last blocks write back -/

/-- The half a point's block lies in. -/
abbrev half (t : Fin cfg0.N) : Fin 2 := ⟨t.val / 2, by have := lt_of_lt_of_eq t.isLt N_0; omega⟩

/-- Two functions of the result window's block agree if they agree at every `(0, d, e)`. -/
theorem ext_blk {α : Type} (f g : S1x128x128.Idx → α) (h : ∀ d e : Fin 128, f (ix3 0 d e) = g (ix3 0 d e)) : f = g := by
  funext j
  obtain ⟨a, d, e, rfl⟩ : ∃ (a : Fin 1) (d e : Fin 128), j = ix3 a d e := ⟨j 0, j 1, j 2, eq_ix3 j⟩
  obtain rfl : a = 0 := Subsingleton.elim _ _
  exact h d e

/-- Entry `(0, d, e)` of the result window's block at point `t` lies at `(t / 2, d, e)` of the result array. -/
theorem emb5 (t : Fin cfg0.N) (d e : Fin 128) :
    ((cfg0.win 5).blk t).view.emb (ix3 (0 : Fin 1) d e) = (ix3 (half t) d e : S2x128x128.Idx) := by
  obtain ⟨-, -, -, -, -, -, -, -, -, -, e0, e1, e2⟩ := idx_facts t
  funext a
  apply Fin.ext
  match a with
  | ⟨0, _⟩ => show win0_5.index t (0 : Fin 3) * 1 + 1 * 0 = t.val / 2; rw [e0]; omega
  | ⟨1, _⟩ => show win0_5.index t (1 : Fin 3) * 128 + 1 * d.val = d.val; rw [e1]; omega
  | ⟨2, _⟩ => show win0_5.index t (2 : Fin 3) * 128 + 1 * e.val = e.val; rw [e2]; omega

/-- WHAT A LAST BLOCK WRITES BACK is its block of `kvG` of the five arrays as the region finds them. -/
theorem flushed_eq (c : Dev nD) (t : Fin cfg0.N) (hf : (cfg0.win 5).flush t = true) :
    (dat0 V c).flushed 5 t = ((cfg0.win 5).blk t).view.read (Elt Ideal) (kvG (V c main_arg0 : M2 8192 1024) (V c main_v3 : M2 1024 128) (V c main_v13 : M2 1 128) (V c main_v5 : M2 1024 128) (V c main_v14 : M2 1 128)) := by
  have h1 : t.val % 2 = 1 := (flush0_5 t).mp hf
  have hN : t.val < 4 := lt_of_lt_of_eq t.isLt N_0
  show (cfg0.win 5).cut (grid0.coords t) ((dat0 V c).after 5 t) = _
  rw [after0_5, win_last V c t h1]
  refine ext_blk _ _ fun d e => ?_
  refine (kv_point (V c main_arg0 : M2 8192 1024) (V c main_v3 : M2 1024 128) (V c main_v13 : M2 1 128) (V c main_v5 : M2 1024 128) (V c main_v14 : M2 1 128) (half t) (Fin.cast N_0 (prev t)) (Fin.cast N_0 t)
    (by show t.val - 1 = 2 * (t.val / 2); omega) (by show t.val = 2 * (t.val / 2) + 1; omega)
    (iblk0 V c 0 t) (iblk0 V c 0 (prev t)) (iblk0 V c 1 t) (iblk0 V c 1 (prev t)) (iblk0 V c 3 t) (iblk0 V c 3 (prev t))
    (iblk0 V c 2 t) (iblk0 V c 2 (prev t)) (iblk0 V c 4 t) (iblk0 V c 4 (prev t))
    (iblk_x V c (prev t)) (iblk_x V c t) (iblk_wk V c t) (iblk_wk V c (prev t)) (iblk_bk V c t 0) (iblk_bk V c (prev t) 0)
    (iblk_wv V c t) (iblk_wv V c (prev t)) (iblk_bv V c t 0) (iblk_bv V c (prev t) 0) d e).trans ?_
  rw [View.read_apply]
  show kvAt (V c main_arg0 : M2 8192 1024) (V c main_v3 : M2 1024 128) (V c main_v13 : M2 1 128) (V c main_v5 : M2 1024 128) (V c main_v14 : M2 1 128) (half t) d e = kvG (V c main_arg0 : M2 8192 1024) (V c main_v3 : M2 1024 128) (V c main_v13 : M2 1 128) (V c main_v5 : M2 1024 128) (V c main_v14 : M2 1 128) (((cfg0.win 5).blk t).view.emb (ix3 (0 : Fin 1) d e))
  rw [emb5 t d e]
  rfl

/-! ## The two halves cover the result array -/

/-- An index of the result array is in point `t`'s block iff each coordinate is in the block's range on its axis. -/
theorem mem_blk5 (t : Fin cfg0.N) (i : S2x128x128.Idx) :
    i ∈ ((cfg0.win 5).blk t).view.set ↔ ∀ a : Fin 3, win0_5.index t a * S1x128x128.size a ≤ (i a).val ∧ (i a).val < win0_5.index t a * S1x128x128.size a + S1x128x128.size a := by
  show i ∈ ((View.whole main_v18).slice (win0_5.rect t)).set ↔ _
  rw [View.set_slice_whole, Rect.mem_set_unit]
  exact Iff.rfl

/-- Half `h` of the result array is the block of the last point of half `h`, point `2h + 1`. -/
theorem cover5 (i : S2x128x128.Idx) : ∃ t : Fin cfg0.N, (cfg0.win 5).flush t = true ∧ i ∈ ((cfg0.win 5).blk t).view.set := by
  have hi0 : (i 0).val < 2 := (i 0).isLt
  have hi1 : (i 1).val < 128 := (i 1).isLt
  have hi2 : (i 2).val < 128 := (i 2).isLt
  have hN : cfg0.N = 4 := N_0
  obtain ⟨t, ht⟩ : ∃ t : Fin cfg0.N, t.val = 2 * (i 0).val + 1 := ⟨⟨2 * (i 0).val + 1, by rw [hN]; omega⟩, rfl⟩
  obtain ⟨-, -, -, -, -, -, -, -, -, -, e0, e1, e2⟩ := idx_facts t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 128 ≤ (i 1).val ∧ (i 1).val < win0_5.index t (1 : Fin 3) * 128 + 128; rw [e1]; omega
  | ⟨2, _⟩ => show win0_5.index t (2 : Fin 3) * 128 ≤ (i 2).val ∧ (i 2).val < win0_5.index t (2 : Fin 3) * 128 + 128; rw [e2]; omega

/-- THE RESULT ARRAY after the first kernel's region: `kvG` of the five input arrays as the region finds them. -/
theorem final5 (c : Dev nD) :
    (dat0 (F := Ideal) V c).arrAt 5 cfg0.N = kvG (V c main_arg0 : M2 8192 1024) (V c main_v3 : M2 1024 128) (V c main_v13 : M2 1 128) (V c main_v5 : M2 1024 128) (V c main_v14 : M2 1 128) :=
  (dat0 V c).arrAt_eq_of_cover 5 (kvG (V c main_arg0 : M2 8192 1024) (V c main_v3 : M2 1024 128) (V c main_v13 : M2 1 128) (V c main_v5 : M2 1024 128) (V c main_v14 : M2 1 128))
    (fun t hf => flushed_eq V c t hf) (fun i => cover5 i)

end Cert.KernelIdeal.Val

end
-- ==== Proof.Spec.lean ====
/-
  The mathematics of the block, stated once over the thirteen argument arrays and no program.

  A token block without softmax: three linear projections `Q = x Wqᵀ + bq`, `K = x Wkᵀ + bk`, `V = x Wvᵀ + bv`
  of the 8192 tokens into 128 dimensions; the context of token `n`; an output projection back to 1024
  dimensions added to `x` (first residual); a ReLU feed-forward layer of 4096 hidden units added to that (second
  residual).

  Two arrangements of the same value are written down.
  * `G` evaluates the attention in the order `(Q Kᵀ) V`: the context of token `n` in dimension `e` is
    `∑ n', (∑ d, Q n d * K n' d) * V n' e`, a sum over all 8192 tokens of an 8192 × 8192 score. The hidden layer
    is summed over all 4096 units at once and the bias of the second layer is added before the residual.
  * `Gker` evaluates it in the order `Q (Kᵀ V)`: first the 128 × 128 matrix `Kᵀ V`, itself a sum over tokens
    taken in four blocks of 2048 rows, two blocks accumulated from zero into one half and two into the other, the
    halves then added; the context is `∑ d, Q n d * KV d e`. The hidden layer is summed in two halves of 2048
    units accumulated from zero, added to the first residual, and the bias is added last.
  The two agree wherever `Q`, `K` and `V` are real numbers (no infinite entry): moving the factor `Q n d` across
  the sum over tokens is distributivity, which the extended reals have only away from the infinities; everything
  else is commutativity and associativity of `+` and `0 + a = a`.
-/
import Idealize.ShloMosaic.PureOps.Ideal
import Idealize.ShloMosaic.Lib.ValueIdx

noncomputable section

open scoped BigOperators

namespace Cert.LinAttn

open Idealize.ShloMosaic Idealize.ShloMosaic.ValueIdx

/-- A matrix of extended reals, indexed as the arrays of the programs are. -/
abbrev Mat (a b : Nat) : Type := (⟨2, ![a, b]⟩ : Shape).Idx → EReal
/-- A vector of extended reals. -/
abbrev Vc (a : Nat) : Type := (⟨1, ![a]⟩ : Shape).Idx → EReal

/-- The thirteen argument arrays, in the order the programs take them. -/
structure Params where
  x : Mat 8192 1024
  Wq : Mat 128 1024
  bq : Vc 128
  Wk : Mat 128 1024
  bk : Vc 128
  Wv : Mat 128 1024
  bv : Vc 128
  Wp : Mat 1024 128
  bp : Vc 1024
  W1 : Mat 4096 1024
  b1 : Vc 4096
  W2 : Mat 1024 4096
  b2 : Vc 1024

/-- A linear layer `x Wᵀ + b` at row `n`, output unit `d`: the weight matrix is stored one row per output unit. -/
def lin {N K D : Nat} (x : Mat N K) (W : Mat D K) (b : Vc D) (n : Fin N) (d : Fin D) : EReal :=
  (∑ k : Fin K, x (ix2 n k) * W (ix2 d k)) + b (ix1 d)

variable (p : Params)

/-- The query, key and value projections of token `n` in dimension `d`. -/
def Q (n : Fin 8192) (d : Fin 128) : EReal := lin p.x p.Wq p.bq n d
def K (n : Fin 8192) (d : Fin 128) : EReal := lin p.x p.Wk p.bk n d
def V (n : Fin 8192) (d : Fin 128) : EReal := lin p.x p.Wv p.bv n d

/-- Every entry of the arrays the three projections read is a real number. -/
def RealQKV : Prop :=
  (∀ i, ∃ r : ℝ, p.x i = (r : EReal)) ∧ (∀ i, ∃ r : ℝ, p.Wq i = (r : EReal)) ∧ (∀ i, ∃ r : ℝ, p.bq i = (r : EReal))
  ∧ (∀ i, ∃ r : ℝ, p.Wk i = (r : EReal)) ∧ (∀ i, ∃ r : ℝ, p.bk i = (r : EReal))
  ∧ (∀ i, ∃ r : ℝ, p.Wv i = (r : EReal)) ∧ (∀ i, ∃ r : ℝ, p.bv i = (r : EReal))

/-- The context in the order `(Q Kᵀ) V`: token `n` against every token `n'`. -/
def ctxRef (n : Fin 8192) (e : Fin 128) : EReal :=
  ∑ n' : Fin 8192, (∑ d : Fin 128, Q p n d * K p n' d) * V p n' e

/-- Row `r` of the `b`-th block of 2048 tokens. -/
def blockRow (b : Fin 4) (r : Fin 2048) : Fin 8192 := ⟨2048 * b.val + r.val, by omega⟩

/-- The part of `Kᵀ V` that the `b`-th block of 2048 tokens contributes, at `(d, e)`. -/
def kvBlock (b : Fin 4) (d e : Fin 128) : EReal :=
  ∑ r : Fin 2048, K p (blockRow b r) d * V p (blockRow b r) e

/-- What one half accumulates: from zero, its first block, then its second (`h = 0`: blocks 0 and 1; `h = 1`: blocks 2 and 3). -/
def kvHalf (h : Fin 2) (d e : Fin 128) : EReal :=
  ((0 : EReal) + kvBlock p ⟨2 * h.val, by omega⟩ d e) + kvBlock p ⟨2 * h.val + 1, by omega⟩ d e

/-- `Kᵀ V` as the two halves added. -/
def KV (d e : Fin 128) : EReal := kvHalf p 0 d e + kvHalf p 1 d e

/-- The context in the order `Q (Kᵀ V)`. -/
def ctxKer (n : Fin 8192) (e : Fin 128) : EReal := ∑ d : Fin 128, Q p n d * KV p d e

/-- The first residual, over a given context. -/
def x1 (ctx : Fin 8192 → Fin 128 → EReal) (n : Fin 8192) (j : Fin 1024) : EReal :=
  p.x (ix2 n j) + ((∑ e : Fin 128, ctx n e * p.Wp (ix2 j e)) + p.bp (ix1 j))

/-- Hidden unit `f` of token `n` after the ReLU, over a given context. -/
def hid (ctx : Fin 8192 → Fin 128 → EReal) (n : Fin 8192) (f : Fin 4096) : EReal :=
  max ((∑ j : Fin 1024, x1 p ctx n j * p.W1 (ix2 f j)) + p.b1 (ix1 f)) 0

/-- The result at `(n, j)` with the attention in the order `(Q Kᵀ) V` and the hidden layer summed at once. -/
def Gat (n : Fin 8192) (j : Fin 1024) : EReal :=
  x1 p (ctxRef p) n j + ((∑ f : Fin 4096, hid p (ctxRef p) n f * p.W2 (ix2 j f)) + p.b2 (ix1 j))

/-- Hidden unit `f` of the `h`-th half of 2048 units. -/
def halfUnit (h : Fin 2) (f : Fin 2048) : Fin 4096 := ⟨2048 * h.val + f.val, by omega⟩

/-- What the `h`-th half of the hidden layer contributes to output `j` of token `n`, over a given context. -/
def ffnHalf (ctx : Fin 8192 → Fin 128 → EReal) (h : Fin 2) (n : Fin 8192) (j : Fin 1024) : EReal :=
  ∑ f : Fin 2048, hid p ctx n (halfUnit h f) * p.W2 (ix2 j (halfUnit h f))

/-- The result at `(n, j)` with the attention in the order `Q (Kᵀ V)`, the hidden layer accumulated from zero in two
    halves, and the last bias added after the residual. -/
def GkerAt (n : Fin 8192) (j : Fin 1024) : EReal :=
  (x1 p (ctxKer p) n j + (((0 : EReal) + ffnHalf p (ctxKer p) 0 n j) + ffnHalf p (ctxKer p) 1 n j)) + p.b2 (ix1 j)

/-- The two arrangements as whole arrays. -/
def G : Mat 8192 1024 := fun i => Gat p (i 0) (i 1)
def Gker : Mat 8192 1024 := fun i => GkerAt p (i 0) (i 1)

theorem G_apply (n : Fin 8192) (j : Fin 1024) : G p (ix2 n j) = Gat p n j := rfl
theorem Gker_apply (n : Fin 8192) (j : Fin 1024) : Gker p (ix2 n j) = GkerAt p n j := rfl

end Cert.LinAttn

end
-- ==== Proof.Bridge.lean ====
/-
  The idealized kernel's result array is the specification's kernel-order arrangement `Gker` of the thirteen arguments.

  The second region leaves its result array at the second kernel's function `mainG` of the arrays it was entered with;
  those are the arguments themselves (the token matrix), transposes of arguments (the four weight matrices: entry
  `(k, d)` of a transposed matrix is entry `(d, k)` of the argument), biases laid out as rows, and the 128 × 128 matrix
  the host makes by adding the two halves the first region left — each half the first kernel's function `kvG` of the
  token matrix and the transposed key and value weights. Reading every one of these at an index turns `mainG` into
  `Gker` term by term: a projection against a transposed weight matrix is the specification's linear layer; a block row
  `2048 b + r` and a half's hidden unit `2048 h + f` are the specification's.
-/
import proofs.«157025_j56100862820442_2_alg».proof.Proof.HostReads
import proofs.«157025_j56100862820442_2_alg».proof.Proof.MainValue
import proofs.«157025_j56100862820442_2_alg».proof.Proof.KvValue
import proofs.«157025_j56100862820442_2_alg».proof.Proof.Spec

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Cert.LinAttn

variable (m : (ℓ : Loc nD τ sig) → Buf (Elt Ideal) ℓ) (c : Dev nD)

/-- The thirteen argument arrays of the idealized kernel's program on core `c`. -/
def params : Params :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12)⟩

/-! ## The arrays the regions are entered with, at the specification's types -/

abbrev aX0 : M2 8192 1024 := ent0 m c main_arg0
abbrev aWk : M2 1024 128 := ent0 m c main_v3
abbrev aBk : M2 1 128 := ent0 m c main_v13
abbrev aWv : M2 1024 128 := ent0 m c main_v5
abbrev aBv : M2 1 128 := ent0 m c main_v14
abbrev aX1 : M2 8192 1024 := ent1 m c main_arg0
abbrev aWq : M2 1024 128 := ent1 m c main_v1
abbrev aBq : M2 1 128 := ent1 m c main_v12
abbrev aKv : M2 128 128 := ent1 m c main_v24
abbrev aWp : M2 128 1024 := ent1 m c main_v7
abbrev aBp : M2 1 1024 := ent1 m c main_v15
abbrev aW1 : M2 1024 4096 := ent1 m c main_v9
abbrev aB1 : M2 1 4096 := ent1 m c main_v16
abbrev aW2 : M2 4096 1024 := ent1 m c main_v11
abbrev aB2 : M2 1 1024 := ent1 m c main_v17

/-! ## The three projections -/

theorem projK (n : Fin 8192) (d : Fin 128) : proj (aX0 m c) (aWk m c) (aBk m c) n d = K (params m c) n d := by
  unfold proj K lin
  exact congrArg₂ (· + ·) (Finset.sum_congr rfl fun k _ => congrArg₂ (· * ·) (congrFun (ent0_arg0 m c) (ix2 n k)) (ent0_v3 m c k d))
    (ent0_v13 m c d)

theorem projV (n : Fin 8192) (d : Fin 128) : proj (aX0 m c) (aWv m c) (aBv m c) n d = V (params m c) n d := by
  unfold proj V lin
  exact congrArg₂ (· + ·) (Finset.sum_congr rfl fun k _ => congrArg₂ (· * ·) (congrFun (ent0_arg0 m c) (ix2 n k)) (ent0_v5 m c k d))
    (ent0_v14 m c d)

theorem projQ (n : Fin 8192) (d : Fin 128) : proj (aX1 m c) (aWq m c) (aBq m c) n d = Q (params m c) n d := by
  unfold proj Q lin
  exact congrArg₂ (· + ·) (Finset.sum_congr rfl fun k _ => congrArg₂ (· * ·) (congrFun (ent1_arg0 m c) (ix2 n k)) (ent1_v1 m c k d))
    (ent1_v12 m c d)

/-! ## The 128 × 128 matrix -/

theorem kvBlk_eq (b : Fin 4) (d e : Fin 128) :
    kvBlk (aX0 m c) (aWk m c) (aBk m c) (aWv m c) (aBv m c) b d e = kvBlock (params m c) b d e := by
  unfold kvBlk kvBlock
  exact Finset.sum_congr rfl fun r _ => congrArg₂ (· * ·) (projK m c (kRow b r) d) (projV m c (kRow b r) e)

theorem kvAt_eq (h : Fin 2) (d e : Fin 128) :
    kvAt (aX0 m c) (aWk m c) (aBk m c) (aWv m c) (aBv m c) h d e = kvHalf (params m c) h d e := by
  unfold kvAt kvHalf
  exact congrArg₂ (· + ·) (congrArg (fun z => (0 : EReal) + z) (kvBlk_eq m c _ d e)) (kvBlk_eq m c _ d e)

/-- The first region's result array is the first kernel's function of the arrays it was entered with. -/
theorem kv_array : (bufs2 m c (Proc.devRef .tc main_v18) : Ten 2 128 128)
    = kvG (aX0 m c) (aWk m c) (aBk m c) (aWv m c) (aBv m c) :=
  (bufs2_arr m c 5).trans (final5 (ent0 m) c)

theorem kv_half (h : Fin 2) (d e : Fin 128) :
    (bufs2 m c (Proc.devRef .tc main_v18) : Ten 2 128 128) (ix3 h d e) = kvHalf (params m c) h d e :=
  (congrFun (kv_array m c) (ix3 h d e)).trans ((kvG_apply _ _ _ _ _ h d e).trans (kvAt_eq m c h d e))

theorem kv_eq (d e : Fin 128) : aKv m c (ix2 d e) = KV (params m c) d e := by
  refine (ent1_v24 m c d e).trans ?_
  unfold KV
  exact congrArg₂ (· + ·) (kv_half m c 0 d e) (kv_half m c 1 d e)

/-! ## The second kernel's function, term by term -/

theorem mCtx_eq (n : Fin 8192) (e : Fin 128) :
    mCtx (aX1 m c) (aWq m c) (aBq m c) (aKv m c) n e = ctxKer (params m c) n e := by
  unfold mCtx ctxKer
  exact Finset.sum_congr rfl fun d _ => congrArg₂ (· * ·) (projQ m c n d) (kv_eq m c d e)

theorem mX1_eq (n : Fin 8192) (j : Fin 1024) :
    mX1 (aX1 m c) (aWq m c) (aBq m c) (aKv m c) (aWp m c) (aBp m c) n j = x1 (params m c) (ctxKer (params m c)) n j := by
  unfold mX1 x1
  exact congrArg₂ (· + ·) (congrFun (ent1_arg0 m c) (ix2 n j))
    (congrArg₂ (· + ·) (Finset.sum_congr rfl fun e _ => congrArg₂ (· * ·) (mCtx_eq m c n e) (ent1_v7 m c e j)) (ent1_v15 m c j))

theorem mHid_eq (n : Fin 8192) (f : Fin 4096) :
    mHid (aX1 m c) (aWq m c) (aBq m c) (aKv m c) (aWp m c) (aBp m c) (aW1 m c) (aB1 m c) n f
      = hid (params m c) (ctxKer (params m c)) n f := by
  unfold mHid hid
  exact congrArg (fun z : EReal => max z 0)
    (congrArg₂ (· + ·) (Finset.sum_congr rfl fun j _ => congrArg₂ (· * ·) (mX1_eq m c n j) (ent1_v9 m c j f)) (ent1_v16 m c f))

theorem mHalf_eq (h : Fin 2) (n : Fin 8192) (j : Fin 1024) :
    mHalf (aX1 m c) (aWq m c) (aBq m c) (aKv m c) (aWp m c) (aBp m c) (aW1 m c) (aB1 m c) (aW2 m c) h n j
      = ffnHalf (params m c) (ctxKer (params m c)) h n j := by
  unfold mHalf ffnHalf
  exact Finset.sum_congr rfl fun f _ => congrArg₂ (· * ·) (mHid_eq m c n (hUnit h f)) (ent1_v11 m c (hUnit h f) j)

theorem mainAt_eq (n : Fin 8192) (j : Fin 1024) :
    mainAt (aX1 m c) (aWq m c) (aBq m c) (aKv m c) (aWp m c) (aBp m c) (aW1 m c) (aB1 m c) (aW2 m c) (aB2 m c) n j
      = GkerAt (params m c) n j := by
  unfold mainAt GkerAt
  exact congrArg₂ (· + ·)
    (congrArg₂ (· + ·) (mX1_eq m c n j)
      (congrArg₂ (· + ·) (congrArg (fun z => (0 : EReal) + z) (mHalf_eq m c 0 n j)) (mHalf_eq m c 1 n j)))
    (ent1_v17 m c j)

/-- THE RESULT ARRAY of the idealized kernel's program: the kernel-order arrangement of the thirteen arguments. -/
theorem result_eq : (bufs4 m c (Proc.devRef .tc main_v25) : Mat 8192 1024) = Gker (params m c) := by
  refine ((bufs4_arr m c 10).trans (final10 (ent1 m) c)).trans ?_
  funext i
  obtain ⟨n, j, rfl⟩ : ∃ (n : Fin 8192) (j : Fin 1024), i = ix2 n j := ⟨i 0, i 1, eq_ix2 i⟩
  rw [Gker_apply]
  exact mainAt_eq m c n j

end Cert.KernelIdeal.Val

end
-- ==== Proof.RefIsG.lean ====
/-
  The reference program computes the specification's `G`.

  The program is read one operation at a time at an index: a transpose swaps the two coordinates, a broadcast of a
  bias row reads the bias at the column, a `dot_general` is the sum over its contracted axis, and the ReLU is the
  maximum with a broadcast zero. Stage by stage: the three projections are `lin`; the score of tokens `n, n'` is
  `∑ d, Q n d * K n' d`; the context is the sum over all tokens `n'` of the score times `V n' e`; then the first
  residual, the hidden layer, and the result. Every sum stays a symbolic sum over its index type.
-/
import proofs.«157025_j56100862820442_2_alg».proof.Proof.Gen.ReferenceIdeal.Read
import proofs.«157025_j56100862820442_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The thirteen arrays as the specification's record. -/
abbrev P (x0 : (⟨S8192x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (x5 : (⟨S128x1024, .f32⟩ : BufTy).Contents (Elt Ideal)) (x6 : (⟨S128, .f32⟩ : BufTy).Contents (Elt Ideal)) (x7 : (⟨S1024x128, .f32⟩ : BufTy).Contents (Elt Ideal)) (x8 : (⟨S1024, .f32⟩ : BufTy).Contents (Elt Ideal)) (x9 : (⟨S4096x1024, .f32⟩ : BufTy).Contents (Elt Ideal)) (x10 : (⟨S4096, .f32⟩ : BufTy).Contents (Elt Ideal)) (x11 : (⟨S1024x4096, .f32⟩ : BufTy).Contents (Elt Ideal)) (x12 : (⟨S1024, .f32⟩ : BufTy).Contents (Elt Ideal)) : LinAttn.Params :=
  ⟨x0, x1, x2, x3, x4, x5, x6, x7, x8, x9, x10, x11, x12⟩

/-- The query projection at `(n, d)`: `∑ k, x n k * Wq d k + bq d` (the weight is read transposed, the bias row at the column). -/
theorem v4_at (x0 : (⟨S8192x1024, .f32⟩ : BufTy).Contents (Elt Ideal)) (x1 : (⟨S128x1024, .f32⟩ : BufTy).Contents (Elt Ideal)) (x2 : (⟨S128, .f32⟩ : BufTy).Contents (Elt Ideal)) (n : Fin 8192) (d : Fin 128) :
    val_main_v4 (F := Ideal) x0 x1 x2 (ix2 n d) = LinAttn.lin (N := 8192) (K := 1024) (D := 128) x0 x1 x2 n d := by
  rw [val_main_v4_apply, val_main_v1_apply, val_main_v3_apply, val_main_v2_apply]
  simp only [val_main_v0_apply]
  have el : ∀ k : Fin 1024, lidx_main_v1 (ix2 n d) k = ix2 n k := fun k => funext fun a => Fin.ext (by
    match a with | ⟨0, _⟩ => rfl | ⟨1, _⟩ => rfl)
  have er : ∀ k : Fin 1024, idx_main_v0 (ridx_main_v1 (ix2 n d) k) = ix2 d k := fun k => funext fun a => Fin.ext (by
    match a with | ⟨0, _⟩ => rfl | ⟨1, _⟩ => rfl)
  have eb : idx_main_v2 (idx_main_v3 (ix2 n d)) = ix1 d := funext fun a => Fin.ext (by
    match a with | ⟨0, _⟩ => rfl)
  simp only [el, er, eb, Ideal.addf_def]
  rfl

/-- The key projection at `(n, d)`. -/
theorem v9_at (x0 : (⟨S8192x1024, .f32⟩ : BufTy).Contents (Elt Ideal)) (x3 : (⟨S128x1024, .f32⟩ : BufTy).Contents (Elt Ideal)) (x4 : (⟨S128, .f32⟩ : BufTy).Contents (Elt Ideal)) (n : Fin 8192) (d : Fin 128) :
    val_main_v9 (F := Ideal) x0 x3 x4 (ix2 n d) = LinAttn.lin (N := 8192) (K := 1024) (D := 128) x0 x3 x4 n d := by
  rw [val_main_v9_apply, val_main_v6_apply, val_main_v8_apply, val_main_v7_apply]
  simp only [val_main_v5_apply]
  have el : ∀ k : Fin 1024, lidx_main_v6 (ix2 n d) k = ix2 n k := fun k => funext fun a => Fin.ext (by
    match a with | ⟨0, _⟩ => rfl | ⟨1, _⟩ => rfl)
  have er : ∀ k : Fin 1024, idx_main_v5 (ridx_main_v6 (ix2 n d) k) = ix2 d k := fun k => funext fun a => Fin.ext (by
    match a with | ⟨0, _⟩ => rfl | ⟨1, _⟩ => rfl)
  have eb : idx_main_v7 (idx_main_v8 (ix2 n d)) = ix1 d := funext fun a => Fin.ext (by
    match a with | ⟨0, _⟩ => rfl)
  simp only [el, er, eb, Ideal.addf_def]
  rfl

/-- The value projection at `(n, d)`. -/
theorem v14_at (x0 : (⟨S8192x1024, .f32⟩ : BufTy).Contents (Elt Ideal)) (x5 : (⟨S128x1024, .f32⟩ : BufTy).Contents (Elt Ideal)) (x6 : (⟨S128, .f32⟩ : BufTy).Contents (Elt Ideal)) (n : Fin 8192) (d : Fin 128) :
    val_main_v14 (F := Ideal) x0 x5 x6 (ix2 n d) = LinAttn.lin (N := 8192) (K := 1024) (D := 128) x0 x5 x6 n d := by
  rw [val_main_v14_apply, val_main_v11_apply, val_main_v13_apply, val_main_v12_apply]
  simp only [val_main_v10_apply]
  have el : ∀ k : Fin 1024, lidx_main_v11 (ix2 n d) k = ix2 n k := fun k => funext fun a => Fin.ext (by
    match a with | ⟨0, _⟩ => rfl | ⟨1, _⟩ => rfl)
  have er : ∀ k : Fin 1024, idx_main_v10 (ridx_main_v11 (ix2 n d) k) = ix2 d k := fun k => funext fun a => Fin.ext (by
    match a with | ⟨0, _⟩ => rfl | ⟨1, _⟩ => rfl)
  have eb : idx_main_v12 (idx_main_v13 (ix2 n d)) = ix1 d := funext fun a => Fin.ext (by
    match a with | ⟨0, _⟩ => rfl)
  simp only [el, er, eb, Ideal.addf_def]
  rfl

/-- The score of token `n` against token `n'`: the keys are read transposed. -/
theorem v16_at (x0 : (⟨S8192x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (x5 : (⟨S128x1024, .f32⟩ : BufTy).Contents (Elt Ideal)) (x6 : (⟨S128, .f32⟩ : BufTy).Contents (Elt Ideal)) (x7 : (⟨S1024x128, .f32⟩ : BufTy).Contents (Elt Ideal)) (x8 : (⟨S1024, .f32⟩ : BufTy).Contents (Elt Ideal)) (x9 : (⟨S4096x1024, .f32⟩ : BufTy).Contents (Elt Ideal)) (x10 : (⟨S4096, .f32⟩ : BufTy).Contents (Elt Ideal)) (x11 : (⟨S1024x4096, .f32⟩ : BufTy).Contents (Elt Ideal)) (x12 : (⟨S1024, .f32⟩ : BufTy).Contents (Elt Ideal)) (n n' : Fin 8192) :
    val_main_v16 (F := Ideal) x0 x1 x2 x3 x4 (ix2 n n') = ∑ d : Fin 128, LinAttn.Q (P x0 x1 x2 x3 x4 x5 x6 x7 x8 x9 x10 x11 x12) n d * LinAttn.K (P x0 x1 x2 x3 x4 x5 x6 x7 x8 x9 x10 x11 x12) n' d := by
  rw [val_main_v16_apply]
  refine Finset.sum_congr rfl fun d _ => ?_
  have el : lidx_main_v16 (ix2 n n') d = ix2 n d := funext fun a => Fin.ext (by
    match a with | ⟨0, _⟩ => rfl | ⟨1, _⟩ => rfl)
  have er : idx_main_v15 (ridx_main_v16 (ix2 n n') d) = ix2 n' d := funext fun a => Fin.ext (by
    match a with | ⟨0, _⟩ => rfl | ⟨1, _⟩ => rfl)
  rw [val_main_v15_apply, el, er, v4_at, v9_at]
  rfl

/-- The context of token `n` in dimension `e`, in the order `(Q Kᵀ) V`: the sum over all tokens of the score times the value. -/
theorem v17_at (x0 : (⟨S8192x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (x5 : (⟨S128x1024, .f32⟩ : BufTy).Contents (Elt Ideal)) (x6 : (⟨S128, .f32⟩ : BufTy).Contents (Elt Ideal)) (x7 : (⟨S1024x128, .f32⟩ : BufTy).Contents (Elt Ideal)) (x8 : (⟨S1024, .f32⟩ : BufTy).Contents (Elt Ideal)) (x9 : (⟨S4096x1024, .f32⟩ : BufTy).Contents (Elt Ideal)) (x10 : (⟨S4096, .f32⟩ : BufTy).Contents (Elt Ideal)) (x11 : (⟨S1024x4096, .f32⟩ : BufTy).Contents (Elt Ideal)) (x12 : (⟨S1024, .f32⟩ : BufTy).Contents (Elt Ideal)) (n : Fin 8192) (e : Fin 128) :
    val_main_v17 (F := Ideal) x0 x1 x2 x3 x4 x5 x6 (ix2 n e) = LinAttn.ctxRef (P x0 x1 x2 x3 x4 x5 x6 x7 x8 x9 x10 x11 x12) n e := by
  rw [val_main_v17_apply]
  unfold LinAttn.ctxRef
  refine Finset.sum_congr rfl fun n' _ => ?_
  have el : lidx_main_v17 (ix2 n e) n' = ix2 n n' := funext fun a => Fin.ext (by
    match a with | ⟨0, _⟩ => rfl | ⟨1, _⟩ => rfl)
  have er : ridx_main_v17 (ix2 n e) n' = ix2 n' e := funext fun a => Fin.ext (by
    match a with | ⟨0, _⟩ => rfl | ⟨1, _⟩ => rfl)
  rw [el, er, v16_at x0 x1 x2 x3 x4 x5 x6 x7 x8 x9 x10 x11 x12, v14_at]
  rfl

/-- The first residual at `(n, j)`. -/
theorem v23_at (x0 : (⟨S8192x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (x5 : (⟨S128x1024, .f32⟩ : BufTy).Contents (Elt Ideal)) (x6 : (⟨S128, .f32⟩ : BufTy).Contents (Elt Ideal)) (x7 : (⟨S1024x128, .f32⟩ : BufTy).Contents (Elt Ideal)) (x8 : (⟨S1024, .f32⟩ : BufTy).Contents (Elt Ideal)) (x9 : (⟨S4096x1024, .f32⟩ : BufTy).Contents (Elt Ideal)) (x10 : (⟨S4096, .f32⟩ : BufTy).Contents (Elt Ideal)) (x11 : (⟨S1024x4096, .f32⟩ : BufTy).Contents (Elt Ideal)) (x12 : (⟨S1024, .f32⟩ : BufTy).Contents (Elt Ideal)) (n : Fin 8192) (j : Fin 1024) :
    val_main_v23 (F := Ideal) x0 x1 x2 x3 x4 x5 x6 x7 x8 (ix2 n j) = LinAttn.x1 (P x0 x1 x2 x3 x4 x5 x6 x7 x8 x9 x10 x11 x12) (LinAttn.ctxRef (P x0 x1 x2 x3 x4 x5 x6 x7 x8 x9 x10 x11 x12)) n j := by
  rw [val_main_v23_apply, val_main_v22_apply, val_main_v19_apply, val_main_v21_apply, val_main_v20_apply]
  have el : ∀ e : Fin 128, lidx_main_v19 (ix2 n j) e = ix2 n e := fun e => funext fun a => Fin.ext (by
    match a with | ⟨0, _⟩ => rfl | ⟨1, _⟩ => rfl)
  have er : ∀ e : Fin 128, idx_main_v18 (ridx_main_v19 (ix2 n j) e) = ix2 j e := fun e => funext fun a => Fin.ext (by
    match a with | ⟨0, _⟩ => rfl | ⟨1, _⟩ => rfl)
  have eb : idx_main_v20 (idx_main_v21 (ix2 n j)) = ix1 j := funext fun a => Fin.ext (by
    match a with | ⟨0, _⟩ => rfl)
  simp only [val_main_v18_apply, el, er, eb, v17_at x0 x1 x2 x3 x4 x5 x6 x7 x8 x9 x10 x11 x12, Ideal.addf_def]
  rfl

/-- Hidden unit `f` of token `n` after the ReLU: the maximum with a broadcast zero. -/
theorem v29_at (x0 : (⟨S8192x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (x5 : (⟨S128x1024, .f32⟩ : BufTy).Contents (Elt Ideal)) (x6 : (⟨S128, .f32⟩ : BufTy).Contents (Elt Ideal)) (x7 : (⟨S1024x128, .f32⟩ : BufTy).Contents (Elt Ideal)) (x8 : (⟨S1024, .f32⟩ : BufTy).Contents (Elt Ideal)) (x9 : (⟨S4096x1024, .f32⟩ : BufTy).Contents (Elt Ideal)) (x10 : (⟨S4096, .f32⟩ : BufTy).Contents (Elt Ideal)) (x11 : (⟨S1024x4096, .f32⟩ : BufTy).Contents (Elt Ideal)) (x12 : (⟨S1024, .f32⟩ : BufTy).Contents (Elt Ideal)) (n : Fin 8192) (f : Fin 4096) :
    val_main_v29 (F := Ideal) x0 x1 x2 x3 x4 x5 x6 x7 x8 x9 x10 (ix2 n f) = LinAttn.hid (P x0 x1 x2 x3 x4 x5 x6 x7 x8 x9 x10 x11 x12) (LinAttn.ctxRef (P x0 x1 x2 x3 x4 x5 x6 x7 x8 x9 x10 x11 x12)) n f := by
  rw [val_main_v29_apply, val_main_v28_apply, val_main_v25_apply, val_main_v27_apply, val_main_v26_apply,
    val_main_call0_v0_apply, val_main_call0_cst_apply]
  have el : ∀ k : Fin 1024, lidx_main_v25 (ix2 n f) k = ix2 n k := fun k => funext fun a => Fin.ext (by
    match a with | ⟨0, _⟩ => rfl | ⟨1, _⟩ => rfl)
  have er : ∀ k : Fin 1024, idx_main_v24 (ridx_main_v25 (ix2 n f) k) = ix2 f k := fun k => funext fun a => Fin.ext (by
    match a with | ⟨0, _⟩ => rfl | ⟨1, _⟩ => rfl)
  have eb : idx_main_v26 (idx_main_v27 (ix2 n f)) = ix1 f := funext fun a => Fin.ext (by
    match a with | ⟨0, _⟩ => rfl)
  simp only [val_main_v24_apply, el, er, eb, v23_at x0 x1 x2 x3 x4 x5 x6 x7 x8 x9 x10 x11 x12, Ideal.addf_def, Ideal.maximumf_def, Ideal.ofBits_def,
    Ideal.ofBits_zero_f32]
  rfl

/-- The result at `(n, j)`. -/
theorem v35_at (x0 : (⟨S8192x1024, .f32⟩ : BufTy).Contents (Elt Ideal)) (x1 : (⟨S128x1024, .f32⟩ : BufTy).Contents (Elt Ideal)) (x2 : (⟨S128, .f32⟩ : BufTy).Contents (Elt Ideal)) (x3 : (⟨S128x1024, .f32⟩ : BufTy).Contents (Elt Ideal)) (x4 : (⟨S128, .f32⟩ : BufTy).Contents (Elt Ideal)) (x5 : (⟨S128x1024, .f32⟩ : BufTy).Contents (Elt Ideal)) (x6 : (⟨S128, .f32⟩ : BufTy).Contents (Elt Ideal)) (x7 : (⟨S1024x128, .f32⟩ : BufTy).Contents (Elt Ideal)) (x8 : (⟨S1024, .f32⟩ : BufTy).Contents (Elt Ideal)) (x9 : (⟨S4096x1024, .f32⟩ : BufTy).Contents (Elt Ideal)) (x10 : (⟨S4096, .f32⟩ : BufTy).Contents (Elt Ideal)) (x11 : (⟨S1024x4096, .f32⟩ : BufTy).Contents (Elt Ideal)) (x12 : (⟨S1024, .f32⟩ : BufTy).Contents (Elt Ideal)) (n : Fin 8192) (j : Fin 1024) :
    val_main_v35 (F := Ideal) x0 x1 x2 x3 x4 x5 x6 x7 x8 x9 x10 x11 x12 (ix2 n j) = LinAttn.Gat (P x0 x1 x2 x3 x4 x5 x6 x7 x8 x9 x10 x11 x12) n j := by
  rw [val_main_v35_apply, val_main_v34_apply, val_main_v31_apply, val_main_v33_apply, val_main_v32_apply,
    v23_at x0 x1 x2 x3 x4 x5 x6 x7 x8 x9 x10 x11 x12]
  have el : ∀ f : Fin 4096, lidx_main_v31 (ix2 n j) f = ix2 n f := fun f => funext fun a => Fin.ext (by
    match a with | ⟨0, _⟩ => rfl | ⟨1, _⟩ => rfl)
  have er : ∀ f : Fin 4096, idx_main_v30 (ridx_main_v31 (ix2 n j) f) = ix2 j f := fun f => funext fun a => Fin.ext (by
    match a with | ⟨0, _⟩ => rfl | ⟨1, _⟩ => rfl)
  have eb : idx_main_v32 (idx_main_v33 (ix2 n j)) = ix1 j := funext fun a => Fin.ext (by
    match a with | ⟨0, _⟩ => rfl)
  simp only [val_main_v30_apply, el, er, eb, v29_at x0 x1 x2 x3 x4 x5 x6 x7 x8 x9 x10 x11 x12, Ideal.addf_def]
  rfl

/-- The whole result array of the reference program is the specification's `G` of its thirteen arguments. -/
theorem result_eq (a0 : (⟨S8192x1024, .f32⟩ : BufTy).Contents (Elt Ideal)) (a1 : (⟨S128x1024, .f32⟩ : BufTy).Contents (Elt Ideal)) (a2 : (⟨S128, .f32⟩ : BufTy).Contents (Elt Ideal)) (a3 : (⟨S128x1024, .f32⟩ : BufTy).Contents (Elt Ideal)) (a4 : (⟨S128, .f32⟩ : BufTy).Contents (Elt Ideal)) (a5 : (⟨S128x1024, .f32⟩ : BufTy).Contents (Elt Ideal)) (a6 : (⟨S128, .f32⟩ : BufTy).Contents (Elt Ideal)) (a7 : (⟨S1024x128, .f32⟩ : BufTy).Contents (Elt Ideal)) (a8 : (⟨S1024, .f32⟩ : BufTy).Contents (Elt Ideal)) (a9 : (⟨S4096x1024, .f32⟩ : BufTy).Contents (Elt Ideal)) (a10 : (⟨S4096, .f32⟩ : BufTy).Contents (Elt Ideal)) (a11 : (⟨S1024x4096, .f32⟩ : BufTy).Contents (Elt Ideal)) (a12 : (⟨S1024, .f32⟩ : BufTy).Contents (Elt Ideal)) :
    val_main_v35 (F := Ideal) a0 a1 a2 a3 a4 a5 a6 a7 a8 a9 a10 a11 a12 = LinAttn.G ⟨a0, a1, a2, a3, a4, a5, a6, a7, a8, a9, a10, a11, a12⟩ := by
  funext i
  obtain ⟨n, j, rfl⟩ : ∃ (n : Fin 8192) (j : Fin 1024), i = ix2 n j := ⟨i 0, i 1, eq_ix2 i⟩
  rw [LinAttn.G_apply]
  exact v35_at a0 a1 a2 a3 a4 a5 a6 a7 a8 a9 a10 a11 a12 n j

/-- The thirteen argument buffers of device `c` at launch, as the specification's record. -/
def params (m : (ℓ : Loc nD τ sig) → Buf (Elt Ideal) ℓ) (c : Dev nD) : LinAttn.Params :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12)⟩

/-- On every device every weakly fair execution of the reference program terminates with its result array equal to
    `G` of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = LinAttn.G (params m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run (defs (F := Ideal)) _ _).mono (fun _ h c => ⟨(h c).1.trans ((val_main_v35_eq m c).trans (result_eq _ _ _ _ _ _ _ _ _ _ _ _ _)),
      (h c).2⟩)
    (Cert.ReferenceIdeal.Value.run (F := Ideal) m ρ)

end Cert.ReferenceIdeal.RefValue

end
-- ==== Proof.LibBlockSplit.lean ====
/-
  Splitting a finite sum over `Fin N` into `k` consecutive blocks of `m` terms each, `N = k * m`.

  `sum_blocks` proves: for `f : Fin N → M` in an additive commutative monoid and any family
  `row : Fin k → Fin m → Fin N` with `(row b r).val = m * b + r`,
  `∑ i, f i = ∑ b : Fin k, ∑ r : Fin m, f (row b r)`.
  `sum_blocks_two` and `sum_blocks_four` write the outer sum out for `k = 2` and `k = 4`.
  The sums over the blocks stay symbolic throughout: nothing is expanded into its terms.
-/
import Mathlib.Algebra.BigOperators.Fin
import Mathlib.Logic.Equiv.Fin.Basic

open scoped BigOperators

namespace Cert.Lib

/-- A sum over `Fin N`, `N = k * m`, is the sum over the `k` blocks of the sums over each block's `m` rows. -/
theorem sum_blocks {M : Type*} [AddCommMonoid M] (k m N : Nat) (hN : k * m = N) (f : Fin N → M)
    (row : Fin k → Fin m → Fin N) (hrow : ∀ b r, (row b r).val = m * b.val + r.val) :
    ∑ i, f i = ∑ b : Fin k, ∑ r : Fin m, f (row b r) := by
  subst hN
  rw [← Equiv.sum_comp (finProdFinEquiv (m := k) (n := m)) f, Fintype.sum_prod_type]
  refine Finset.sum_congr rfl fun b _ => Finset.sum_congr rfl fun r _ => congrArg f ?_
  apply Fin.ext
  rw [hrow]
  simp [finProdFinEquiv, Nat.add_comm]

/-- Two blocks. -/
theorem sum_blocks_two {M : Type*} [AddCommMonoid M] (m N : Nat) (hN : 2 * m = N) (f : Fin N → M)
    (row : Fin 2 → Fin m → Fin N) (hrow : ∀ b r, (row b r).val = m * b.val + r.val) :
    ∑ i, f i = (∑ r : Fin m, f (row 0 r)) + ∑ r : Fin m, f (row 1 r) := by
  rw [sum_blocks 2 m N hN f row hrow, Fin.sum_univ_two]

/-- Four blocks. -/
theorem sum_blocks_four {M : Type*} [AddCommMonoid M] (m N : Nat) (hN : 4 * m = N) (f : Fin N → M)
    (row : Fin 4 → Fin m → Fin N) (hrow : ∀ b r, (row b r).val = m * b.val + r.val) :
    ∑ i, f i = (∑ r : Fin m, f (row 0 r)) + (∑ r : Fin m, f (row 1 r))
      + (∑ r : Fin m, f (row 2 r)) + ∑ r : Fin m, f (row 3 r) := by
  rw [sum_blocks 4 m N hN f row hrow, Fin.sum_univ_four]

end Cert.Lib
-- ==== Proof.SpecLaw.lean ====
/-
  The two arrangements of the block agree wherever the three projections are real numbers.

  * `KV_eq_sum`: the matrix `Kᵀ V` accumulated in four blocks of 2048 tokens, two and two from zero, is the plain
    sum over all 8192 tokens. Only `0 + a = a`, associativity and the splitting of a sum into blocks.
  * `ctxKer_eq_ctxRef`: with `Q`, `K`, `V` real, `∑ d, Q n d * ∑ n', K n' d * V n' e` and
    `∑ n', (∑ d, Q n d * K n' d) * V n' e` are the same real number: distributivity and an exchange of the two sums,
    carried out in `ℝ` and transported along the coercion `ℝ → EReal`. This is the only use of finiteness.
  * `GkerAt_eq_Gat`: given equal contexts, the hidden layer summed in two halves from zero is the sum over all 4096
    units, and the last bias moves across the residual by associativity of `+`.
-/
import proofs.«157025_j56100862820442_2_alg».proof.Proof.Spec
import proofs.«157025_j56100862820442_2_alg».proof.Proof.LibBlockSplit

noncomputable section

open scoped BigOperators

namespace Cert.LinAttn

open Idealize.ShloMosaic Idealize.ShloMosaic.ValueIdx

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A linear layer of real arrays is real. -/
theorem lin_real {N K D : Nat} (x : Mat N K) (W : Mat D K) (b : Vc D)
    (hx : ∀ i, ∃ r : ℝ, x i = (r : EReal)) (hW : ∀ i, ∃ r : ℝ, W i = (r : EReal))
    (hb : ∀ i, ∃ r : ℝ, b i = (r : EReal)) :
    ∃ q : Fin N → Fin D → ℝ, ∀ n d, lin x W b n d = (q n d : EReal) := by
  choose xr hxr using hx
  choose wr hwr using hW
  choose br hbr using hb
  refine ⟨fun n d => (∑ k : Fin K, xr (ix2 n k) * wr (ix2 d k)) + br (ix1 d), fun n d => ?_⟩
  unfold lin
  rw [EReal.coe_add, coe_sum, hbr]
  congr 1
  refine Finset.sum_congr rfl fun k _ => ?_
  rw [hxr, hwr, EReal.coe_mul]

/-- `Kᵀ V` accumulated block by block is the sum over all tokens. -/
theorem KV_eq_sum (p : Params) (d e : Fin 128) :
    KV p d e = ∑ n' : Fin 8192, K p n' d * V p n' e := by
  rw [Cert.Lib.sum_blocks_four 2048 8192 rfl (fun n' => K p n' d * V p n' e) blockRow (fun _ _ => rfl)]
  unfold KV kvHalf kvBlock
  rw [zero_add, zero_add, ← add_assoc]
  rfl

/-- With real projections the two orders of evaluating the attention give the same context. -/
theorem ctxKer_eq_ctxRef (p : Params) (h : RealQKV p) : ctxKer p = ctxRef p := by
  obtain ⟨hx, hWq, hbq, hWk, hbk, hWv, hbv⟩ := h
  obtain ⟨qr, hq⟩ := lin_real p.x p.Wq p.bq hx hWq hbq
  obtain ⟨kr, hk⟩ := lin_real p.x p.Wk p.bk hx hWk hbk
  obtain ⟨vr, hv⟩ := lin_real p.x p.Wv p.bv hx hWv hbv
  have hQ : ∀ n d, Q p n d = (qr n d : EReal) := hq
  have hK : ∀ n d, K p n d = (kr n d : EReal) := hk
  have hV : ∀ n d, V p n d = (vr n d : EReal) := hv
  funext n e
  unfold ctxKer ctxRef
  simp only [KV_eq_sum, hQ, hK, hV]
  simp only [← EReal.coe_mul, ← coe_sum]
  congr 1
  simp only [Finset.mul_sum, Finset.sum_mul]
  rw [Finset.sum_comm]
  refine Finset.sum_congr rfl fun n' _ => Finset.sum_congr rfl fun d _ => ?_
  ring

/-- The two arrangements agree at every entry. -/
theorem GkerAt_eq_Gat (p : Params) (h : RealQKV p) (n : Fin 8192) (j : Fin 1024) : GkerAt p n j = Gat p n j := by
  unfold GkerAt Gat ffnHalf
  rw [ctxKer_eq_ctxRef p h]
  rw [Cert.Lib.sum_blocks_two 2048 4096 rfl (fun f => hid p (ctxRef p) n f * p.W2 (ix2 j f)) halfUnit
    (fun _ _ => rfl)]
  rw [zero_add, add_assoc]

/-- The two arrangements agree as arrays. -/
theorem Gker_eq_G (p : Params) (h : RealQKV p) : Gker p = G p := by
  funext i
  exact GkerAt_eq_Gat p h (i 0) (i 1)

end Cert.LinAttn

end
-- ==== Proof.FinitePre.lean ====
/-
  Finiteness of the arguments, read back from the precondition `Cert.Pre_finite_inputs.fn`.

  The predicate is a conjunction, over the thirteen argument arrays, of "every entry `x` has `|x| < +∞`": each
  conjunct is a reduction by `and` of the array of comparisons `|x i| < +∞` from the constant 1, and the conjuncts
  are joined by `and`. If the whole is 1 then every conjunct is 1, a reduction by `and` that is 1 met only 1s, and an
  extended real with `max x (-x) < ⊤` is neither `⊤` nor `⊥`, so it is (the coercion of) a real number.
  The conclusions are stated for the first seven arrays: the token array and the three projections' weights and biases.
-/
import proofs.«157025_j56100862820442_2_alg».proof.Defs
import Idealize.ShloMosaic.Lib.ReduceAll
import Idealize.ShloMosaic.Lib.ValueIdx

noncomputable section

namespace Cert.KernelIdeal.FinitePre

open Idealize.ShloMosaic Idealize.ShloMosaic.ValueIdx Idealize.SL.Sem

/-- The scalar shape has one index. -/
instance : Subsingleton Cert.Pre_finite_inputs.S_.Idx := ⟨fun a b => funext fun d => d.elim0⟩

/-- One value: `|x| < +∞`, the pattern `0x7F800000` being `+∞`, says that `x` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array: if the reduction by `and` of the comparisons `|x i| < +∞` is 1, every entry of `x` is a real number. -/
theorem real_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
          (cmpf .olt (Host.absf x)
            (broadcastInDim s ![] bc (constant Cert.Pre_finite_inputs.S_ .f32 0x7F800000#32)))
          init hr hu ix0 = 1#1)
    (i : s.Idx) : ∃ r : ℝ, x i = (r : EReal) :=
  real_of_abs_lt_inf (x i) (Host.reduce_andi_all _ init hr hu ix0 h i)

section
open Cert.Pre_finite_inputs
variable [Cert.Pre_finite_inputs.Facts]

/-- The predicate over variable arrays: if it is 1, every entry of each of the first seven arrays is real. -/
theorem fn_real (a0 : FVec Ideal S8192x1024 .f32) (a1 : FVec Ideal S128x1024 .f32) (a2 : FVec Ideal S128 .f32)
    (a3 : FVec Ideal S128x1024 .f32) (a4 : FVec Ideal S128 .f32) (a5 : FVec Ideal S128x1024 .f32)
    (a6 : FVec Ideal S128 .f32) (a7 : FVec Ideal S1024x128 .f32) (a8 : FVec Ideal S1024 .f32)
    (a9 : FVec Ideal S4096x1024 .f32) (a10 : FVec Ideal S4096 .f32) (a11 : FVec Ideal S1024x4096 .f32)
    (a12 : FVec Ideal S1024 .f32)
    (h : fn (F := Ideal) a0 a1 a2 a3 a4 a5 a6 a7 a8 a9 a10 a11 a12 ix0 = 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  dsimp only [fn, fn_part1, fn_part2, fn_part3, Idealize.ShloMosaic.andi] at h
  simp only [IntOp.andi_eq_one] at h
  obtain ⟨⟨⟨⟨⟨⟨⟨⟨⟨⟨⟨⟨h0, h1⟩, h2⟩, h3⟩, h4⟩, h5⟩, h6⟩, _⟩, _⟩, _⟩, _⟩, _⟩, _⟩ := h
  exact ⟨real_of_all a0 _ _ _ _ h0, real_of_all a1 _ _ _ _ h1, real_of_all a2 _ _ _ _ h2, real_of_all a3 _ _ _ _ h3,
    real_of_all a4 _ _ _ _ h4, real_of_all a5 _ _ _ _ h5, real_of_all a6 _ _ _ _ h6⟩

end

variable [hPre_finite_inputs : Cert.Pre_finite_inputs.Facts]

/-- The seven facts at once, for the memory of one device. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : (⟨2, ![8192, 1024]⟩ : Shape).Idx, ∃ r : ℝ, m ((c.tc : Thread Cert.KernelIdeal.nD Cert.KernelIdeal.τ).loc Cert.KernelIdeal.main_arg0) i = (r : EReal))
    ∧ (∀ i : (⟨2, ![128, 1024]⟩ : Shape).Idx, ∃ r : ℝ, m ((c.tc : Thread Cert.KernelIdeal.nD Cert.KernelIdeal.τ).loc Cert.KernelIdeal.main_arg1) i = (r : EReal))
    ∧ (∀ i : (⟨1, ![128]⟩ : Shape).Idx, ∃ r : ℝ, m ((c.tc : Thread Cert.KernelIdeal.nD Cert.KernelIdeal.τ).loc Cert.KernelIdeal.main_arg2) i = (r : EReal))
    ∧ (∀ i : (⟨2, ![128, 1024]⟩ : Shape).Idx, ∃ r : ℝ, m ((c.tc : Thread Cert.KernelIdeal.nD Cert.KernelIdeal.τ).loc Cert.KernelIdeal.main_arg3) i = (r : EReal))
    ∧ (∀ i : (⟨1, ![128]⟩ : Shape).Idx, ∃ r : ℝ, m ((c.tc : Thread Cert.KernelIdeal.nD Cert.KernelIdeal.τ).loc Cert.KernelIdeal.main_arg4) i = (r : EReal))
    ∧ (∀ i : (⟨2, ![128, 1024]⟩ : Shape).Idx, ∃ r : ℝ, m ((c.tc : Thread Cert.KernelIdeal.nD Cert.KernelIdeal.τ).loc Cert.KernelIdeal.main_arg5) i = (r : EReal))
    ∧ (∀ i : (⟨1, ![128]⟩ : Shape).Idx, ∃ r : ℝ, m ((c.tc : Thread Cert.KernelIdeal.nD Cert.KernelIdeal.τ).loc Cert.KernelIdeal.main_arg6) i = (r : EReal)) :=
  fn_real _ _ _ _ _ _ _ _ _ _ _ _ _ (congrFun (h c) ix0)

/-- Every entry of argument 0 is a real number. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) (i : (⟨2, ![8192, 1024]⟩ : Shape).Idx) :
    ∃ r : ℝ, m ((c.tc : Thread Cert.KernelIdeal.nD Cert.KernelIdeal.τ).loc Cert.KernelIdeal.main_arg0) i = (r : EReal) :=
  (real_args m h c).1 i

/-- Every entry of argument 1 is a real number. -/
theorem real_arg1 (m : (ℓ : Loc Cert.KernelIdeal.nD Cert.KernelIdeal.τ Cert.KernelIdeal.sig) → Buf (Elt Ideal) ℓ)
    (h : Cert.Pre_KernelIdeal m) (c : Dev Cert.KernelIdeal.nD) (i : (⟨2, ![128, 1024]⟩ : Shape).Idx) :
    ∃ r : ℝ, m ((c.tc : Thread Cert.KernelIdeal.nD Cert.KernelIdeal.τ).loc Cert.KernelIdeal.main_arg1) i = (r : EReal) :=
  (real_args m h c).2.1 i

/-- Every entry of argument 2 is a real number. -/
theorem real_arg2 (m : (ℓ : Loc Cert.KernelIdeal.nD Cert.KernelIdeal.τ Cert.KernelIdeal.sig) → Buf (Elt Ideal) ℓ)
    (h : Cert.Pre_KernelIdeal m) (c : Dev Cert.KernelIdeal.nD) (i : (⟨1, ![128]⟩ : Shape).Idx) :
    ∃ r : ℝ, m ((c.tc : Thread Cert.KernelIdeal.nD Cert.KernelIdeal.τ).loc Cert.KernelIdeal.main_arg2) i = (r : EReal) :=
  (real_args m h c).2.2.1 i

/-- Every entry of argument 3 is a real number. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) (i : (⟨2, ![128, 1024]⟩ : Shape).Idx) :
    ∃ r : ℝ, m ((c.tc : Thread Cert.KernelIdeal.nD Cert.KernelIdeal.τ).loc Cert.KernelIdeal.main_arg3) i = (r : EReal) :=
  (real_args m h c).2.2.2.1 i

/-- Every entry of argument 4 is a real number. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) (i : (⟨1, ![128]⟩ : Shape).Idx) :
    ∃ r : ℝ, m ((c.tc : Thread Cert.KernelIdeal.nD Cert.KernelIdeal.τ).loc Cert.KernelIdeal.main_arg4) i = (r : EReal) :=
  (real_args m h c).2.2.2.2.1 i

/-- Every entry of argument 5 is a real number. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) (i : (⟨2, ![128, 1024]⟩ : Shape).Idx) :
    ∃ r : ℝ, m ((c.tc : Thread Cert.KernelIdeal.nD Cert.KernelIdeal.τ).loc Cert.KernelIdeal.main_arg5) i = (r : EReal) :=
  (real_args m h c).2.2.2.2.2.1 i

/-- Every entry of argument 6 is a real number. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) (i : (⟨1, ![128]⟩ : Shape).Idx) :
    ∃ r : ℝ, m ((c.tc : Thread Cert.KernelIdeal.nD Cert.KernelIdeal.τ).loc Cert.KernelIdeal.main_arg6) i = (r : EReal) :=
  (real_args m h c).2.2.2.2.2.2 i

end Cert.KernelIdeal.FinitePre

end
-- ==== Proof.lean ====
/-
  The certificate of a softmax-free attention block followed by a ReLU feed-forward layer, as two TPU kernels, against
  its plain reference.

  THE PROGRAMS. The reference computes, for 8192 tokens of 1024 features, the projections `Q`, `K`, `V` into 128
  dimensions, the context `(Q Kᵀ) V` through an 8192 × 8192 score, an output projection added to the input, and a
  4096-unit ReLU layer added to that. The kernel's program computes the same value in the order `Q (Kᵀ V)`: a first kernel
  accumulates the 128 × 128 matrix `Kᵀ V` over the tokens (four blocks of 2048 rows, two per half of a 2 × 2 grid, the
  accumulator kept in a scratch buffer across the two points of a half), the host adds the two halves, and a second kernel,
  tile by tile of 512 tokens, forms the query, the context against that matrix, the two residuals and the hidden layer
  in two halves of 2048 units.

  THE FRAMES. Each of the kernel's two programs (the words as printed, and the same text read over the extended reals)
  is run as four segments — host operations, the first region, host operations, the second region — with the contents
  of the core's buffers named at each of the five boundaries; no segment writes an argument array. The reference is a
  straight line of host operations.

  THE VALUE. Over the extended reals a change of float format is the identity, a matrix product into a zero accumulator
  is a plain sum, and the two programs differ only in the order of the triple sum in the context (associativity of the
  matrix product, which needs distributivity and so needs `Q`, `K` and `V` to be real: they are, the inputs being
  finite), in the grouping of the sums over tokens and over hidden units into blocks, and in where the last bias is
  added. The idealized kernel's result array is the kernel-order arrangement `Gker` of the arguments, the
  reference's is `G`, and the two agree on finite inputs.
-/
import proofs.«157025_j56100862820442_2_alg».proof.Defs
import proofs.«157025_j56100862820442_2_alg».proof.Proof.Gen.Kernel
import proofs.«157025_j56100862820442_2_alg».proof.Proof.Gen.KernelIdeal
import proofs.«157025_j56100862820442_2_alg».proof.Proof.Gen.ReferenceIdeal
import proofs.«157025_j56100862820442_2_alg».proof.Proof.Gen.Pre_finite_inputs
import proofs.«157025_j56100862820442_2_alg».proof.Proof.Gen.ReferenceIdeal.Run
import proofs.«157025_j56100862820442_2_alg».proof.Proof.Gen.ReferenceIdeal.Read
import proofs.«157025_j56100862820442_2_alg».proof.Proof.FrameKernel.Run
import proofs.«157025_j56100862820442_2_alg».proof.Proof.FrameKernelIdeal.Run
import proofs.«157025_j56100862820442_2_alg».proof.Proof.Bridge
import proofs.«157025_j56100862820442_2_alg».proof.Proof.RefIsG
import proofs.«157025_j56100862820442_2_alg».proof.Proof.SpecLaw
import proofs.«157025_j56100862820442_2_alg».proof.Proof.FinitePre
import Idealize.ShloMosaic.Adequacy
import Idealize.ShloMosaic.Init

noncomputable section

namespace Cert.Proof

open Idealize.ShloMosaic Idealize.SL.Sem

/-- The printed kernel's program runs and leaves its arguments as launched. -/
theorem frame_k : Cert.frame_Kernel := fun m ρ _ => Cert.Kernel.Frm.frame m ρ

/-- So does its reading over the extended reals. -/
theorem frame_ki : Cert.frame_KernelIdeal := fun m ρ _ => Cert.KernelIdeal.Frm.frame m ρ

/-- The reference is host operations only: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Finite inputs: every entry of the arrays the three projections read is a real number. -/
theorem realQKV (m : (ℓ : Loc Cert.KernelIdeal.nD Cert.KernelIdeal.τ Cert.KernelIdeal.sig) → Buf (Elt Ideal) ℓ)
    (h : Cert.Pre_KernelIdeal m) (c : Dev Cert.KernelIdeal.nD) : Cert.LinAttn.RealQKV (Cert.KernelIdeal.Val.params m c) :=
  ⟨fun i => Cert.KernelIdeal.FinitePre.real_arg0 m h c i, fun i => Cert.KernelIdeal.FinitePre.real_arg1 m h c i,
   fun i => Cert.KernelIdeal.FinitePre.real_arg2 m h c i, fun i => Cert.KernelIdeal.FinitePre.real_arg3 m h c i,
   fun i => Cert.KernelIdeal.FinitePre.real_arg4 m h c i, fun i => Cert.KernelIdeal.FinitePre.real_arg5 m h c i,
   fun i => Cert.KernelIdeal.FinitePre.real_arg6 m h c i⟩

/-- Over the extended reals, from memories agreeing on the arguments, both programs end with the result array at the
    kernel-order arrangement of the arguments: the kernel's by its run read through the two regions, the reference's
    because its own arrangement agrees with it on finite inputs. -/
theorem algebraic : Cert.algebraic_KernelIdeal_ReferenceIdeal := by
  intro m ρ m' ρ' hpre hagree
  refine ⟨fun c => Cert.LinAttn.Gker (Cert.KernelIdeal.Val.params m c), ?_, ?_⟩
  · exact (θ_run (Cert.KernelIdeal.defs (F := Ideal)) _ _).mono
      (fun r h c => ⟨(h c).1.trans (Cert.KernelIdeal.Val.result_eq m c), (h c).2⟩)
      (Cert.KernelIdeal.Frm.run_result (F := Ideal) m ρ)
  · refine (θ_run (Cert.ReferenceIdeal.defs (F := Ideal)) _ _).mono (fun r h c => ⟨(h c).1.trans ?_, (h c).2⟩)
      (Cert.ReferenceIdeal.RefValue.run m' ρ')
    have hp : Cert.ReferenceIdeal.RefValue.params m' c = Cert.KernelIdeal.Val.params m c := by
      unfold Cert.ReferenceIdeal.RefValue.params Cert.KernelIdeal.Val.params
      obtain ⟨h0, h1, h2, h3, h4, h5, h6, h7, h8, h9, h10, h11, h12⟩ := hagree c
      rw [h0, h1, h2, h3, h4, h5, h6, h7, h8, h9, h10, h11, h12]
    rw [hp]
    exact (Cert.LinAttn.Gker_eq_G _ (realQKV m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
